-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536 : Shape := ⟨1, ![65536]⟩
abbrev S2x1048576 : Shape := ⟨2, ![2, 1048576]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S65536x128 .f32) (main_arg1 : IVec S65536 32) (main_arg2 : IVec S2x1048576 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x1 .f32) (main_arg10 : FVec F S1 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S65536x128 : Shape := ⟨2, ![65536, 128]⟩
abbrev S65536 : Shape := ⟨1, ![65536]⟩
abbrev S2x1048576 : Shape := ⟨2, ![2, 1048576]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1048576 : Shape := ⟨2, ![1, 1048576]⟩
abbrev S1048576 : Shape := ⟨1, ![1048576]⟩
abbrev S_ : Shape := ⟨0, ![]⟩
abbrev S128x512x512 : Shape := ⟨3, ![128, 512, 512]⟩
abbrev S1048576x1 : Shape := ⟨2, ![1048576, 1]⟩
abbrev S1048576x3 : Shape := ⟨2, ![1048576, 3]⟩
abbrev S128x512x128 : Shape := ⟨3, ![128, 512, 128]⟩
abbrev S8x512x512 : Shape := ⟨3, ![8, 512, 512]⟩
abbrev S8x512x128 : Shape := ⟨3, ![8, 512, 128]⟩
abbrev S8x128 : Shape := ⟨2, ![8, 128]⟩
abbrev S1x512x512 : Shape := ⟨3, ![1, 512, 512]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S1x128 : Shape := ⟨2, ![1, 128]⟩
abbrev S1x64 : Shape := ⟨2, ![1, 64]⟩
abbrev S128x1 : Shape := ⟨2, ![128, 1]⟩
abbrev S1x1 : Shape := ⟨2, ![1, 1]⟩

abbrev nBuf : Space → Nat
  | .hbm => 123
  | .vmem => 10
  | .smem => 0
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S2x1048576, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1x1048576, .i32⟩
  | .hbm, ⟨12, _⟩ => ⟨S1048576, .i32⟩
  | .hbm, ⟨13, _⟩ => ⟨S_, .i32⟩
  | .hbm, ⟨14, _⟩ => ⟨S_, .i32⟩
  | .hbm, ⟨15, _⟩ => ⟨S1048576, .i32⟩
  | .hbm, ⟨16, _⟩ => ⟨S1048576, .i32⟩
  | .hbm, ⟨17, _⟩ => ⟨S1048576, .i32⟩
  | .hbm, ⟨18, _⟩ => ⟨S_, .i32⟩
  | .hbm, ⟨19, _⟩ => ⟨S1048576, .i32⟩
  | .hbm, ⟨20, _⟩ => ⟨S1048576, .i1⟩
  | .hbm, ⟨21, _⟩ => ⟨S1048576, .i32⟩
  | .hbm, ⟨22, _⟩ => ⟨S1048576, .i32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S1048576, .i1⟩
  | .hbm, ⟨27, _⟩ => ⟨S_, .i32⟩
  | .hbm, ⟨28, _⟩ => ⟨S1048576, .i32⟩
  | .hbm, ⟨29, _⟩ => ⟨S1048576, .i32⟩
  | .hbm, ⟨30, _⟩ => ⟨S1048576, .i32⟩
  | .hbm, ⟨31, _⟩ => ⟨S1x1048576, .i32⟩
  | .hbm, ⟨32, _⟩ => ⟨S1048576, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S1048576, .i32⟩
  | .hbm, ⟨40, _⟩ => ⟨S1048576, .i32⟩
  | .hbm, ⟨41, _⟩ => ⟨S_, .i32⟩
  | .hbm, ⟨42, _⟩ => ⟨S1048576, .i32⟩
  | .hbm, ⟨43, _⟩ => ⟨S1048576, .i1⟩
  | .hbm, ⟨44, _⟩ => ⟨S_, .i32⟩
  | .hbm, ⟨45, _⟩ => ⟨S1048576, .i32⟩
  | .hbm, ⟨46, _⟩ => ⟨S1048576, .i1⟩
  | .hbm, ⟨47, _⟩ => ⟨S_, .i32⟩
  | .hbm, ⟨48, _⟩ => ⟨S_, .i1⟩
  | .hbm, ⟨49, _⟩ => ⟨S1048576, .i1⟩
  | .hbm, ⟨50, _⟩ => ⟨S1048576, .i1⟩
  | .hbm, ⟨51, _⟩ => ⟨S1048576, .i1⟩
  | .hbm, ⟨52, _⟩ => ⟨S1048576, .i32⟩
  | .hbm, ⟨53, _⟩ => ⟨S1048576, .i32⟩
  | .hbm, ⟨54, _⟩ => ⟨S1048576, .i32⟩
  | .hbm, ⟨55, _⟩ => ⟨S1x1048576, .i32⟩
  | .hbm, ⟨56, _⟩ => ⟨S1048576, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S1048576, .i32⟩
  | .hbm, ⟨64, _⟩ => ⟨S1048576, .i32⟩
  | .hbm, ⟨65, _⟩ => ⟨S_, .i32⟩
  | .hbm, ⟨66, _⟩ => ⟨S1048576, .i32⟩
  | .hbm, ⟨67, _⟩ => ⟨S1048576, .i1⟩
  | .hbm, ⟨68, _⟩ => ⟨S_, .i32⟩
  | .hbm, ⟨69, _⟩ => ⟨S1048576, .i32⟩
  | .hbm, ⟨70, _⟩ => ⟨S1048576, .i1⟩
  | .hbm, ⟨71, _⟩ => ⟨S_, .i32⟩
  | .hbm, ⟨72, _⟩ => ⟨S_, .i1⟩
  | .hbm, ⟨73, _⟩ => ⟨S1048576, .i1⟩
  | .hbm, ⟨74, _⟩ => ⟨S1048576, .i1⟩
  | .hbm, ⟨75, _⟩ => ⟨S1048576, .i1⟩
  | .hbm, ⟨76, _⟩ => ⟨S1048576, .i32⟩
  | .hbm, ⟨77, _⟩ => ⟨S1048576, .i32⟩
  | .hbm, ⟨78, _⟩ => ⟨S1048576, .i32⟩
  | .hbm, ⟨79, _⟩ => ⟨S_, .f32⟩
  | .hbm, ⟨80, _⟩ => ⟨S128x512x512, .f32⟩
  | .hbm, ⟨81, _⟩ => ⟨S_, .i32⟩
  | .hbm, ⟨82, _⟩ => ⟨S1048576, .i32⟩
  | .hbm, ⟨83, _⟩ => ⟨S1048576, .i1⟩
  | .hbm, ⟨84, _⟩ => ⟨S_, .i32⟩
  | .hbm, ⟨85, _⟩ => ⟨S1048576, .i32⟩
  | .hbm, ⟨86, _⟩ => ⟨S1048576, .i32⟩
  | .hbm, ⟨87, _⟩ => ⟨S1048576, .i32⟩
  | .hbm, ⟨88, _⟩ => ⟨S_, .i32⟩
  | .hbm, ⟨89, _⟩ => ⟨S1048576, .i32⟩
  | .hbm, ⟨90, _⟩ => ⟨S1048576, .i1⟩
  | .hbm, ⟨91, _⟩ => ⟨S_, .i32⟩
  | .hbm, ⟨92, _⟩ => ⟨S1048576, .i32⟩
  | .hbm, ⟨93, _⟩ => ⟨S1048576, .i32⟩
  | .hbm, ⟨94, _⟩ => ⟨S1048576, .i32⟩
  | .hbm, ⟨95, _⟩ => ⟨S_, .i32⟩
  | .hbm, ⟨96, _⟩ => ⟨S1048576, .i32⟩
  | .hbm, ⟨97, _⟩ => ⟨S1048576, .i1⟩
  | .hbm, ⟨98, _⟩ => ⟨S_, .i32⟩
  | .hbm, ⟨99, _⟩ => ⟨S1048576, .i32⟩
  | .hbm, ⟨100, _⟩ => ⟨S1048576, .i32⟩
  | .hbm, ⟨101, _⟩ => ⟨S1048576, .i32⟩
  | .hbm, ⟨102, _⟩ => ⟨S1048576x1, .i32⟩
  | .hbm, ⟨103, _⟩ => ⟨S1048576x1, .i32⟩
  | .hbm, ⟨104, _⟩ => ⟨S1048576x1, .i32⟩
  | .hbm, ⟨105, _⟩ => ⟨S1048576x3, .i32⟩
  | .hbm, ⟨106, _⟩ => ⟨S_, .f32⟩
  | .hbm, ⟨107, _⟩ => ⟨S1048576, .f32⟩
  | .hbm, ⟨108, _⟩ => ⟨S128x512x512, .f32⟩
  | .hbm, ⟨109, _⟩ => ⟨S128x512x128, .f32⟩
  | .hbm, ⟨110, _⟩ => ⟨S128x128, .f32⟩
  | .hbm, ⟨111, _⟩ => ⟨S128x64, .f32⟩
  | .hbm, ⟨112, _⟩ => ⟨S1x64, .f32⟩
  | .hbm, ⟨113, _⟩ => ⟨S128x64, .f32⟩
  | .hbm, ⟨114, _⟩ => ⟨S128x64, .f32⟩
  | .hbm, ⟨115, _⟩ => ⟨S_, .f32⟩
  | .hbm, ⟨116, _⟩ => ⟨S128x64, .f32⟩
  | .hbm, ⟨117, _⟩ => ⟨S128x64, .f32⟩
  | .hbm, ⟨118, _⟩ => ⟨S128x1, .f32⟩
  | .hbm, ⟨119, _⟩ => ⟨S1x1, .f32⟩
  | .hbm, ⟨120, _⟩ => ⟨S128x1, .f32⟩
  | .hbm, ⟨121, _⟩ => ⟨S128x1, .f32⟩
  | .hbm, ⟨122, _⟩ => ⟨S128, .f32⟩
  | .local _ .vmem, ⟨0, _⟩ => ⟨S8x512x512, .f32⟩
  | .local _ .vmem, ⟨1, _⟩ => ⟨S8x512x512, .f32⟩
  | .local _ .vmem, ⟨2, _⟩ => ⟨S8x512x128, .f32⟩
  | .local _ .vmem, ⟨3, _⟩ => ⟨S8x512x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S8x128, .f32⟩
  | .local _ .vmem, ⟨9, _⟩ => ⟨S8x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_c_1 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v8 : Ref sig .tc := ⟨.hbm, 78, rfl⟩
abbrev main_cst : Ref sig .tc := ⟨.hbm, 79, rfl⟩
abbrev main_v9 : Ref sig .tc := ⟨.hbm, 80, rfl⟩
abbrev main_c_2 : Ref sig .tc := ⟨.hbm, 81, rfl⟩
abbrev main_v10 : Ref sig .tc := ⟨.hbm, 82, rfl⟩
abbrev main_v11 : Ref sig .tc := ⟨.hbm, 83, rfl⟩
abbrev main_c_3 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_c_4 : Ref sig .tc := ⟨.hbm, 88, rfl⟩
abbrev main_v15 : Ref sig .tc := ⟨.hbm, 89, rfl⟩
abbrev main_v16 : Ref sig .tc := ⟨.hbm, 90, rfl⟩
abbrev main_c_5 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_c_6 : Ref sig .tc := ⟨.hbm, 95, rfl⟩
abbrev main_v20 : Ref sig .tc := ⟨.hbm, 96, rfl⟩
abbrev main_v21 : Ref sig .tc := ⟨.hbm, 97, rfl⟩
abbrev main_c_7 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_cst_8 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_call3_cst : Ref sig .tc := ⟨.hbm, 115, rfl⟩
abbrev main_call3_v0 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_off1 (k0_t1 : Fin k0_t1_loop.trips) : Fin 3 → Nat :=
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v7 : BitVec 32 := Scalar.muli arg8 c1_i32_6
  let v8 : BitVec 32 := Scalar.addi c0_i32_7 v7
  let v9 : Index := Scalar.indexCast v8
  let c0_8 : Index := 0#32
  let c0_9 : Index := 0#32
  ![v9.toNat, 0, 0]
def k0_off2 (k0_t1 : Fin k0_t1_loop.trips) : Fin 3 → Nat :=
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v7 : BitVec 32 := Scalar.muli arg8 c1_i32_6
  let v8 : BitVec 32 := Scalar.addi c0_i32_7 v7
  let v12 : Index := Scalar.indexCast v8
  let c0_10 : Index := 0#32
  let c0_11 : Index := 0#32
  ![v12.toNat, 0, 0]
def k0_off3 (k0_t1 : Fin k0_t1_loop.trips) : Fin 2 → Nat :=
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v7 : BitVec 32 := Scalar.muli arg8 c1_i32_6
  let v8 : BitVec 32 := Scalar.addi c0_i32_7 v7
  let v65 : Index := Scalar.indexCast v8
  let c0_27 : Index := 0#32
  ![v65.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1048576_S1x1048576_0_0 : S2x1048576.Slices ![0, 0] S1x1048576
  shapeCasts_S1x1048576_S1048576 : S1x1048576.ShapeCasts S1048576
  bcast_S_S1048576 : S_.BroadcastsInDim S1048576 (![] : Fin 0 → Fin S1048576.rank)
  slices_S2x1048576_S1x1048576_1_0 : S2x1048576.Slices ![1, 0] S1x1048576
  bcast_S_S128x512x512 : S_.BroadcastsInDim S128x512x512 (![] : Fin 0 → Fin S128x512x512.rank)
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  shapeCasts_S65536x128_S128x512x128 : S65536x128.ShapeCasts S128x512x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  h_S1x512x512 : 0 < S1x512x512.numel
  shapeCasts_S1x512x512_S512x512 : S1x512x512.ShapeCasts S512x512
  h_S1x512x128 : 0 < S1x512x128.numel
  shapeCasts_S1x512x128_S512x128 : S1x512x128.ShapeCasts S512x128
  reduces_S512x512_S512 : S512x512.Reduces [1] S512
  shapeCasts_S512_S512x1 : S512.ShapeCasts S512x1
  broadcasts_S512x1_S512x512 : S512x1.Broadcasts S512x512
  shapeCasts_S512_S1x512 : S512.ShapeCasts S1x512
  broadcasts_S1x512_S512x512 : S1x512.Broadcasts S512x512
  shapeCasts_S128_S1x128 : S128.ShapeCasts S1x128
  broadcasts_S1x128_S512x128 : S1x128.Broadcasts S512x128
  reduces_S512x128_S128 : S512x128.Reduces [0] S128
  h_S1x128 : 0 < S1x128.numel
  shapeCasts_S1x128_S128 : S1x128.ShapeCasts S128
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  scatter_S128x512x512_S1048576x3_S1048576_n_012_012_1_wf : ScatterDims.WF S128x512x512 S1048576x3 S1048576 [] [0, 1, 2] [0, 1, 2] 1
  dot_S512x512_S512x128_S512x128_1_0_0_1_n_n_wf : DotDims.WF S512x512 S512x128 S512x128 [1] [0] [0] [1] [] []
  dot_S512x128_S128x128_S512x128_1_0_0_1_n_n_wf : DotDims.WF S512x128 S128x128 S512x128 [1] [0] [0] [1] [] []
  dot_S128x128_S128x64_S128x64_1_0_0_1_n_n_wf : DotDims.WF S128x128 S128x64 S128x64 [1] [0] [0] [1] [] []
  dot_S128x64_S64x1_S128x1_1_0_0_1_n_n_wf : DotDims.WF S128x64 S64x1 S128x1 [1] [0] [0] [1] [] []
  hrank0 : 0 < grid0.rank
  k0_t1_ok : k0_t1_loop.OK
  k0_off1_inb : ∀ k0_t1 : Fin k0_t1_loop.trips, ∀ a, (k0_off1 k0_t1) a + S1x512x512.size a ≤ S8x512x512.size a
  k0_off2_inb : ∀ k0_t1 : Fin k0_t1_loop.trips, ∀ a, (k0_off2 k0_t1) a + S1x512x128.size a ≤ S8x512x128.size a
  k0_off3_inb : ∀ k0_t1 : Fin k0_t1_loop.trips, ∀ a, (k0_off3 k0_t1) a + S1x128.size a ≤ S8x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S128x512x512.size a
  hwx0_0 : ∀ i : grid0.Coords, EltTy.bits .f32 = 32 ∨ (Rect.block (s := S128x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x128.size a ≤ S128x512x128.size a
  hwx0_1 : ∀ i : grid0.Coords, EltTy.bits .f32 = 32 ∨ (Rect.block (s := S128x512x128) S8x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S128x128.size a
  hwx0_6 : ∀ i : grid0.Coords, EltTy.bits .f32 = 32 ∨ (Rect.block (s := S128x128) S8x128.size (cc0_transform_6 i) (hinb0_6 i)).WholeWords (EltTy.packing .f32)

variable [Facts₀]

def scatter_S128x512x512_S1048576x3_S1048576_n_012_012_1 : ScatterDims S128x512x512 S1048576x3 S1048576 where
  updateWindowDims := []
  insertedWindowDims := [0, 1, 2]
  scatterDimsToOperandDims := [0, 1, 2]
  indexVectorDim := 1
  wf := scatter_S128x512x512_S1048576x3_S1048576_n_012_012_1_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_v30) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S8x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536 : Shape := ⟨1, ![65536]⟩
abbrev S2x1048576 : Shape := ⟨2, ![2, 1048576]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1048576 : Shape := ⟨2, ![1, 1048576]⟩
abbrev S1048576 : Shape := ⟨1, ![1048576]⟩
abbrev S_ : Shape := ⟨0, ![]⟩
abbrev S128x512x512 : Shape := ⟨3, ![128, 512, 512]⟩
abbrev S1048576x1 : Shape := ⟨2, ![1048576, 1]⟩
abbrev S1048576x3 : Shape := ⟨2, ![1048576, 3]⟩
abbrev S128x512 : Shape := ⟨2, ![128, 512]⟩
abbrev S128x512x1 : Shape := ⟨3, ![128, 512, 1]⟩
abbrev S128x1x512 : Shape := ⟨3, ![128, 1, 512]⟩
abbrev S128x512x128 : Shape := ⟨3, ![128, 512, 128]⟩
abbrev S1x1x128 : Shape := ⟨3, ![1, 1, 128]⟩
abbrev S1x64 : Shape := ⟨2, ![1, 64]⟩
abbrev S128x1 : Shape := ⟨2, ![128, 1]⟩
abbrev S1x1 : Shape := ⟨2, ![1, 1]⟩

abbrev nBuf : Space → Nat
  | .hbm => 172
  | .vmem => 0
  | .smem => 0
  | _ => 0

abbrev hbmTy0_0 (i : Nat) : BufTy := match i % 128 with
  | 0 => ⟨S65536x128, .f32⟩
  | 1 => ⟨S65536, .i32⟩
  | 2 => ⟨S2x1048576, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x1, .f32⟩
  | 10 => ⟨S1, .f32⟩
  | 11 => ⟨S1x1048576, .i32⟩
  | 12 => ⟨S1048576, .i32⟩
  | 13 => ⟨S_, .i32⟩
  | 14 => ⟨S_, .i32⟩
  | 15 => ⟨S1048576, .i32⟩
  | 16 => ⟨S1048576, .i32⟩
  | 17 => ⟨S1048576, .i32⟩
  | 18 => ⟨S_, .i32⟩
  | 19 => ⟨S1048576, .i32⟩
  | 20 => ⟨S1048576, .i1⟩
  | 21 => ⟨S1048576, .i32⟩
  | 22 => ⟨S1048576, .i32⟩
  | 23 => ⟨S_, .i32⟩
  | 24 => ⟨S1048576, .i32⟩
  | 25 => ⟨S1048576, .i1⟩
  | 26 => ⟨S1048576, .i1⟩
  | 27 => ⟨S_, .i32⟩
  | 28 => ⟨S1048576, .i32⟩
  | 29 => ⟨S1048576, .i32⟩
  | 30 => ⟨S1048576, .i32⟩
  | 31 => ⟨S1x1048576, .i32⟩
  | 32 => ⟨S1048576, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S1048576, .i32⟩
  | 40 => ⟨S1048576, .i32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i1⟩
  | 47 => ⟨S_, .i32⟩
  | 48 => ⟨S_, .i1⟩
  | 49 => ⟨S1048576, .i1⟩
  | 50 => ⟨S1048576, .i1⟩
  | 51 => ⟨S1048576, .i1⟩
  | 52 => ⟨S1048576, .i32⟩
  | 53 => ⟨S1048576, .i32⟩
  | 54 => ⟨S1048576, .i32⟩
  | 55 => ⟨S1x1048576, .i32⟩
  | 56 => ⟨S1048576, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S1048576, .i32⟩
  | 64 => ⟨S1048576, .i32⟩
  | 65 => ⟨S_, .i32⟩
  | 66 => ⟨S1048576, .i32⟩
  | 67 => ⟨S1048576, .i1⟩
  | 68 => ⟨S_, .i32⟩
  | 69 => ⟨S1048576, .i32⟩
  | 70 => ⟨S1048576, .i1⟩
  | 71 => ⟨S_, .i32⟩
  | 72 => ⟨S_, .i1⟩
  | 73 => ⟨S1048576, .i1⟩
  | 74 => ⟨S1048576, .i1⟩
  | 75 => ⟨S1048576, .i1⟩
  | 76 => ⟨S1048576, .i32⟩
  | 77 => ⟨S1048576, .i32⟩
  | 78 => ⟨S1048576, .i32⟩
  | 79 => ⟨S_, .f32⟩
  | 80 => ⟨S128x512x512, .f32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S1048576, .i32⟩
  | 90 => ⟨S1048576, .i1⟩
  | 91 => ⟨S_, .i32⟩
  | 92 => ⟨S1048576, .i32⟩
  | 93 => ⟨S1048576, .i32⟩
  | 94 => ⟨S1048576, .i32⟩
  | 95 => ⟨S_, .i32⟩
  | 96 => ⟨S1048576, .i32⟩
  | 97 => ⟨S1048576, .i1⟩
  | 98 => ⟨S_, .i32⟩
  | 99 => ⟨S1048576, .i32⟩
  | 100 => ⟨S1048576, .i32⟩
  | 101 => ⟨S1048576, .i32⟩
  | 102 => ⟨S1048576x1, .i32⟩
  | 103 => ⟨S1048576x1, .i32⟩
  | 104 => ⟨S1048576x1, .i32⟩
  | 105 => ⟨S1048576x3, .i32⟩
  | 106 => ⟨S_, .f32⟩
  | 107 => ⟨S1048576, .f32⟩
  | 108 => ⟨S128x512x512, .f32⟩
  | 109 => ⟨S_, .f32⟩
  | 110 => ⟨S128x512, .f32⟩
  | 111 => ⟨S_, .f32⟩
  | 112 => ⟨S128x512, .f32⟩
  | 113 => ⟨S128x512, .i1⟩
  | 114 => ⟨S_, .f32⟩
  | 115 => ⟨S128x512, .f32⟩
  | 116 => ⟨S128x512, .f32⟩
  | 117 => ⟨S128x512, .f32⟩
  | 118 => ⟨S_, .f32⟩
  | 119 => ⟨S_, .f32⟩
  | 120 => ⟨S128x512, .f32⟩
  | 121 => ⟨S128x512, .f32⟩
  | 122 => ⟨S128x512x1, .f32⟩
  | 123 => ⟨S128x512x512, .f32⟩
  | 124 => ⟨S128x512x512, .f32⟩
  | 125 => ⟨S128x1x512, .f32⟩
  | 126 => ⟨S128x512x512, .f32⟩
  | 127 => ⟨S128x512x512, .f32⟩
  | _ => ⟨S65536x128, .f32⟩

abbrev hbmTy0_1 (i : Nat) : BufTy := match i % 128 with
  | 0 => ⟨S128x512x128, .f32⟩
  | 1 => ⟨S128x512x128, .f32⟩
  | 2 => ⟨S128x512x128, .f32⟩
  | 3 => ⟨S128x512x128, .f32⟩
  | 4 => ⟨S128x512x128, .f32⟩
  | 5 => ⟨S128x512x128, .f32⟩
  | 6 => ⟨S128x512x128, .f32⟩
  | 7 => ⟨S128x512x128, .f32⟩
  | 8 => ⟨S1x1x128, .f32⟩
  | 9 => ⟨S128x512x128, .f32⟩
  | 10 => ⟨S128x512x128, .f32⟩
  | 11 => ⟨S_, .f32⟩
  | 12 => ⟨S128x512x128, .f32⟩
  | 13 => ⟨S128x512x128, .f32⟩
  | 14 => ⟨S128x512x128, .f32⟩
  | 15 => ⟨S128x512x128, .f32⟩
  | 16 => ⟨S128x512x128, .f32⟩
  | 17 => ⟨S128x512x128, .f32⟩
  | 18 => ⟨S128x512x128, .f32⟩
  | 19 => ⟨S128x512x128, .f32⟩
  | 20 => ⟨S128x512x128, .f32⟩
  | 21 => ⟨S1x1x128, .f32⟩
  | 22 => ⟨S128x512x128, .f32⟩
  | 23 => ⟨S128x512x128, .f32⟩
  | 24 => ⟨S_, .f32⟩
  | 25 => ⟨S128x512x128, .f32⟩
  | 26 => ⟨S128x512x128, .f32⟩
  | 27 => ⟨S_, .f32⟩
  | 28 => ⟨S128x128, .f32⟩
  | 29 => ⟨S_, .f32⟩
  | 30 => ⟨S128x128, .f32⟩
  | 31 => ⟨S128x128, .f32⟩
  | 32 => ⟨S128x64, .f32⟩
  | 33 => ⟨S1x64, .f32⟩
  | 34 => ⟨S128x64, .f32⟩
  | 35 => ⟨S128x64, .f32⟩
  | 36 => ⟨S_, .f32⟩
  | 37 => ⟨S128x64, .f32⟩
  | 38 => ⟨S128x64, .f32⟩
  | 39 => ⟨S128x1, .f32⟩
  | 40 => ⟨S1x1, .f32⟩
  | 41 => ⟨S128x1, .f32⟩
  | 42 => ⟨S128x1, .f32⟩
  | 43 => ⟨S128, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_c_1 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v8 : Ref sig .tc := ⟨.hbm, 78, rfl⟩
abbrev main_cst : Ref sig .tc := ⟨.hbm, 79, rfl⟩
abbrev main_v9 : Ref sig .tc := ⟨.hbm, 80, rfl⟩
abbrev main_c_2 : Ref sig .tc := ⟨.hbm, 81, rfl⟩
abbrev main_v10 : Ref sig .tc := ⟨.hbm, 82, rfl⟩
abbrev main_v11 : Ref sig .tc := ⟨.hbm, 83, rfl⟩
abbrev main_c_3 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_c_4 : Ref sig .tc := ⟨.hbm, 88, rfl⟩
abbrev main_v15 : Ref sig .tc := ⟨.hbm, 89, rfl⟩
abbrev main_v16 : Ref sig .tc := ⟨.hbm, 90, rfl⟩
abbrev main_c_5 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_c_6 : Ref sig .tc := ⟨.hbm, 95, rfl⟩
abbrev main_v20 : Ref sig .tc := ⟨.hbm, 96, rfl⟩
abbrev main_v21 : Ref sig .tc := ⟨.hbm, 97, rfl⟩
abbrev main_c_7 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_cst_8 : Ref sig .tc := ⟨.hbm, 106, rfl⟩
abbrev main_v29 : Ref sig .tc := ⟨.hbm, 107, rfl⟩
abbrev main_v30 : Ref sig .tc := ⟨.hbm, 108, rfl⟩
abbrev main_cst_9 : Ref sig .tc := ⟨.hbm, 109, rfl⟩
abbrev main_v31 : Ref sig .tc := ⟨.hbm, 110, rfl⟩
abbrev main_cst_10 : Ref sig .tc := ⟨.hbm, 111, rfl⟩
abbrev main_v32 : Ref sig .tc := ⟨.hbm, 112, rfl⟩
abbrev main_v33 : Ref sig .tc := ⟨.hbm, 113, rfl⟩
abbrev main_cst_11 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_cst_12 : Ref sig .tc := ⟨.hbm, 118, rfl⟩
abbrev main_call3_v0 : Ref sig .tc := ⟨.hbm, 119, rfl⟩
abbrev main_call3_v1 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_call4_cst : Ref sig .tc := ⟨.hbm, 139, rfl⟩
abbrev main_call4_v0 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_call5_cst : Ref sig .tc := ⟨.hbm, 152, rfl⟩
abbrev main_call5_v0 : Ref sig .tc := ⟨.hbm, 153, rfl⟩
abbrev main_v66 : Ref sig .tc := ⟨.hbm, 154, rfl⟩
abbrev main_cst_13 : Ref sig .tc := ⟨.hbm, 155, rfl⟩
abbrev main_v67 : Ref sig .tc := ⟨.hbm, 156, rfl⟩
abbrev main_cst_14 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_call6_cst : Ref sig .tc := ⟨.hbm, 164, rfl⟩
abbrev main_call6_v0 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  bcast_S_S1048576 : S_.BroadcastsInDim S1048576 (![] : Fin 0 → Fin S1048576.rank)
  slices_S2x1048576_S1x1048576_1_0 : S2x1048576.Slices ![1, 0] S1x1048576
  bcast_S_S128x512x512 : S_.BroadcastsInDim S128x512x512 (![] : Fin 0 → Fin S128x512x512.rank)
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  reducesTo_S128x512x512_S128x512_d2 : S128x512x512.ReducesTo [2] S128x512
  h_S_ : 0 < S_.numel
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  bcast_S128x512_S128x1x512_0_2 : S128x512.BroadcastsInDim S128x1x512 (![0, 2] : Fin 2 → Fin S128x1x512.rank)
  bcast_S128x1x512_S128x512x512_0_1_2 : S128x1x512.BroadcastsInDim S128x512x512 (![0, 1, 2] : Fin 3 → Fin S128x512x512.rank)
  shapeCasts_S65536x128_S128x512x128 : S65536x128.ShapeCasts S128x512x128
  bcast_S128_S1x1x128_2 : S128.BroadcastsInDim S1x1x128 (![2] : Fin 1 → Fin S1x1x128.rank)
  bcast_S1x1x128_S128x512x128_0_1_2 : S1x1x128.BroadcastsInDim S128x512x128 (![0, 1, 2] : Fin 3 → Fin S128x512x128.rank)
  bcast_S_S128x512x128 : S_.BroadcastsInDim S128x512x128 (![] : Fin 0 → Fin S128x512x128.rank)
  reducesTo_S128x512x128_S128x128_d1 : S128x512x128.ReducesTo [1] S128x128
  bcast_S_S128x128 : S_.BroadcastsInDim S128x128 (![] : Fin 0 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  scatter_S128x512x512_S1048576x3_S1048576_n_012_012_1_wf : ScatterDims.WF S128x512x512 S1048576x3 S1048576 [] [0, 1, 2] [0, 1, 2] 1
  dot_S128x512x512_S128x512x128_S128x512x128_2_1_1_2_0_0_wf : DotDims.WF S128x512x512 S128x512x128 S128x512x128 [2] [1] [1] [2] [0] [0]
  dot_S128x512x128_S128x128_S128x512x128_2_0_01_1_n_n_wf : DotDims.WF S128x512x128 S128x128 S128x512x128 [2] [0] [0, 1] [1] [] []
  dot_S128x128_S128x64_S128x64_1_0_0_1_n_n_wf : DotDims.WF S128x128 S128x64 S128x64 [1] [0] [0] [1] [] []
  dot_S128x64_S64x1_S128x1_1_0_0_1_n_n_wf : DotDims.WF S128x64 S64x1 S128x1 [1] [0] [0] [1] [] []

variable [Facts₀]

def scatter_S128x512x512_S1048576x3_S1048576_n_012_012_1 : ScatterDims S128x512x512 S1048576x3 S1048576 where
  updateWindowDims := []
  insertedWindowDims := [0, 1, 2]
  scatterDimsToOperandDims := [0, 1, 2]
  indexVectorDim := 1
  wf := scatter_S128x512x512_S1048576x3_S1048576_n_012_012_1_wf
def dot_S128x512x512_S128x512x128_S128x512x128_2_1_1_2_0_0 : DotDims S128x512x512 S128x512x128 S128x512x128 where
  lhsContracting := [2]
  rhsContracting := [1]
  lhsNonContracting := [1]
  rhsNonContracting := [2]
  lhsBatch := [0]
  rhsBatch := [0]
  wf := dot_S128x512x512_S128x512x128_S128x512x128_2_1_1_2_0_0_wf
def dot_S128x512x128_S128x128_S128x512x128_2_0_01_1_n_n : DotDims S128x512x128 S128x128 S128x512x128 where
  lhsContracting := [2]
  rhsContracting := [0]
  lhsNonContracting := [0, 1]
  rhsNonContracting := [1]
  lhsBatch := []
  rhsBatch := []
  wf := dot_S128x512x128_S128x128_S128x512x128_2_0_01_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.KBitsKit.lean ====
/-
  The program around its one region.

  The program is: ninety-nine host operations that build the dense adjacency (integer division and remainders of the
  edge list, a concatenate, a scatter) and regroup the features by graph; the region, a grid of sixteen points, each
  handling eight graphs; ten host operations that apply the read-out layers to the pooled features.

  This module fixes what the region finds in each buffer (the fold of the operations before it over the launch
  memory), shows that the program is "those operations, the region, the later operations", that the later operations
  touch no scoped buffer, allocate nothing and write none of the region's arrays, and that no operation anywhere writes
  an argument — so every argument ends as launched, which is the frame claim once the region's run is supplied.
-/
import proofs.«128234_j52544629899590_1_alg».proof.Proof.Gen.Kernel.Loops
import proofs.«128234_j52544629899590_1_alg».proof.Proof.Gen.Kernel.Launch
import proofs.«128234_j52544629899590_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the operations before it folded over the launch memory. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3, hostOps0_4, hostOps0_5, hostOps0_6] [hostOps1, hostOps1_1, hostOps1_2]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The later operations touch only unscoped TensorCore buffers. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And each writes only its own result buffer, which is none of the region's arrays. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton] <;> exact StableHlo.devRef_ne_of_ne (by decide)

/-! ## No operation writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called with -/

/-- One staging buffer of the output window, through which its contents are stated. -/
abbrev VO0_6 : View sig .tc .vmem S8x128 .f32 := (Memref.whole cc0_stg6_0 : Memref sig .tc .vmem S8x128 .f32).view
abbrev ms0_0 (t : Fin cfg0.N) : Memref sig .tc .vmem S8x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)

/-- The region's invariant: the generator register at some state (the kernel has no scratch of its own). -/
theorem PhiA0_eq (c : Dev nD) :
    (Pipeline.ΦA spec0 c : sProp 𝕄) = iprop(BI.emp ∗ (∃ r, prngReg c r)) := by
  unfold Pipeline.ΦA; rw [scopedRest0_eq]

end Cert.Kernel.Hand

end
-- ==== Proof.KBitsRun.lean ====
/-
  The kernel body on any staging buffers.

  One call of the body loads the two weight matrices and the two biases whole, then runs eight trips; trip k loads
  graph k's adjacency and features from the two large input blocks, computes that graph's pooled features, and stores
  them as row k of the 8 × 128 output block. Nothing else is written. The run below goes through the eight trips by the
  loop's invariant (what the output block holds before trip k: the rows of the trips before it), never trip by trip;
  the list of the output's pieces is found by the run itself.
-/
import proofs.«128234_j52544629899590_1_alg».proof.Proof.KBitsKit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- The pieces the body's stores leave in the output's staging memref (last first), WITH the proof that on whole
    staging memrefs — the six inputs at their contents, the output at anything — the body runs to the continuation
    holding the inputs as they were and the output with those pieces written. -/
noncomputable def kernelRun0_A (c : Dev nD) (i : grid0.Coords) (arg1 : Memref sig .tc .vmem S8x512x512 .f32) (harg1 : arg1.IsWhole) (arg2 : Memref sig .tc .vmem S8x512x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S8x128 .f32) (harg7 : arg7.IsWhole)
    (x0 : Vec F S8x512x512 .f32) (x1 : Vec F S8x512x128 .f32) (x2 : Vec F S128x128 .f32) (x3 : Vec F S128 .f32) (x4 : Vec F S128x128 .f32) (x5 : Vec F S128 .f32) :
    { L6 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc0__gnn_kernel i arg1 harg1 arg2 harg2 arg3 harg3 arg4 harg4 arg5 harg5 arg6 harg6 arg7 harg7) K } := by
  refine ⟨?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.Hand

end
-- ==== Proof.KBitsFrame.lean ====
/-
  The region's run and the frame.

  After the body at grid point t the six input buffers still hold their blocks and the output buffer holds the eight
  rows the trips stored (they tile the 8 × 128 block, so nothing of what was there before is left). With that as the
  pipeline's proof data, the body's run discharges the obligation at every point, the launch theorem runs the whole
  program, and every argument is found as launched at the end: four of them are arrays the pipeline stages and never
  writes, the others no operation touches.
-/
import proofs.«128234_j52544629899590_1_alg».proof.Proof.KBitsRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output tile its 8 × 128 block (eight stores of one row each), so they cover it. -/
theorem cover0_A_6 (c : Dev nD) (i : grid0.Coords) (arg1 : Memref sig .tc .vmem S8x512x512 .f32) (harg1 : arg1.IsWhole) (arg2 : Memref sig .tc .vmem S8x512x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S8x128 .f32) (harg7 : arg7.IsWhole)
    (x0 : Vec F S8x512x512 .f32) (x1 : Vec F S8x512x128 .f32) (x2 : Vec F S128x128 .f32) (x3 : Vec F S128 .f32) (x4 : Vec F S128x128 .f32) (x5 : Vec F S128 .f32) (y : S8x128.Idx) :
    ∃ pc ∈ (kernelRun0_A c i arg1 harg1 arg2 harg2 arg3 harg3 arg4 harg4 arg5 harg5 arg6 harg6 arg7 harg7 x0 x1 x2 x3 x4 x5).1, y ∈ pc.1.set :=
  View.cover_of_tiledL (kernelRun0_A c i arg1 harg1 arg2 harg2 arg3 harg3 arg4 harg4 arg5 harg5 arg6 harg6 arg7 harg7 x0 x1 x2 x3 x4 x5).1 S1x128.size (by sl_kernel_rfl) y

/-- What the run leaves in the output's staging buffer: its pieces read back (over anything: they cover the block). -/
def out0_A_6 (c : Dev nD) (i : grid0.Coords) (arg1 : Memref sig .tc .vmem S8x512x512 .f32) (harg1 : arg1.IsWhole) (arg2 : Memref sig .tc .vmem S8x512x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S8x128 .f32) (harg7 : arg7.IsWhole)
    (x0 : Vec F S8x512x512 .f32) (x1 : Vec F S8x512x128 .f32) (x2 : Vec F S128x128 .f32) (x3 : Vec F S128 .f32) (x4 : Vec F S128x128 .f32) (x5 : Vec F S128 .f32) : Vec F S8x128 .f32 :=
  VO0_6.read (Elt F) (VO0_6.writes (Elt F) VO0_6.junk (kernelRun0_A c i arg1 harg1 arg2 harg2 arg3 harg3 arg4 harg4 arg5 harg5 arg6 harg6 arg7 harg7 x0 x1 x2 x3 x4 x5).1)

/-- What the output's staging buffer holds after the body at point `t`: the run's contents at the point's memrefs and
    input blocks. -/
def outsAt0 (c : Dev nD) (t : Fin cfg0.N) : Vec F S8x128 .f32 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)

/-! ## The pipeline's proof data -/

/-- The arrays as the region finds them; after the body at point `t` each input's buffer at its block and the output's
    at `outsAt0`; the invariant the generator register alone; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 2000000 in
/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAt0
  unfold out0_A_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and at the end every
    array of the pipeline is what the proof data says and every other unscoped buffer is as the later operations leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-! ## The arguments at the end -/

theorem W_main_arg0 (c : Dev nD) :
    Pipeline.afterTail₀ cfgs (dats m) 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg1 (c : Dev nD) :
    Pipeline.afterTail₀ cfgs (dats m) 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (c : Dev nD) :
    Pipeline.afterTail₀ cfgs (dats m) 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg7 (c : Dev nD) :
    Pipeline.afterTail₀ cfgs (dats m) 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem W_main_arg8 (c : Dev nD) :
    Pipeline.afterTail₀ cfgs (dats m) 0 (V0 m) [hostOps1, hostOps1_1, hostOps1_2] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem W_main_arg9 (c : Dev nD) :
    Pipeline.afterTail₀ cfgs (dats m) 0 (V0 m) [hostOps1, hostOps1_1, hostOps1_2] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem W_main_arg10 (c : Dev nD) :
    Pipeline.afterTail₀ cfgs (dats m) 0 (V0 m) [hostOps1, hostOps1_1, hostOps1_2] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- What the run's post says of the eleven arguments: each ends as launched. -/
theorem args_kept {r} (h : Pipeline.FramePost cfgs (dats m) 0 (Pipeline.afterTail₀ cfgs (dats m) 0 (V0 m) [hostOps1, hostOps1_1, hostOps1_2]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (W_main_arg0 m c),
   ((h c).2 main_arg1 (Pipeline.mem_restRefs_of main_arg1 (by decide) (by decide))).trans (W_main_arg1 m c),
   ((h c).2 main_arg2 (Pipeline.mem_restRefs_of main_arg2 (by decide) (by decide))).trans (W_main_arg2 m c),
   ((h c).1 2).trans (((dats m 0 c).arrAt_in 2 rfl _).trans ((A_eq m c 2).trans (V_main_arg3 m c))),
   ((h c).1 3).trans (((dats m 0 c).arrAt_in 3 rfl _).trans ((A_eq m c 3).trans (V_main_arg4 m c))),
   ((h c).1 4).trans (((dats m 0 c).arrAt_in 4 rfl _).trans ((A_eq m c 4).trans (V_main_arg5 m c))),
   ((h c).1 5).trans (((dats m 0 c).arrAt_in 5 rfl _).trans ((A_eq m c 5).trans (V_main_arg6 m c))),
   ((h c).2 main_arg7 (Pipeline.mem_restRefs_of main_arg7 (by decide) (by decide))).trans (W_main_arg7 m c),
   ((h c).2 main_arg8 (Pipeline.mem_restRefs_of main_arg8 (by decide) (by decide))).trans (W_main_arg8 m c),
   ((h c).2 main_arg9 (Pipeline.mem_restRefs_of main_arg9 (by decide) (by decide))).trans (W_main_arg9 m c),
   ((h c).2 main_arg10 (Pipeline.mem_restRefs_of main_arg10 (by decide) (by decide))).trans (W_main_arg10 m c)⟩

/-- THE FRAME, at any float instance: the program runs to the end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => args_kept m h c) (run_main m ρ)

end Cert.Kernel.Hand

end
-- ==== Proof.KIdealKit.lean ====
/-
  The program around its one region.

  The program is: ninety-nine host operations that build the dense adjacency (integer division and remainders of the
  edge list, a concatenate, a scatter) and regroup the features by graph; the region, a grid of sixteen points, each
  handling eight graphs; ten host operations that apply the read-out layers to the pooled features.

  This module fixes what the region finds in each buffer (the fold of the operations before it over the launch
  memory), shows that the program is "those operations, the region, the later operations", that the later operations
  touch no scoped buffer, allocate nothing and write none of the region's arrays, and that no operation anywhere writes
  an argument — so every argument ends as launched, which is the frame claim once the region's run is supplied.
-/
import proofs.«128234_j52544629899590_1_alg».proof.Proof.Gen.KernelIdeal.Loops
import proofs.«128234_j52544629899590_1_alg».proof.Proof.Gen.KernelIdeal.Launch
import proofs.«128234_j52544629899590_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the operations before it folded over the launch memory. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3, hostOps0_4, hostOps0_5, hostOps0_6] [hostOps1, hostOps1_1, hostOps1_2]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The later operations touch only unscoped TensorCore buffers. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And each writes only its own result buffer, which is none of the region's arrays. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton] <;> exact StableHlo.devRef_ne_of_ne (by decide)

/-! ## No operation writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called with -/

/-- One staging buffer of the output window, through which its contents are stated. -/
abbrev VO0_6 : View sig .tc .vmem S8x128 .f32 := (Memref.whole cc0_stg6_0 : Memref sig .tc .vmem S8x128 .f32).view
abbrev ms0_0 (t : Fin cfg0.N) : Memref sig .tc .vmem S8x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)

/-- The region's invariant: the generator register at some state (the kernel has no scratch of its own). -/
theorem PhiA0_eq (c : Dev nD) :
    (Pipeline.ΦA spec0 c : sProp 𝕄) = iprop(BI.emp ∗ (∃ r, prngReg c r)) := by
  unfold Pipeline.ΦA; rw [scopedRest0_eq]

end Cert.KernelIdeal.Hand

end
-- ==== Proof.KIdealRun.lean ====
/-
  The kernel body on any staging buffers.

  One call of the body loads the two weight matrices and the two biases whole, then runs eight trips; trip k loads
  graph k's adjacency and features from the two large input blocks, computes that graph's pooled features, and stores
  them as row k of the 8 × 128 output block. Nothing else is written. The run below goes through the eight trips by the
  loop's invariant (what the output block holds before trip k: the rows of the trips before it), never trip by trip;
  the list of the output's pieces is found by the run itself.
-/
import proofs.«128234_j52544629899590_1_alg».proof.Proof.KIdealKit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- The pieces the body's stores leave in the output's staging memref (last first), WITH the proof that on whole
    staging memrefs — the six inputs at their contents, the output at anything — the body runs to the continuation
    holding the inputs as they were and the output with those pieces written. -/
noncomputable def kernelRun0_A (c : Dev nD) (i : grid0.Coords) (arg1 : Memref sig .tc .vmem S8x512x512 .f32) (harg1 : arg1.IsWhole) (arg2 : Memref sig .tc .vmem S8x512x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S8x128 .f32) (harg7 : arg7.IsWhole)
    (x0 : Vec F S8x512x512 .f32) (x1 : Vec F S8x512x128 .f32) (x2 : Vec F S128x128 .f32) (x3 : Vec F S128 .f32) (x4 : Vec F S128x128 .f32) (x5 : Vec F S128 .f32) :
    { L6 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc0__gnn_kernel i arg1 harg1 arg2 harg2 arg3 harg3 arg4 harg4 arg5 harg5 arg6 harg6 arg7 harg7) K } := by
  refine ⟨?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Hand

end
-- ==== Proof.KIdealFrame.lean ====
/-
  The region's run and the frame.

  After the body at grid point t the six input buffers still hold their blocks and the output buffer holds the eight
  rows the trips stored (they tile the 8 × 128 block, so nothing of what was there before is left). With that as the
  pipeline's proof data, the body's run discharges the obligation at every point, the launch theorem runs the whole
  program, and every argument is found as launched at the end: four of them are arrays the pipeline stages and never
  writes, the others no operation touches.
-/
import proofs.«128234_j52544629899590_1_alg».proof.Proof.KIdealRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output tile its 8 × 128 block (eight stores of one row each), so they cover it. -/
theorem cover0_A_6 (c : Dev nD) (i : grid0.Coords) (arg1 : Memref sig .tc .vmem S8x512x512 .f32) (harg1 : arg1.IsWhole) (arg2 : Memref sig .tc .vmem S8x512x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S8x128 .f32) (harg7 : arg7.IsWhole)
    (x0 : Vec F S8x512x512 .f32) (x1 : Vec F S8x512x128 .f32) (x2 : Vec F S128x128 .f32) (x3 : Vec F S128 .f32) (x4 : Vec F S128x128 .f32) (x5 : Vec F S128 .f32) (y : S8x128.Idx) :
    ∃ pc ∈ (kernelRun0_A c i arg1 harg1 arg2 harg2 arg3 harg3 arg4 harg4 arg5 harg5 arg6 harg6 arg7 harg7 x0 x1 x2 x3 x4 x5).1, y ∈ pc.1.set :=
  View.cover_of_tiledL (kernelRun0_A c i arg1 harg1 arg2 harg2 arg3 harg3 arg4 harg4 arg5 harg5 arg6 harg6 arg7 harg7 x0 x1 x2 x3 x4 x5).1 S1x128.size (by sl_kernel_rfl) y

/-- What the run leaves in the output's staging buffer: its pieces read back (over anything: they cover the block). -/
def out0_A_6 (c : Dev nD) (i : grid0.Coords) (arg1 : Memref sig .tc .vmem S8x512x512 .f32) (harg1 : arg1.IsWhole) (arg2 : Memref sig .tc .vmem S8x512x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S8x128 .f32) (harg7 : arg7.IsWhole)
    (x0 : Vec F S8x512x512 .f32) (x1 : Vec F S8x512x128 .f32) (x2 : Vec F S128x128 .f32) (x3 : Vec F S128 .f32) (x4 : Vec F S128x128 .f32) (x5 : Vec F S128 .f32) : Vec F S8x128 .f32 :=
  VO0_6.read (Elt F) (VO0_6.writes (Elt F) VO0_6.junk (kernelRun0_A c i arg1 harg1 arg2 harg2 arg3 harg3 arg4 harg4 arg5 harg5 arg6 harg6 arg7 harg7 x0 x1 x2 x3 x4 x5).1)

/-- What the output's staging buffer holds after the body at point `t`: the run's contents at the point's memrefs and
    input blocks. -/
def outsAt0 (c : Dev nD) (t : Fin cfg0.N) : Vec F S8x128 .f32 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)

/-! ## The pipeline's proof data -/

/-- The arrays as the region finds them; after the body at point `t` each input's buffer at its block and the output's
    at `outsAt0`; the invariant the generator register alone; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 2000000 in
/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAt0
  unfold out0_A_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and at the end every
    array of the pipeline is what the proof data says and every other unscoped buffer is as the later operations leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-! ## The arguments at the end -/

theorem W_main_arg0 (c : Dev nD) :
    Pipeline.afterTail₀ cfgs (dats m) 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg1 (c : Dev nD) :
    Pipeline.afterTail₀ cfgs (dats m) 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (c : Dev nD) :
    Pipeline.afterTail₀ cfgs (dats m) 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg7 (c : Dev nD) :
    Pipeline.afterTail₀ cfgs (dats m) 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem W_main_arg8 (c : Dev nD) :
    Pipeline.afterTail₀ cfgs (dats m) 0 (V0 m) [hostOps1, hostOps1_1, hostOps1_2] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem W_main_arg9 (c : Dev nD) :
    Pipeline.afterTail₀ cfgs (dats m) 0 (V0 m) [hostOps1, hostOps1_1, hostOps1_2] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem W_main_arg10 (c : Dev nD) :
    Pipeline.afterTail₀ cfgs (dats m) 0 (V0 m) [hostOps1, hostOps1_1, hostOps1_2] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- What the run's post says of the eleven arguments: each ends as launched. -/
theorem args_kept {r} (h : Pipeline.FramePost cfgs (dats m) 0 (Pipeline.afterTail₀ cfgs (dats m) 0 (V0 m) [hostOps1, hostOps1_1, hostOps1_2]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (W_main_arg0 m c),
   ((h c).2 main_arg1 (Pipeline.mem_restRefs_of main_arg1 (by decide) (by decide))).trans (W_main_arg1 m c),
   ((h c).2 main_arg2 (Pipeline.mem_restRefs_of main_arg2 (by decide) (by decide))).trans (W_main_arg2 m c),
   ((h c).1 2).trans (((dats m 0 c).arrAt_in 2 rfl _).trans ((A_eq m c 2).trans (V_main_arg3 m c))),
   ((h c).1 3).trans (((dats m 0 c).arrAt_in 3 rfl _).trans ((A_eq m c 3).trans (V_main_arg4 m c))),
   ((h c).1 4).trans (((dats m 0 c).arrAt_in 4 rfl _).trans ((A_eq m c 4).trans (V_main_arg5 m c))),
   ((h c).1 5).trans (((dats m 0 c).arrAt_in 5 rfl _).trans ((A_eq m c 5).trans (V_main_arg6 m c))),
   ((h c).2 main_arg7 (Pipeline.mem_restRefs_of main_arg7 (by decide) (by decide))).trans (W_main_arg7 m c),
   ((h c).2 main_arg8 (Pipeline.mem_restRefs_of main_arg8 (by decide) (by decide))).trans (W_main_arg8 m c),
   ((h c).2 main_arg9 (Pipeline.mem_restRefs_of main_arg9 (by decide) (by decide))).trans (W_main_arg9 m c),
   ((h c).2 main_arg10 (Pipeline.mem_restRefs_of main_arg10 (by decide) (by decide))).trans (W_main_arg10 m c)⟩

/-- THE FRAME, at any float instance: the program runs to the end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => args_kept m h c) (run_main m ρ)

end Cert.KernelIdeal.Hand

end
-- ==== Proof.RefMidLayout.lean ====
/-
  Reading the reference's array operations at one element.

  The reference treats all 128 graphs at once, as arrays with a leading graph axis: the adjacency [128, 512, 512],
  node features [128, 512, 128], a per-node scalar [128, 512]. Each lemma here reads ONE array operation at an
  index (b, r, j) — graph b, node r, and a node j or a feature — and says which elements of its operands it
  combines, over arbitrary operands:

    a sum over the last axis of [128, 512, 512]        at (b, r)     is  Σ_j A (b, r, j)
    a sum over the node axis of [128, 512, 128]        at (b, o)     is  Σ_r Y (b, r, o)
    a scalar laid over any shape                       anywhere      is  the scalar
    a per-node scalar laid along the columns / rows    at (b, r, j)  is  v (b, r) / v (b, j)
    a feature vector laid over graphs and nodes        at (b, r, o)  is  v o
    the node rows [65536, 128] grouped by graph        at (b, r, f)  is  X (512 b + r, f)
    the product graph by graph                         at (b, r, f)  is  Σ_j S (b, r, j) · z (b, j, f)
    the product with one shared matrix                 at (b, r, o)  is  Σ_f Y (b, r, f) · W (f, o)

  Both sums start from the zero word, which is the extended real 0 and drops out.
-/
import proofs.«128234_j52544629899590_1_alg».proof.ReferenceIdeal
import proofs.«128234_j52544629899590_1_alg».proof.Proof.Gen.ReferenceIdeal
import Idealize.ShloMosaic.Lib.ValueIdx
import Idealize.ShloMosaic.Lib.IdealHost
import Idealize.ShloMosaic.Lib.StackMember
import Idealize.ShloMosaic.Lib.Pipeline.Value

noncomputable section

open scoped BigOperators

namespace Cert.ReferenceIdeal.Mid

open Idealize.ShloMosaic Idealize.ShloMosaic.ValueIdx Idealize.ShloMosaic.StackMember Cert.ReferenceIdeal
open Cert.ReferenceIdeal.Facts₀

/-! ## Sums over one axis -/

/-- The sum over the last axis, from zero: the row sum Σ_j A (b, r, j). -/
theorem rowSum_apply (A : FVec Ideal S128x512x512 .f32) (h' : S128x512x512.ReducesTo [2] S128x512)
    (hu : 0 < S_.numel) (b : Fin 128) (r : Fin 512) :
    Host.reduceAdd (F := Ideal) A (constant (F := Ideal) S_ .f32 0x00000000#32) h' hu (ix2 b r)
      = ∑ j : Fin 512, A (ix3 b r j) := by
  have h : S128x512x512.Reduces [2] S128x512 := ⟨h'.1, Nat.two_pos, h'.2⟩
  refine (hostReduceAdd_apply A _ h' hu (ix2 b r)).trans ?_
  refine (Ideal.hostReduceAdd_single h' h A _ (ix2 b r)).trans ?_
  refine (congrArg (· + _) (Ideal.ofBits_zero_f32)).trans ?_
  refine (zero_add _).trans ?_
  refine Finset.sum_congr rfl fun k _ => congrArg A (funext fun a => Fin.ext ?_)
  match a with
  | ⟨0, _⟩ => rfl
  | ⟨1, _⟩ => rfl
  | ⟨2, _⟩ => rfl

/-- The sum over the node axis, from zero: Σ_r Y (b, r, o). -/
theorem nodeSum_apply (Y : FVec Ideal S128x512x128 .f32) (h' : S128x512x128.ReducesTo [1] S128x128)
    (hu : 0 < S_.numel) (b : Fin 128) (o : Fin 128) :
    Host.reduceAdd (F := Ideal) Y (constant (F := Ideal) S_ .f32 0x00000000#32) h' hu (ix2 b o)
      = ∑ r : Fin 512, Y (ix3 b r o) := by
  have h : S128x512x128.Reduces [1] S128x128 := ⟨h'.1, Nat.two_pos, h'.2⟩
  refine (hostReduceAdd_apply Y _ h' hu (ix2 b o)).trans ?_
  refine (Ideal.hostReduceAdd_single h' h Y _ (ix2 b o)).trans ?_
  refine (congrArg (· + _) (Ideal.ofBits_zero_f32)).trans ?_
  refine (zero_add _).trans ?_
  refine Finset.sum_congr rfl fun k _ => congrArg Y (funext fun a => Fin.ext ?_)
  match a with
  | ⟨0, _⟩ => rfl
  | ⟨1, _⟩ => rfl
  | ⟨2, _⟩ => rfl

/-! ## Broadcasts -/

/-- A scalar word laid over any shape reads, everywhere, the extended real the word denotes. -/
theorem scalar_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-- A per-node scalar given a trailing unit axis and laid along it: constant along the columns, v (b, r). -/
theorem colBcast_apply (v : FVec Ideal S128x512 .f32) (h1 : S128x512.BroadcastsInDim S128x512x1 ![0, 1])
    (h2 : S128x512x1.BroadcastsInDim S128x512x512 ![0, 1, 2]) (b : Fin 128) (r j : Fin 512) :
    broadcastInDim S128x512x512 ![0, 1, 2] h2 (broadcastInDim S128x512x1 ![0, 1] h1 v) (ix3 b r j) = v (ix2 b r) := by
  refine (broadcastInDim_apply ![0, 1, 2] h2 _ (ix3 b r j) (ix3 b r (0 : Fin 1)) ?_).trans ?_
  · intro a
    match a with
    | ⟨0, _⟩ => rfl
    | ⟨1, _⟩ => rfl
    | ⟨2, _⟩ => rfl
  · refine broadcastInDim_apply ![0, 1] h1 v (ix3 b r (0 : Fin 1)) (ix2 b r) ?_
    intro a
    match a with
    | ⟨0, _⟩ => rfl
    | ⟨1, _⟩ => rfl

/-- A per-node scalar given a middle unit axis and laid along it: constant along the rows, v (b, j). -/
theorem rowBcast_apply (v : FVec Ideal S128x512 .f32) (h1 : S128x512.BroadcastsInDim S128x1x512 ![0, 2])
    (h2 : S128x1x512.BroadcastsInDim S128x512x512 ![0, 1, 2]) (b : Fin 128) (r j : Fin 512) :
    broadcastInDim S128x512x512 ![0, 1, 2] h2 (broadcastInDim S128x1x512 ![0, 2] h1 v) (ix3 b r j) = v (ix2 b j) := by
  refine (broadcastInDim_apply ![0, 1, 2] h2 _ (ix3 b r j) (ix3 b (0 : Fin 1) j) ?_).trans ?_
  · intro a
    match a with
    | ⟨0, _⟩ => rfl
    | ⟨1, _⟩ => rfl
    | ⟨2, _⟩ => rfl
  · refine broadcastInDim_apply ![0, 2] h1 v (ix3 b (0 : Fin 1) j) (ix2 b j) ?_
    intro a
    match a with
    | ⟨0, _⟩ => rfl
    | ⟨1, _⟩ => rfl

/-- A feature vector given two leading unit axes and laid over graphs and nodes: v o. -/
theorem biasBcast_apply (v : FVec Ideal S128 .f32) (h1 : S128.BroadcastsInDim S1x1x128 ![2])
    (h2 : S1x1x128.BroadcastsInDim S128x512x128 ![0, 1, 2]) (b : Fin 128) (r : Fin 512) (o : Fin 128) :
    broadcastInDim S128x512x128 ![0, 1, 2] h2 (broadcastInDim S1x1x128 ![2] h1 v) (ix3 b r o) = v (ix1 o) := by
  refine (broadcastInDim_apply ![0, 1, 2] h2 _ (ix3 b r o) (ix3 (0 : Fin 1) (0 : Fin 1) o) ?_).trans ?_
  · intro a
    match a with
    | ⟨0, _⟩ => rfl
    | ⟨1, _⟩ => rfl
    | ⟨2, _⟩ => rfl
  · refine broadcastInDim_apply ![2] h1 v (ix3 (0 : Fin 1) (0 : Fin 1) o) (ix1 o) ?_
    intro a
    match a with
    | ⟨0, _⟩ => rfl

/-! ## The regrouping of the node rows by graph -/

/-- Row-major regrouping of 65536 = 128 · 512 node rows by graph: element (b, r, f) is row 512 b + r, column f. -/
theorem regroup_apply (X : FVec Ideal S65536x128 .f32) (h : S65536x128.ShapeCasts S128x512x128)
    (b : Fin 128) (r : Fin 512) (f : Fin 128) :
    shapeCast S128x512x128 X h (ix3 b r f) = X (ix2 (⟨512 * b.val + r.val, by omega⟩ : Fin 65536) f) := by
  refine shapeCast_apply X h (ix3 b r f) (ix2 (⟨512 * b.val + r.val, by omega⟩ : Fin 65536) f) ?_
  rw [Shape.rowMajor_val_two, Shape.rowMajor_val_three]
  show (512 * b.val + r.val) * 128 + f.val = (b.val * 512 + r.val) * 128 + f.val
  omega

/-! ## The two products -/

/-- The product graph by graph (batch axis 0, the left operand's last axis against the right operand's middle
    one): Σ_j S (b, r, j) · z (b, j, f). -/
theorem stackDot_apply (S : FVec Ideal S128x512x512 .f32) (z : FVec Ideal S128x512x128 .f32)
    (b : Fin 128) (r : Fin 512) (f : Fin 128) :
    Host.dotGeneral (F := Ideal) dot_S128x512x512_S128x512x128_S128x512x128_2_1_1_2_0_0 none S z (ix3 b r f)
      = ∑ j : Fin 512, S (ix3 b r j) * z (ix3 b j f) :=
  dotGeneral_stack_apply dot_S128x512x512_S128x512x128_S128x512x128_2_1_1_2_0_0_wf none S z b r f

/-- A stack [G, m, k] times one shared matrix [k, n] (the stack's last axis against the matrix's first, no batch
    axis): Σ_c Y (g, a, c) · W (c, o). The contraction's one-coordinate index is re-indexed by that coordinate, and
    the operand indices the dimension numbers name are computed axis by axis. -/
theorem projDot_generic {G m k n : Nat} {φ₁ φ₂ : FTy}
    (w : DotDims.WF ⟨3, ![G, m, k]⟩ ⟨2, ![k, n]⟩ ⟨3, ![G, m, n]⟩ [2] [0] [0, 1] [1] [] [])
    (prec : Option ContractPrecision) (Y : FVec Ideal ⟨3, ![G, m, k]⟩ φ₁) (W : FVec Ideal ⟨2, ![k, n]⟩ φ₂)
    (g : Fin G) (a : Fin m) (o : Fin n) :
    Host.dotGeneral (⟨[2], [0], [0, 1], [1], [], [], w⟩ : DotDims _ _ _) prec Y W (ix3 g a o)
      = ∑ c : Fin k, Y (ix3 g a c) * W (ix2 c o) := by
  show FloatOps.dotGeneral _ prec _ Y W (ix3 g a o) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a o)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a o)
      ((contrEquiv1 _ k rfl rfl).symm c) = ix2 c o := by
    funext ax; apply Fin.ext
    match ax with
    | ⟨0, _⟩ => simp [DotDims.rhsIdx]; exact c3
    | ⟨1, _⟩ => simp [DotDims.rhsIdx]; rfl
  rw [l3, r3]

/-- The projection by a shared 128 × 128 matrix: Σ_f Y (b, r, f) · W (f, o). -/
theorem projDot_apply (Y : FVec Ideal S128x512x128 .f32) (W : FVec Ideal S128x128 .f32)
    (b : Fin 128) (r : Fin 512) (o : Fin 128) :
    Host.dotGeneral (F := Ideal) dot_S128x512x128_S128x128_S128x512x128_2_0_01_1_n_n none Y W (ix3 b r o)
      = ∑ f : Fin 128, Y (ix3 b r f) * W (ix2 f o) :=
  projDot_generic dot_S128x512x128_S128x128_S128x512x128_2_0_01_1_n_n_wf none Y W b r o

end Cert.ReferenceIdeal.Mid

end
-- ==== Proof.RefProTail.lean ====
/-
  The two ends of the reference, each as a function of whole arrays.

  `refPro` is the dense adjacency as a function of the edge list: for each edge the graph number (the source node
  number divided by 512, rounded toward minus infinity), the source and the destination node within the graph (the
  remainders by 512, with the divisor's sign), each wrapped when negative, the three laid side by side as one index
  triple per edge, and a one written at each triple into an array of zeros. `refTail` is the readout of the pooled
  features: a 128 → 64 layer with bias and rectifier, a 64 → 1 layer with bias, the result as a vector.

  Every definition composes the program's own operations in the program's order, one binding per operation. The
  functions the program calls — the floor division, the remainder — are definitions here too, applied where the
  program calls them; the wrap of a negative index, which the program writes out three times with the same seven
  operations, and the closing scatter are named once.
-/
import proofs.«128234_j52544629899590_1_alg».proof.ReferenceIdeal
import proofs.«128234_j52544629899590_1_alg».proof.Proof.Gen.ReferenceIdeal
import Idealize.ShloMosaic.PureOps.Ideal

noncomputable section

namespace Cert.ReferenceIdeal.Hand

open Idealize.ShloMosaic Cert.ReferenceIdeal Cert.ReferenceIdeal.Facts₀

/-- The quotient of each entry of `x` by the scalar `d`, rounded toward minus infinity: the truncated quotient, less
    one where the signs differ and the remainder is not zero. -/
noncomputable def floorDivOf (x : IVec S1048576 32) (d : IVec S_ 32) : IVec S1048576 32 :=
  let v0 : IVec S_ 32 := id d
  let v1 : IVec S1048576 32 := (broadcastInDim S1048576 ![] bcast_S_S1048576) v0
  let v2 : IVec S1048576 32 := Host.divsi x v1
  let v3 : IVec S1048576 32 := signi x
  let v4 : IVec S_ 32 := signi v0
  let v5 : IVec S1048576 32 := (broadcastInDim S1048576 ![] bcast_S_S1048576) v4
  let v6 : IVec S1048576 1 := (cmpi .ne) v3 v5
  let v7 : IVec S1048576 32 := (broadcastInDim S1048576 ![] bcast_S_S1048576) v0
  let v8 : IVec S1048576 32 := Host.remsi x v7
  let c : IVec S_ 32 := constantI S_ 32 0#32
  let v9 : IVec S1048576 32 := (broadcastInDim S1048576 ![] bcast_S_S1048576) c
  let v10 : IVec S1048576 1 := (cmpi .ne) v8 v9
  let v11 : IVec S1048576 1 := andi v6 v10
  let c_0 : IVec S_ 32 := constantI S_ 32 1#32
  let v12 : IVec S1048576 32 := (broadcastInDim S1048576 ![] bcast_S_S1048576) c_0
  let v13 : IVec S1048576 32 := subi v2 v12
  select v11 v13 v2

/-- The remainder of each entry of `x` by the scalar `d` with the divisor's sign (a zero divisor read as one): the
    truncated remainder, plus the divisor where it is not zero and its sign differs from the divisor's. -/
noncomputable def remOf (x : IVec S1048576 32) (d : IVec S_ 32) : IVec S1048576 32 :=
  let v0 : IVec S_ 32 := id d
  let c : IVec S_ 32 := constantI S_ 32 0#32
  let v1 : IVec S_ 1 := (cmpi .eq) v0 c
  let c_0 : IVec S_ 32 := constantI S_ 32 1#32
  let v2 : IVec S_ 32 := select v1 c_0 v0
  let v3 : IVec S1048576 32 := (broadcastInDim S1048576 ![] bcast_S_S1048576) v2
  let v4 : IVec S1048576 32 := Host.remsi x v3
  let c_1 : IVec S_ 32 := constantI S_ 32 0#32
  let v5 : IVec S1048576 32 := (broadcastInDim S1048576 ![] bcast_S_S1048576) c_1
  let v6 : IVec S1048576 1 := (cmpi .ne) v4 v5
  let c_2 : IVec S_ 32 := constantI S_ 32 0#32
  let v7 : IVec S1048576 32 := (broadcastInDim S1048576 ![] bcast_S_S1048576) c_2
  let v8 : IVec S1048576 1 := (cmpi .slt) v4 v7
  let c_3 : IVec S_ 32 := constantI S_ 32 0#32
  let v9 : IVec S_ 1 := (cmpi .slt) v2 c_3
  let v10 : IVec S1048576 1 := (broadcastInDim S1048576 ![] bcast_S_S1048576) v9
  let v11 : IVec S1048576 1 := (cmpi .ne) v8 v10
  let v12 : IVec S1048576 1 := andi v11 v6
  let v13 : IVec S1048576 32 := (broadcastInDim S1048576 ![] bcast_S_S1048576) v2
  let v14 : IVec S1048576 32 := addi v4 v13
  select v12 v14 v4

/-- A negative index counted from the end: `x + n` where `x` is negative, `x` elsewhere. -/
noncomputable def wrapOf (n : BitVec 32) (x : IVec S1048576 32) : IVec S1048576 32 :=
  let z : IVec S_ 32 := constantI S_ 32 0#32
  let zb : IVec S1048576 32 := (broadcastInDim S1048576 ![] bcast_S_S1048576) z
  let neg : IVec S1048576 1 := (cmpi .slt) x zb
  let nc : IVec S_ 32 := constantI S_ 32 n
  let nb : IVec S1048576 32 := (broadcastInDim S1048576 ![] bcast_S_S1048576) nc
  let sum : IVec S1048576 32 := addi x nb
  select neg sum x

/-- The array of zeros with a one written at (g, s, t) for each edge: the three index vectors as columns of one
    [1048576, 3] array, scattered into [128, 512, 512]. -/
noncomputable def adjOf (g s t : IVec S1048576 32) : FVec Ideal S128x512x512 .f32 :=
  let cst : FVec Ideal S_ .f32 := constant (F := Ideal) S_ .f32 0x00000000#32
  let v9 : FVec Ideal S128x512x512 .f32 := (broadcastInDim S128x512x512 ![] bcast_S_S128x512x512) cst
  let v25 : IVec S1048576x1 32 := (broadcastInDim S1048576x1 ![0] bcast_S1048576_S1048576x1_0) g
  let v26 : IVec S1048576x1 32 := (broadcastInDim S1048576x1 ![0] bcast_S1048576_S1048576x1_0) s
  let v27 : IVec S1048576x1 32 := (broadcastInDim S1048576x1 ![0] bcast_S1048576_S1048576x1_0) t
  let v28 : IVec S1048576x3 32 := (fun (u : Fin 3 → IVec S1048576x1 32) => concatenate S1048576x3 1 [⟨S1048576x1, u 0⟩, ⟨S1048576x1, u 1⟩, ⟨S1048576x1, u 2⟩] concatenates_S1048576x1_S1048576x1_S1048576x1_S1048576x3_d1) ![v25, v26, v27]
  let cst_8 : FVec Ideal S_ .f32 := constant (F := Ideal) S_ .f32 0x3F800000#32
  let v29 : FVec Ideal S1048576 .f32 := (broadcastInDim S1048576 ![] bcast_S_S1048576) cst_8
  (fun x i u => Host.scatter scatter_S128x512x512_S1048576x3_S1048576_n_012_012_1 (fun _ b => b) x i u) v9 v28 v29

/-- The dense adjacency [128, 512, 512] of the edge list [2, 1048576]: the operations up to the scatter, in order. -/
noncomputable def refPro (e : IVec S2x1048576 32) : FVec Ideal S128x512x512 .f32 :=
  let v0 : IVec S1x1048576 32 := (extractStridedSlice S1x1048576 ![0, 0] · slices_S2x1048576_S1x1048576_0_0) e
  let v1 : IVec S1048576 32 := shapeCast S1048576 v0 shapeCasts_S1x1048576_S1048576
  let c : IVec S_ 32 := constantI S_ 32 512#32
  let v2 : IVec S1048576 32 := floorDivOf v1 c
  let v3 : IVec S1x1048576 32 := (extractStridedSlice S1x1048576 ![0, 0] · slices_S2x1048576_S1x1048576_0_0) e
  let v4 : IVec S1048576 32 := shapeCast S1048576 v3 shapeCasts_S1x1048576_S1048576
  let c_0 : IVec S_ 32 := constantI S_ 32 512#32
  let v5 : IVec S1048576 32 := remOf v4 c_0
  let v6 : IVec S1x1048576 32 := (extractStridedSlice S1x1048576 ![1, 0] · slices_S2x1048576_S1x1048576_1_0) e
  let v7 : IVec S1048576 32 := shapeCast S1048576 v6 shapeCasts_S1x1048576_S1048576
  let c_1 : IVec S_ 32 := constantI S_ 32 512#32
  let v8 : IVec S1048576 32 := remOf v7 c_1
  let v14 : IVec S1048576 32 := wrapOf 128#32 v2
  let v19 : IVec S1048576 32 := wrapOf 512#32 v5
  let v24 : IVec S1048576 32 := wrapOf 512#32 v8
  adjOf v14 v19 v24

/-- The readout of the pooled features [128, 128]: the closing operations, in order. -/
noncomputable def refTail (h : FVec Ideal S128x128 .f32) (Wr1 : FVec Ideal S128x64 .f32) (br1 : FVec Ideal S64 .f32)
    (Wr2 : FVec Ideal S64x1 .f32) (br2 : FVec Ideal S1 .f32) : FVec Ideal S128 .f32 :=
  let v70 : FVec Ideal S128x64 .f32 := (fun l r => Host.dotGeneral (F := Ideal) dot_S128x128_S128x64_S128x64_1_0_0_1_n_n none l r) h Wr1
  let v71 : FVec Ideal S1x64 .f32 := (broadcastInDim S1x64 ![1] bcast_S64_S1x64_1) br1
  let v72 : FVec Ideal S128x64 .f32 := (broadcastInDim S128x64 ![0, 1] bcast_S1x64_S128x64_0_1) v71
  let v73 : FVec Ideal S128x64 .f32 := addf v70 v72
  let call6_cst : FVec Ideal S_ .f32 := constant (F := Ideal) S_ .f32 0x00000000#32
  let call6_v0 : FVec Ideal S128x64 .f32 := (broadcastInDim S128x64 ![] bcast_S_S128x64) call6_cst
  let v74 : FVec Ideal S128x64 .f32 := maximumf v73 call6_v0
  let v75 : FVec Ideal S128x1 .f32 := (fun l r => Host.dotGeneral (F := Ideal) dot_S128x64_S64x1_S128x1_1_0_0_1_n_n none l r) v74 Wr2
  let v76 : FVec Ideal S1x1 .f32 := (broadcastInDim S1x1 ![1] bcast_S1_S1x1_1) br2
  let v77 : FVec Ideal S128x1 .f32 := (broadcastInDim S128x1 ![0, 1] bcast_S1x1_S128x1_0_1) v76
  let v78 : FVec Ideal S128x1 .f32 := addf v75 v77
  shapeCast S128 v78 shapeCasts_S128x1_S128

end Cert.ReferenceIdeal.Hand

end
-- ==== Proof.KIdealHostRead.lean ====
/-
  The host operations around the region, read as values (at the ideal instance).

  Before the region the program builds the dense adjacency from the edge list and regroups the node features by
  graph; after it, it applies the two read-out layers to the pooled features. The reference performs the very same
  operations, so nothing here opens them: what the region finds in the adjacency buffer IS the reference's adjacency
  function of the edge list, the regrouped features are rows 512 b + r of the feature matrix, and the program's result
  IS the reference's read-out function of the region's output array.
-/
import proofs.«128234_j52544629899590_1_alg».proof.Proof.KIdealFrame
import proofs.«128234_j52544629899590_1_alg».proof.Proof.RefMidLayout
import proofs.«128234_j52544629899590_1_alg».proof.Proof.RefProTail

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

variable (m : (ℓ : Loc nD τ sig) → Buf (Elt Ideal) ℓ)

set_option maxHeartbeats 4000000 in
/-- The features buffer the region finds: the feature matrix regrouped by graph. -/
theorem V_feat (c : Dev nD) :
    (V m c main_v31 : S128x512x128.Idx → EReal)
      = shapeCast S128x512x128 (m ((c : Thread nD τ).loc main_arg0) : S65536x128.Idx → EReal) Gen.shapeCasts_S65536x128_S128x512x128 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

/-- Graph `b`'s node `r` is row `512 b + r` of the feature matrix. -/
theorem V_feat_apply (c : Dev nD) (b : Fin 128) (r : Fin 512) (f : Fin 128) :
    (V m c main_v31 : S128x512x128.Idx → EReal) (ix3 b r f)
      = (m ((c : Thread nD τ).loc main_arg0) : S65536x128.Idx → EReal) (ix2 (⟨512 * b.val + r.val, by omega⟩ : Fin 65536) f) := by
  rw [V_feat]
  exact Cert.ReferenceIdeal.Mid.regroup_apply _ _ b r f

set_option maxHeartbeats 4000000 in
/-- The operations after the region, over any buffer contents `W`: the reference's read-out function of what `W`
    holds in the region's output array and in the four read-out arguments. -/
theorem tail_read (W : Valuation τ sig (Elt Ideal)) :
    (StableHlo.after (List.flatten [hostOps1, hostOps1_1, hostOps1_2]) W (Proc.devRef .tc main_v42) : S128.Idx → EReal)
      = Cert.ReferenceIdeal.Hand.refTail (W (Proc.devRef .tc main_v32)) (W (Proc.devRef .tc main_arg7))
          (W (Proc.devRef .tc main_arg8)) (W (Proc.devRef .tc main_arg9)) (W (Proc.devRef .tc main_arg10)) := by
  simp only [hostOps1, hostOps1_1, hostOps1_2, List.flatten_cons, List.flatten_nil, List.append_nil, List.cons_append, List.nil_append]
  after_results
  rfl

set_option maxHeartbeats 16000000 in
/-- The operations before the region, over any buffer contents `W`: what they leave in the adjacency buffer is the
    reference's adjacency function of what `W` holds in the edge list. -/
theorem head_read (W : Valuation τ sig (Elt Ideal)) :
    (StableHlo.after (List.flatten [hostOps0, hostOps0_1, hostOps0_2, hostOps0_3, hostOps0_4, hostOps0_5, hostOps0_6]) W (Proc.devRef .tc main_v30) : S128x512x512.Idx → EReal)
      = Cert.ReferenceIdeal.Hand.refPro (W (Proc.devRef .tc main_arg2)) := by
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.Hand

end
-- ==== Proof.KIdealHost.lean ====
/-
  The host operations around the region, at the kernel program's own memory.

  The readings over arbitrary buffer contents are specialised here: the region finds the reference's adjacency
  function of the edge list in its adjacency buffer, and the program's result is the reference's read-out function
  of the region's output array and the four read-out arguments, which no operation writes.
-/
import proofs.«128234_j52544629899590_1_alg».proof.Proof.KIdealHostRead

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

variable (m : (ℓ : Loc nD τ sig) → Buf (Elt Ideal) ℓ)

/-- The same with the region's arrays put at `A` over any other contents `V₀`: the output array is read at `A 6`, the
    read-out arguments (no array of the region) at `V₀`. -/
theorem tail_with (c : Dev nD) (V₀ : Valuation τ sig (Elt Ideal))
    (A : (w : Fin 7) → Buf (Elt Ideal) ((spec0 w).arr.view.loc (c.tc : Thread nD τ))) :
    (StableHlo.after (List.flatten [hostOps1, hostOps1_1, hostOps1_2]) (Pipeline.withArrays spec0 c V₀ A) (Proc.devRef .tc main_v42) : S128.Idx → EReal)
      = Cert.ReferenceIdeal.Hand.refTail (A 6) (V₀ (Proc.devRef .tc main_arg7))
          (V₀ (Proc.devRef .tc main_arg8)) (V₀ (Proc.devRef .tc main_arg9)) (V₀ (Proc.devRef .tc main_arg10)) := by
  have h32 : Pipeline.withArrays spec0 c V₀ A (Proc.devRef .tc main_v32) = A 6 :=
    Pipeline.withArrays_arr spec0 launch0.win.arr_inj c V₀ A 6
  have h7 : Pipeline.withArrays spec0 c V₀ A (Proc.devRef .tc main_arg7) = V₀ (Proc.devRef .tc main_arg7) :=
    Pipeline.withArrays_of_ne spec0 c V₀ A main_arg7 (by exact (by decide : ∀ w, Pipeline.arrRef spec0 w ≠ main_arg7))
  have h8 : Pipeline.withArrays spec0 c V₀ A (Proc.devRef .tc main_arg8) = V₀ (Proc.devRef .tc main_arg8) :=
    Pipeline.withArrays_of_ne spec0 c V₀ A main_arg8 (by exact (by decide : ∀ w, Pipeline.arrRef spec0 w ≠ main_arg8))
  have h9 : Pipeline.withArrays spec0 c V₀ A (Proc.devRef .tc main_arg9) = V₀ (Proc.devRef .tc main_arg9) :=
    Pipeline.withArrays_of_ne spec0 c V₀ A main_arg9 (by exact (by decide : ∀ w, Pipeline.arrRef spec0 w ≠ main_arg9))
  have h10 : Pipeline.withArrays spec0 c V₀ A (Proc.devRef .tc main_arg10) = V₀ (Proc.devRef .tc main_arg10) :=
    Pipeline.withArrays_of_ne spec0 c V₀ A main_arg10 (by exact (by decide : ∀ w, Pipeline.arrRef spec0 w ≠ main_arg10))
  rw [tail_read, h32, h7, h8, h9, h10]

/-- What the region finds in the adjacency buffer: the reference's adjacency function of the edge list. -/
theorem V_adj (c : Dev nD) :
    (V m c main_v30 : S128x512x512.Idx → EReal)
      = Cert.ReferenceIdeal.Hand.refPro (m ((c : Thread nD τ).loc main_arg2)) :=
  head_read (fun b => m (c, b))

/-- The program's result: the reference's read-out function of the region's output array and the read-out arguments. -/
theorem result_read (c : Dev nD) :
    (Pipeline.afterTail₀ cfgs (dats m) 0 (V0 m) [hostOps1, hostOps1_1, hostOps1_2] c main_v42 : S128.Idx → EReal)
      = Cert.ReferenceIdeal.Hand.refTail ((dats m 0 c).arrAt 6 cfg0.N)
          (m ((c : Thread nD τ).loc main_arg7)) (m ((c : Thread nD τ).loc main_arg8)) (m ((c : Thread nD τ).loc main_arg9)) (m ((c : Thread nD τ).loc main_arg10)) :=
  (tail_with c (V0 m c) (fun w => (dats m 0 c).arrAt w cfg0.N)).trans (by
    rw [show V0 m c (Proc.devRef .tc main_arg7) = m ((c : Thread nD τ).loc main_arg7) from V_main_arg7 m c,
      show V0 m c (Proc.devRef .tc main_arg8) = m ((c : Thread nD τ).loc main_arg8) from V_main_arg8 m c,
      show V0 m c (Proc.devRef .tc main_arg9) = m ((c : Thread nD τ).loc main_arg9) from V_main_arg9 m c,
      show V0 m c (Proc.devRef .tc main_arg10) = m ((c : Thread nD τ).loc main_arg10) from V_main_arg10 m c])

end Cert.KernelIdeal.Hand

end
-- ==== Proof.Spec.lean ====
/-
  The mathematics of one graph's pooled features, stated once over plain index types.

  For a 512-node graph with adjacency matrix A (any extended reals; the programs feed 0/1 entries) and node
  features x : 512 × 128:

    deg r      = Σ_j A r j                                     the degree of node r
    dinv r     = rsqrt (max (deg r) ε)  where deg r > 0, else 0     D^(-1/2), ε the literal both programs spell
    S r j      = (dinv r · A r j) · dinv j                      the symmetric normalisation D^(-1/2) A D^(-1/2)
    conv y W b = (y + S y + S (S y) + S (S (S y))) W + b,  accumulated left to right as both programs do
    layer      = max (conv ·) 0
    pooled o   = Σ_r layer (layer x W1 b1) W2 b2 r o            the sum over the graph's nodes

  The kernel multiplies the node sum by the literal 2⁻⁹; the reference divides it by 512. On the extended reals
  the quotient by a nonzero real IS the product with its reciprocal (also at ±∞), so the two means agree
  (`mean_eq`). No other law is needed: every other step is the same expression on both sides.
-/
import Idealize.ShloMosaic.PureOps.Ideal
import Idealize.ShloMosaic.PureOps.Ideal.Laws

noncomputable section

namespace Cert.GnnSpec

open Idealize.ShloMosaic

/-- The floor both programs put under the degree before the reciprocal square root. -/
def eps : EReal := Ideal.ofBits .f32 0x2B8CBCCC#32

/-- The degree of node `r`: its row of the adjacency matrix summed. -/
def deg (A : Fin 512 → Fin 512 → EReal) (r : Fin 512) : EReal := ∑ j : Fin 512, A r j

/-- `D^(-1/2)` at node `r`: the reciprocal square root of the floored degree where the degree is positive, else zero. -/
def dinv (A : Fin 512 → Fin 512 → EReal) (r : Fin 512) : EReal :=
  Scalar.select (Ideal.cmp .ogt (deg A r) 0) (Ideal.rsqrt (max (deg A r) eps)) 0

/-- The normalised adjacency `D^(-1/2) A D^(-1/2)`, grouped as both programs multiply it. -/
def nadj (A : Fin 512 → Fin 512 → EReal) (r j : Fin 512) : EReal := (dinv A r * A r j) * dinv A j

/-- One application of a 512 × 512 matrix to node features. -/
def app (S : Fin 512 → Fin 512 → EReal) (z : Fin 512 → Fin 128 → EReal) (r : Fin 512) (f : Fin 128) : EReal :=
  ∑ j : Fin 512, S r j * z j f

/-- The degree-three polynomial filter `y + S y + S² y + S³ y`, accumulated left to right. -/
def filt (S : Fin 512 → Fin 512 → EReal) (y : Fin 512 → Fin 128 → EReal) (r : Fin 512) (f : Fin 128) : EReal :=
  ((y r f + app S y r f) + app S (app S y) r f) + app S (app S (app S y)) r f

/-- One layer: the filter, the projection by `W`, the bias, the rectifier. -/
def layer (S : Fin 512 → Fin 512 → EReal) (y : Fin 512 → Fin 128 → EReal) (W : Fin 128 → Fin 128 → EReal)
    (b : Fin 128 → EReal) (r : Fin 512) (o : Fin 128) : EReal :=
  max ((∑ f : Fin 128, filt S y r f * W f o) + b o) 0

/-- The two layers' output summed over the graph's nodes. -/
def pooled (A : Fin 512 → Fin 512 → EReal) (x : Fin 512 → Fin 128 → EReal) (W1 : Fin 128 → Fin 128 → EReal)
    (b1 : Fin 128 → EReal) (W2 : Fin 128 → Fin 128 → EReal) (b2 : Fin 128 → EReal) (o : Fin 128) : EReal :=
  ∑ r : Fin 512, layer (nadj A) (layer (nadj A) x W1 b1) W2 b2 r o

/-- The word `0x44000000` denotes 512. -/
theorem ofBits_512 : Ideal.ofBits .f32 0x44000000#32 = ((512 : ℝ) : EReal) := by
  simp [Ideal.ofBits, Ideal.ieee, -EReal.coe_mul]; norm_num

/-- The word `0x3B000000` denotes 2⁻⁹ = 1/512. -/
theorem ofBits_inv512 : Ideal.ofBits .f32 0x3B000000#32 = ((1 / 512 : ℝ) : EReal) := by
  simp [Ideal.ofBits, Ideal.ieee, -EReal.coe_mul]; norm_num

/-- The mean over 512 nodes, both ways: the product with 2⁻⁹ is the quotient by 512 on every extended real. -/
theorem mean_eq (s : EReal) :
    s * Ideal.ofBits .f32 0x3B000000#32 = Ideal.div s (Ideal.ofBits .f32 0x44000000#32) := by
  rw [ofBits_512, ofBits_inv512, Ideal.div_coe (by norm_num : (512 : ℝ) ≠ 0)]

end Cert.GnnSpec

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«128234_j52544629899590_1_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.PayRead.lean ====
/-
  The kernel body's stored row, read at an index.

  For one graph the body computes, from the graph's 512 × 512 adjacency slab A and its 512 × 128 feature slab x:
  the degrees (the row sums of A), D^(-1/2) from them (the reciprocal square root of the floored degree where the
  degree is positive, zero elsewhere), the normalised adjacency S = D^(-1/2) A D^(-1/2) entry by entry, then twice
  the layer max((y + S y + S (S y) + S (S (S y))) W + b, 0), and finally the sum over the 512 nodes times the
  literal 2⁻⁹, laid out as a 1 × 128 row.

  Every operation is read at an index: a pointwise operation by unfolding it, a cast or a broadcast by the index it
  reads, a sum along an axis as a finite sum over that axis's coordinates, a matrix product accumulated into zero as
  the finite sum of the operands' products. At the ideal values a change of float format is the identity, so the
  operands' formats do not matter. Read this way the stored row at (0, o) is the specification's `pooled` at the
  graph's data, times the literal.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«128234_j52544629899590_1_alg».proof.Proof.Gen.KernelIdeal.Skeleton
import proofs.«128234_j52544629899590_1_alg».proof.Proof.Spec
import proofs.«128234_j52544629899590_1_alg».proof.Proof.LibRowRead

noncomputable section

namespace Cert.KernelIdeal.PayRead

open Idealize.ShloMosaic Idealize.ShloMosaic.ValueIdx Cert.KernelIdeal Cert.KernelIdeal.Gen

/-! ## Layout reads -/

/-- One graph's adjacency slab with its unit axis dropped: entry (r, j) is the slab's entry (0, r, j). -/
theorem cast_adj (v10 : Vec Ideal S1x512x512 .f32) (h : S1x512x512.ShapeCasts S512x512) (r j : Fin 512) :
    shapeCast S512x512 v10 h (ix2 r j) = v10 (ix3 (0 : Fin 1) r j) :=
  shapeCast_1ab_ab_apply v10 h r j

/-- One graph's feature slab with its unit axis dropped. -/
theorem cast_feat (v13 : Vec Ideal S1x512x128 .f32) (h : S1x512x128.ShapeCasts S512x128) (r : Fin 512) (f : Fin 128) :
    shapeCast S512x128 v13 h (ix2 r f) = v13 (ix3 (0 : Fin 1) r f) :=
  shapeCast_1ab_ab_apply v13 h r f

/-- A bias vector laid out as a row and repeated over the 512 nodes: entry (r, o) is the vector's entry o. -/
theorem bias_apply (b : Vec Ideal S128 .f32) (hc : S128.ShapeCasts S1x128) (hb : S1x128.Broadcasts S512x128)
    (r : Fin 512) (o : Fin 128) :
    broadcastTo S512x128 (shapeCast S1x128 b hc) hb (ix2 r o) = b (ix1 o) :=
  (broadcastTo_1b_ab_apply (shapeCast S1x128 b hc) hb r o).trans (shapeCast_a_1a_apply b hc 0 o)

/-! ## Sums -/

/-- The sum of a 512 × 512 block along its lanes, at row r. -/
theorem rowSum (x : FVec Ideal S512x512 .f32) (h : S512x512.Reduces [1] S512) (hφ : FKind.Formats FTy.f32)
    (hacc : (0x00000000#32 : BitVec FTy.f32.bits) = FKind.add.neutral .f32 hφ) (r : Fin 512) :
    multiReduction .add [1] S512 x 0x00000000#32 h hφ hacc (ix1 r) = ∑ j : Fin 512, x (ix2 r j) :=
  Cert.Lib.RowRead.rowSum_apply x _ h hφ hacc r

/-- The reduced index o with row k put back is (k, o). -/
theorem lift_col {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- The sum of a 512 × 128 block along its rows, at lane o. -/
theorem colSum (x : FVec Ideal S512x128 .f32) (h : S512x128.Reduces [0] S128) (hφ : FKind.Formats FTy.f32)
    (hacc : (0x00000000#32 : BitVec FTy.f32.bits) = FKind.add.neutral .f32 hφ) (o : Fin 128) :
    multiReduction .add [0] S128 x 0x00000000#32 h hφ hacc (ix1 o) = ∑ r : Fin 512, x (ix2 r o) := by
  rw [Ideal.multiReduction_add_single]
  exact Finset.sum_congr rfl fun k _ => by rw [lift_col]; rfl

/-! ## Matrix products into the zero splat -/

/-- The 512 × 512 by 512 × 128 product at (r, f). -/
theorem mmS (l : FVec Ideal S512x512 .bf16) (z : FVec Ideal S512x128 .bf16) (r : Fin 512) (f : Fin 128) :
    matmul dot_S512x512_S512x128_S512x128_1_0_0_1_n_n none l z (constant S512x128 .f32 0x00000000#32) (ix2 r f)
      = ∑ j : Fin 512, l (ix2 r j) * z (ix2 j f) :=
  Cert.Lib.RowRead.matmul_zero_apply dot_S512x512_S512x128_S512x128_1_0_0_1_n_n rfl rfl
    (fun _ _ => rfl) (fun _ _ => rfl) (fun _ _ => rfl) (fun _ _ => rfl) none l z r f

/-- The 512 × 128 by 128 × 128 product at (r, o). -/
theorem mmW (l : FVec Ideal S512x128 .bf16) (w : FVec Ideal S128x128 .bf16) (r : Fin 512) (o : Fin 128) :
    matmul dot_S512x128_S128x128_S512x128_1_0_0_1_n_n none l w (constant S512x128 .f32 0x00000000#32) (ix2 r o)
      = ∑ f : Fin 128, l (ix2 r f) * w (ix2 f o) :=
  Cert.Lib.RowRead.matmul_zero_apply dot_S512x128_S128x128_S512x128_1_0_0_1_n_n rfl rfl
    (fun _ _ => rfl) (fun _ _ => rfl) (fun _ _ => rfl) (fun _ _ => rfl) none l w r o

/-! ## The normalised adjacency -/

/-- D^(-1/2) from a vector of degrees, at node r: the reciprocal square root of the floored degree where the degree
    is positive, zero elsewhere. -/
theorem dinv_read (d : FVec Ideal S512 .f32) (r : Fin 512) :
    select (cmpf .ogt d (broadcast S512 (Scalar.ofBits (F := Ideal) .f32 0x00000000#32)))
        (rsqrt (maximumf d (broadcast S512 (Scalar.ofBits (F := Ideal) .f32 0x2B8CBCCC#32))))
        (broadcast S512 (Scalar.ofBits (F := Ideal) .f32 0x00000000#32)) (ix1 r)
      = Scalar.select (Ideal.cmp .ogt (d (ix1 r)) 0) (Ideal.rsqrt (max (d (ix1 r)) Cert.GnnSpec.eps)) 0 := by
  show Scalar.select (Ideal.cmp .ogt (d (ix1 r)) (Ideal.ofBits .f32 0x00000000#32))
      (Ideal.rsqrt (max (d (ix1 r)) (Ideal.ofBits .f32 0x2B8CBCCC#32))) (Ideal.ofBits .f32 0x00000000#32) = _
  rw [Ideal.ofBits_zero_f32]; rfl

/-- A vector d spread down the rows and along the lanes around a block x: entry (r, j) is (d r · x r j) · d j. -/
theorem outer_read (x : FVec Ideal S512x512 .f32) (d : FVec Ideal S512 .f32) (hc : S512.ShapeCasts S512x1)
    (hb : S512x1.Broadcasts S512x512) (hr : S512.ShapeCasts S1x512) (hbr : S1x512.Broadcasts S512x512) (r j : Fin 512) :
    mulf (mulf (broadcastTo S512x512 (shapeCast S512x1 d hc) hb) x) (broadcastTo S512x512 (shapeCast S1x512 d hr) hbr) (ix2 r j)
      = (d (ix1 r) * x (ix2 r j)) * d (ix1 j) := by
  show (broadcastTo S512x512 (shapeCast S512x1 d hc) hb (ix2 r j) * x (ix2 r j))
      * broadcastTo S512x512 (shapeCast S1x512 d hr) hbr (ix2 r j) = _
  rw [Cert.Lib.RowRead.broadcastTo_a1_ab_apply, Cert.Lib.RowRead.shapeCast_a_a1_apply, broadcastTo_1b_ab_apply,
    shapeCast_a_1a_apply]

/-- The kernel's degrees at node r are the row sums of the graph's adjacency. -/
theorem deg_read (v10 : Vec Ideal S1x512x512 .f32) (h : S1x512x512.ShapeCasts S512x512) (hr : S512x512.Reduces [1] S512)
    (hφ : FKind.Formats FTy.f32) (hacc : (0x00000000#32 : BitVec FTy.f32.bits) = FKind.add.neutral .f32 hφ) (r : Fin 512) :
    multiReduction (F := Ideal) .add [1] S512 (shapeCast S512x512 v10 h) 0x00000000#32 hr hφ hacc (ix1 r)
      = Cert.GnnSpec.deg (fun r j => v10 (ix3 (0 : Fin 1) r j)) r :=
  (rowSum _ hr hφ hacc r).trans (Finset.sum_congr rfl fun j _ => cast_adj v10 h r j)

/-- The kernel's D^(-1/2) vector at node r. -/
theorem dinvVec_read (v10 : Vec Ideal S1x512x512 .f32) (h : S1x512x512.ShapeCasts S512x512) (hr : S512x512.Reduces [1] S512)
    (hφ : FKind.Formats FTy.f32) (hacc : (0x00000000#32 : BitVec FTy.f32.bits) = FKind.add.neutral .f32 hφ) (r : Fin 512) :
    select (cmpf .ogt (multiReduction .add [1] S512 (shapeCast S512x512 v10 h) 0x00000000#32 hr hφ hacc)
          (broadcast S512 (Scalar.ofBits (F := Ideal) .f32 0x00000000#32)))
        (rsqrt (maximumf (multiReduction .add [1] S512 (shapeCast S512x512 v10 h) 0x00000000#32 hr hφ hacc)
          (broadcast S512 (Scalar.ofBits (F := Ideal) .f32 0x2B8CBCCC#32))))
        (broadcast S512 (Scalar.ofBits (F := Ideal) .f32 0x00000000#32)) (ix1 r)
      = Cert.GnnSpec.dinv (fun r j => v10 (ix3 (0 : Fin 1) r j)) r := by
  refine (dinv_read _ r).trans ?_
  rw [deg_read v10 h hr hφ hacc r]
  rfl

/-- The kernel's normalised adjacency at (r, j). -/
theorem pay3_apply (v10 : Vec Ideal S1x512x512 .f32) (r j : Fin 512) :
    k0_pay3 v10 (ix2 r j) = Cert.GnnSpec.nadj (fun r j => v10 (ix3 (0 : Fin 1) r j)) r j := by
  unfold k0_pay3
  dsimp only
  refine (truncf_apply (ψ := FTy.bf16) _ bitsLt_bf16_f32 (ix2 r j)).trans ?_
  refine (outer_read _ _ _ _ _ _ r j).trans ?_
  exact congrArg₂ (· * ·) (congrArg₂ (· * ·) (dinvVec_read v10 _ _ _ _ r) (cast_adj v10 _ r j)) (dinvVec_read v10 _ _ _ _ j)

/-! ## One layer, stage by stage -/

/-- One product by the normalised adjacency: the operand changes format, the product is accumulated into zero. -/
def kApp (S : FVec Ideal S512x512 .bf16) (z : FVec Ideal S512x128 .f32) : FVec Ideal S512x128 .f32 :=
  matmul dot_S512x512_S512x128_S512x128_1_0_0_1_n_n none S (truncf .bf16 z bitsLt_bf16_f32) (constant S512x128 .f32 0x00000000#32)

/-- The polynomial filter as the kernel accumulates it. -/
def kFilt (S : FVec Ideal S512x512 .bf16) (y : FVec Ideal S512x128 .f32) : FVec Ideal S512x128 .f32 :=
  addf (addf (addf y (kApp S y)) (kApp S (kApp S y))) (kApp S (kApp S (kApp S y)))

/-- The projection, the bias and the rectifier. -/
def kTail (u : FVec Ideal S512x128 .f32) (W : FVec Ideal S128x128 .bf16) (b : Vec Ideal S128 .f32) : FVec Ideal S512x128 .f32 :=
  maximumf (addf (matmul dot_S512x128_S128x128_S512x128_1_0_0_1_n_n none (truncf .bf16 u bitsLt_bf16_f32) W (constant S512x128 .f32 0x00000000#32))
      (broadcastTo S512x128 (shapeCast S1x128 b shapeCasts_S128_S1x128) broadcasts_S1x128_S512x128))
    (broadcast S512x128 (Scalar.ofBits (F := Ideal) .f32 0x00000000#32))

section Reads

variable (S : FVec Ideal S512x512 .bf16) (Sf : Fin 512 → Fin 512 → EReal) (hS : ∀ r j, S (ix2 r j) = Sf r j)

include hS

theorem kApp_read (z : FVec Ideal S512x128 .f32) (zf : Fin 512 → Fin 128 → EReal) (hz : ∀ j f, z (ix2 j f) = zf j f)
    (r : Fin 512) (f : Fin 128) : kApp S z (ix2 r f) = Cert.GnnSpec.app Sf zf r f :=
  (mmS S (truncf .bf16 z bitsLt_bf16_f32) r f).trans
    (Finset.sum_congr rfl fun j _ => congrArg₂ (· * ·) (hS r j) (hz j f))

theorem kFilt_read (y : FVec Ideal S512x128 .f32) (yf : Fin 512 → Fin 128 → EReal) (hy : ∀ j f, y (ix2 j f) = yf j f)
    (r : Fin 512) (f : Fin 128) : kFilt S y (ix2 r f) = Cert.GnnSpec.filt Sf yf r f := by
  have h1 : ∀ r f, kApp S y (ix2 r f) = Cert.GnnSpec.app Sf yf r f := kApp_read S Sf hS y yf hy
  have h2 : ∀ r f, kApp S (kApp S y) (ix2 r f) = Cert.GnnSpec.app Sf (Cert.GnnSpec.app Sf yf) r f :=
    kApp_read S Sf hS _ _ h1
  have h3 : ∀ r f, kApp S (kApp S (kApp S y)) (ix2 r f)
      = Cert.GnnSpec.app Sf (Cert.GnnSpec.app Sf (Cert.GnnSpec.app Sf yf)) r f := kApp_read S Sf hS _ _ h2
  exact congrArg₂ (· + ·) (congrArg₂ (· + ·) (congrArg₂ (· + ·) (hy r f) (h1 r f)) (h2 r f)) (h3 r f)

omit hS in
theorem kTail_read (u : FVec Ideal S512x128 .f32) (W : FVec Ideal S128x128 .bf16) (b : Vec Ideal S128 .f32)
    (uf : Fin 512 → Fin 128 → EReal) (Wf : Fin 128 → Fin 128 → EReal) (bf : Fin 128 → EReal)
    (hu : ∀ r f, u (ix2 r f) = uf r f) (hW : ∀ f o, W (ix2 f o) = Wf f o) (hb : ∀ o, b (ix1 o) = bf o)
    (r : Fin 512) (o : Fin 128) :
    kTail u W b (ix2 r o) = max ((∑ f : Fin 128, uf r f * Wf f o) + bf o) 0 := by
  have hm := (mmW (truncf .bf16 u bitsLt_bf16_f32) W r o).trans
    (Finset.sum_congr rfl fun f _ => congrArg₂ (· * ·) (hu r f) (hW f o))
  have hbias := (bias_apply b shapeCasts_S128_S1x128 broadcasts_S1x128_S512x128 r o).trans (hb o)
  exact congrArg₂ max (congrArg₂ (· + ·) hm hbias) Ideal.ofBits_zero_f32

theorem kLayer_read (y : FVec Ideal S512x128 .f32) (W : FVec Ideal S128x128 .bf16) (b : Vec Ideal S128 .f32)
    (yf : Fin 512 → Fin 128 → EReal) (Wf : Fin 128 → Fin 128 → EReal) (bf : Fin 128 → EReal)
    (hy : ∀ j f, y (ix2 j f) = yf j f) (hW : ∀ f o, W (ix2 f o) = Wf f o) (hb : ∀ o, b (ix1 o) = bf o)
    (r : Fin 512) (o : Fin 128) :
    kTail (kFilt S y) W b (ix2 r o) = Cert.GnnSpec.layer Sf yf Wf bf r o :=
  kTail_read (kFilt S y) W b (Cert.GnnSpec.filt Sf yf) Wf bf (kFilt_read S Sf hS y yf hy) hW hb r o

end Reads

/-- Layer 1's output at (r, o). -/
theorem pay4_apply (v0 : Vec Ideal S128x128 .f32) (v4 : Vec Ideal S128 .f32) (v10 : Vec Ideal S1x512x512 .f32)
    (v13 : Vec Ideal S1x512x128 .f32) (r : Fin 512) (o : Fin 128) :
    k0_pay4 (k0_pay1 v0) v4 v10 v13 (ix2 r o)
      = Cert.GnnSpec.layer (Cert.GnnSpec.nadj (fun r j => v10 (ix3 (0 : Fin 1) r j))) (fun r f => v13 (ix3 (0 : Fin 1) r f))
          (fun f o => v0 (ix2 f o)) (fun o => v4 (ix1 o)) r o :=
  kLayer_read (k0_pay3 v10) _ (pay3_apply v10) (shapeCast S512x128 v13 shapeCasts_S1x512x128_S512x128) (k0_pay1 v0) v4
    _ _ _ (fun j f => cast_feat v13 _ j f) (fun _ _ => rfl) (fun _ => rfl) r o

/-- The column sum, the product with the literal and the cast to a row, at (0, o). -/
theorem mean_read (m : FVec Ideal S512x128 .f32) (h : S512x128.Reduces [0] S128) (hφ : FKind.Formats FTy.f32)
    (hacc : (0x00000000#32 : BitVec FTy.f32.bits) = FKind.add.neutral .f32 hφ) (hc : S128.ShapeCasts S1x128) (o : Fin 128) :
    shapeCast S1x128 (mulf (multiReduction .add [0] S128 m 0x00000000#32 h hφ hacc)
        (broadcast S128 (Scalar.ofBits (F := Ideal) .f32 0x3B000000#32))) hc (ix2 (0 : Fin 1) o)
      = (∑ r : Fin 512, m (ix2 r o)) * Ideal.ofBits .f32 0x3B000000#32 :=
  (shapeCast_a_1a_apply _ hc 0 o).trans (congrArg (· * Ideal.ofBits .f32 0x3B000000#32) (colSum m h hφ hacc o))

/-- The stored value at (0, o): the two layers' output summed over the graph's nodes, times the literal 2⁻⁹. -/
theorem pay_apply (v0 v2 : Vec Ideal S128x128 .f32) (v4 v5 : Vec Ideal S128 .f32)
    (v10 : Vec Ideal S1x512x512 .f32) (v13 : Vec Ideal S1x512x128 .f32) (o : Fin 128) :
    k0_pay2 v2 v5 (k0_pay3 v10) (k0_pay6 (k0_pay1 v0) v4 v10 v13) (k0_pay7 (k0_pay1 v0) v4 v10 v13) (ix2 (0 : Fin 1) o)
      = Cert.GnnSpec.pooled (fun r j => v10 (ix3 (0 : Fin 1) r j)) (fun r f => v13 (ix3 (0 : Fin 1) r f))
          (fun f o => v0 (ix2 f o)) (fun o => v4 (ix1 o)) (fun f o => v2 (ix2 f o)) (fun o => v5 (ix1 o)) o
        * Ideal.ofBits .f32 0x3B000000#32 := by
  have key : ∀ r : Fin 512,
      kTail (kFilt (k0_pay3 v10) (k0_pay4 (k0_pay1 v0) v4 v10 v13)) (truncf .bf16 v2 bitsLt_bf16_f32) v5 (ix2 r o)
        = Cert.GnnSpec.layer (Cert.GnnSpec.nadj (fun r j => v10 (ix3 (0 : Fin 1) r j)))
            (Cert.GnnSpec.layer (Cert.GnnSpec.nadj (fun r j => v10 (ix3 (0 : Fin 1) r j))) (fun r f => v13 (ix3 (0 : Fin 1) r f))
              (fun f o => v0 (ix2 f o)) (fun o => v4 (ix1 o)))
            (fun f o => v2 (ix2 f o)) (fun o => v5 (ix1 o)) r o :=
    fun r => kLayer_read (k0_pay3 v10) _ (pay3_apply v10) (k0_pay4 (k0_pay1 v0) v4 v10 v13) (truncf .bf16 v2 bitsLt_bf16_f32) v5
      _ _ _ (pay4_apply v0 v4 v10 v13) (fun _ _ => rfl) (fun _ => rfl) r o
  unfold k0_pay2
  dsimp only
  refine (mean_read _ _ _ _ _ o).trans ?_
  exact congrArg (· * Ideal.ofBits .f32 0x3B000000#32) (Finset.sum_congr rfl fun r _ => key r)

end Cert.KernelIdeal.PayRead

end
-- ==== Proof.KIdealBlock.lean ====
/-
  One call of the kernel body: what it leaves in the output block.

  The body runs eight trips; trip k loads slab k of the adjacency block and of the feature block, computes that graph's
  pooled features, and stores them as row k of the 8 × 128 output block. So the block it leaves is ONE function of the
  six input blocks: row k, lane o, is graph k's two layers summed over its nodes at feature o, times the literal 2⁻⁹.
  Each trip's stored row is the restriction of that function to the row (the payload read at an index, the two slab
  loads and the four whole-block loads read where their rectangles say); the eight rows tile the block; hence the block
  read back after the stores is that function.
-/
import proofs.«128234_j52544629899590_1_alg».proof.Proof.KIdealFrame
import proofs.«128234_j52544629899590_1_alg».proof.Proof.PayRead
import proofs.«128234_j52544629899590_1_alg».proof.Proof.Spec
import Idealize.ShloMosaic.Lib.Pipeline.Value
import Idealize.ShloMosaic.Lib.ValueIdx

set_option maxRecDepth 16384

noncomputable section

namespace Cert.KernelIdeal.Hand.Value

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## One body call: the output block as one function of the input blocks -/

/-- Row k of the body's output block: graph k's two layers summed over its nodes, times the literal 2⁻⁹, from the
    whole input blocks (x0 the eight adjacency slabs, x1 the eight feature slabs, x2 … x5 the weights and biases). -/
def blockF (x0 : Vec Ideal S8x512x512 .f32) (x1 : Vec Ideal S8x512x128 .f32) (x2 : Vec Ideal S128x128 .f32) (x3 : Vec Ideal S128 .f32)
    (x4 : Vec Ideal S128x128 .f32) (x5 : Vec Ideal S128 .f32) (k : Fin 8) (o : Fin 128) : EReal :=
  Cert.GnnSpec.pooled (fun r j => x0 (ix3 k r j)) (fun r f => x1 (ix3 k r f)) (fun f o => x2 (ix2 f o)) (fun o => x3 (ix1 o))
      (fun f o => x4 (ix2 f o)) (fun o => x5 (ix1 o)) o
    * Ideal.ofBits .f32 0x3B000000#32

/-- The same as a function of the 8 × 128 block index. -/
def blockG (x0 : Vec Ideal S8x512x512 .f32) (x1 : Vec Ideal S8x512x128 .f32) (x2 : Vec Ideal S128x128 .f32) (x3 : Vec Ideal S128 .f32)
    (x4 : Vec Ideal S128x128 .f32) (x5 : Vec Ideal S128 .f32) : Vec Ideal S8x128 .f32 :=
  fun j => blockF x0 x1 x2 x3 x4 x5 ⟨(j 0).val, idx2_lt0 j⟩ ⟨(j 1).val, idx2_lt1 j⟩

theorem hz2 : (![0, 0] : Fin 2 → Nat) = fun _ => 0 := funext fun a => by fin_cases a <;> rfl
theorem hz1 : (![0] : Fin 1 → Nat) = fun _ => 0 := funext fun a => by fin_cases a <;> rfl

/-- A whole 128 × 128 block loaded at zero offsets reads the block's contents. -/
theorem whole2_read (a : Memref sig .tc .vmem S128x128 .f32) (ha : a.IsWhole) (x : Vec Ideal S128x128 .f32)
    (inb : ∀ d, (![0, 0] : Fin 2 → Nat) d + S128x128.size d ≤ S128x128.size d) :
    View.readAt (Elt Ideal) a.view (Rect.unit (s := S128x128) ![0, 0] S128x128.size inb).toLoadRect (ha.unread x) = x := by
  rw [View.readAt_eq_ld, ha.read_unread]
  exact View.ld_unit_zero hz2 inb x

/-- A whole 128-vector loaded at zero offset reads the vector's contents. -/
theorem whole1_read (a : Memref sig .tc .vmem S128 .f32) (ha : a.IsWhole) (x : Vec Ideal S128 .f32)
    (inb : ∀ d, (![0] : Fin 1 → Nat) d + S128.size d ≤ S128.size d) :
    View.readAt (Elt Ideal) a.view (Rect.unit (s := S128) ![0] S128.size inb).toLoadRect (ha.unread x) = x := by
  rw [View.readAt_eq_ld, ha.read_unread]
  exact View.ld_unit_zero hz1 inb x

/-- Slab k of the adjacency block, loaded through the unit rectangle at (k, 0, 0): entry (0, r, j) is the block's (k, r, j). -/
theorem slabA_read (a : Memref sig .tc .vmem S8x512x512 .f32) (ha : a.IsWhole) (x0 : Vec Ideal S8x512x512 .f32)
    (off : Fin 3 → Nat) (kk : Fin 8) (hoff : off = ![kk.val, 0, 0]) (inb : ∀ d, off d + S1x512x512.size d ≤ S8x512x512.size d)
    (r j : Fin 512) :
    View.readAt (Elt Ideal) a.view (Rect.unit (s := S8x512x512) off S1x512x512.size inb).toLoadRect (ha.unread x0) (ix3 (0 : Fin 1) r j)
      = x0 (ix3 kk r j) := by
  subst hoff
  rw [View.readAt_eq_ld, ha.read_unread]
  show x0 _ = x0 _
  congr 1
  funext d
  apply Fin.ext
  simp only [LoadRect.idx_apply, Rect.emb_apply, Rect.off_unit, Rect.stride_unit, Nat.one_mul]
  match d with
  | ⟨0, _⟩ => show kk.val + 0 = kk.val; omega
  | ⟨1, _⟩ => show 0 + r.val = r.val; omega
  | ⟨2, _⟩ => show 0 + j.val = j.val; omega

/-- Slab k of the feature block, likewise. -/
theorem slabX_read (a : Memref sig .tc .vmem S8x512x128 .f32) (ha : a.IsWhole) (x1 : Vec Ideal S8x512x128 .f32)
    (off : Fin 3 → Nat) (kk : Fin 8) (hoff : off = ![kk.val, 0, 0]) (inb : ∀ d, off d + S1x512x128.size d ≤ S8x512x128.size d)
    (r : Fin 512) (f : Fin 128) :
    View.readAt (Elt Ideal) a.view (Rect.unit (s := S8x512x128) off S1x512x128.size inb).toLoadRect (ha.unread x1) (ix3 (0 : Fin 1) r f)
      = x1 (ix3 kk r f) := by
  subst hoff
  rw [View.readAt_eq_ld, ha.read_unread]
  show x1 _ = x1 _
  congr 1
  funext d
  apply Fin.ext
  simp only [LoadRect.idx_apply, Rect.emb_apply, Rect.off_unit, Rect.stride_unit, Nat.one_mul]
  match d with
  | ⟨0, _⟩ => show kk.val + 0 = kk.val; omega
  | ⟨1, _⟩ => show 0 + r.val = r.val; omega
  | ⟨2, _⟩ => show 0 + f.val = f.val; omega

/-- ONE TRIP'S PIECE is the restriction of the block function to its row: the payload of slab k of the two large blocks
    and the weights, at the row's local index, is the block function at the index the row's rectangle names. -/
theorem piece_value (x0 : Vec Ideal S8x512x512 .f32) (x1 : Vec Ideal S8x512x128 .f32) (x2 : Vec Ideal S128x128 .f32) (x3 : Vec Ideal S128 .f32)
    (x4 : Vec Ideal S128x128 .f32) (x5 : Vec Ideal S128 .f32) (rdA : Vec Ideal S1x512x512 .f32) (rdX : Vec Ideal S1x512x128 .f32) (kk : Fin 8)
    (hA : ∀ r j, rdA (ix3 (0 : Fin 1) r j) = x0 (ix3 kk r j)) (hX : ∀ r f, rdX (ix3 (0 : Fin 1) r f) = x1 (ix3 kk r f))
    (off : Fin 2 → Nat) (hoff : off = ![kk.val, 0]) (inb : ∀ d, off d + S1x128.size d ≤ S8x128.size d)
    (x : (Rect.unit (s := S8x128) off S1x128.size inb).shape.Idx) :
    k0_pay2 x4 x5 (k0_pay3 rdA) (k0_pay6 (k0_pay1 x2) x3 rdA rdX) (k0_pay7 (k0_pay1 x2) x3 rdA rdX) x
      = blockG x0 x1 x2 x3 x4 x5 ((Rect.unit (s := S8x128) off S1x128.size inb).emb x) := by
  subst hoff
  obtain ⟨u, o, rfl⟩ : ∃ (u : Fin 1) (o : Fin 128), x = ix2 u o := ⟨x 0, x 1, eq_ix2 x⟩
  obtain rfl : u = 0 := Subsingleton.elim _ _
  refine (Cert.KernelIdeal.PayRead.pay_apply x2 x4 x3 x5 rdA rdX o).trans ?_
  have he : (Rect.unit (s := S8x128) ![kk.val, 0] S1x128.size inb).emb (ix2 (0 : Fin 1) o) = ix2 kk o := by
    funext d
    apply Fin.ext
    simp only [Rect.emb_apply, Rect.off_unit, Rect.stride_unit, Nat.one_mul]
    match d with
    | ⟨0, _⟩ => show kk.val + 0 = kk.val; omega
    | ⟨1, _⟩ => show 0 + o.val = o.val; omega
  rw [he]
  show _ = blockF x0 x1 x2 x3 x4 x5 kk o
  unfold blockF
  rw [show (fun r j => rdA (ix3 (0 : Fin 1) r j)) = fun r j => x0 (ix3 kk r j) from funext fun r => funext fun j => hA r j,
    show (fun r f => rdX (ix3 (0 : Fin 1) r f)) = fun r f => x1 (ix3 kk r f) from funext fun r => funext fun f => hX r f]

section Body

variable (𝒱 : Variants) (c : Dev nD) (bd : Option 𝒱.V) (i : grid0.Coords) (arg1 : Memref sig .tc .vmem S8x512x512 .f32) (harg1 : arg1.IsWhole) (arg2 : Memref sig .tc .vmem S8x512x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S8x128 .f32) (harg7 : arg7.IsWhole)
  (x0 : Vec Ideal S8x512x512 .f32) (x1 : Vec Ideal S8x512x128 .f32) (x2 : Vec Ideal S128x128 .f32) (x3 : Vec Ideal S128 .f32)
  (x4 : Vec Ideal S128x128 .f32) (x5 : Vec Ideal S128 .f32)

/-- Trip k leaves one piece, row k, and it is the block function's restriction to that row. -/
theorem trip_pieces (k : Fin k0_t1_loop.trips) :
    ∀ p ∈ tripL_k0_t1 (F := Ideal) 𝒱 c bd i arg1 harg1 arg2 harg2 arg3 harg3 arg4 harg4 arg5 harg5 arg6 harg6 arg7 harg7 x2 x4 x3 x5 (harg1.unread x0) (harg2.unread x1) k,
      ∀ x : p.1.shape.Idx, p.2 x = blockG x0 x1 x2 x3 x4 x5 (p.1.emb x) := by
  have hk : k.val < 8 := Nat.lt_of_lt_of_le k.isLt k0_t1_abs.2.1
  unfold tripL_k0_t1
  unfold trip_k0_t1
  dsimp only
  sl_unfold_run_names
  intro p hp
  rw [List.mem_singleton] at hp
  subst hp
  intro x
  exact piece_value x0 x1 x2 x3 x4 x5 _ _ ⟨k.val, hk⟩
    (fun r j => slabA_read arg1 harg1 x0 (k0_off1 k) ⟨k.val, hk⟩ (k0_off1_eq k) (k0_off1_inb k) r j)
    (fun r f => slabX_read arg2 harg2 x1 (k0_off2 k) ⟨k.val, hk⟩ (k0_off2_eq k) (k0_off2_inb k) r f)
    (k0_off3 k) (k0_off3_eq k) (k0_off3_inb k) x

/-- So is every piece of the trips before n, for every n. -/
theorem pb_pieces (n : ℕ) :
    ∀ p ∈ pb_k0_t1 (F := Ideal) 𝒱 c bd i arg1 harg1 arg2 harg2 arg3 harg3 arg4 harg4 arg5 harg5 arg6 harg6 arg7 harg7 x2 x4 x3 x5 (harg1.unread x0) (harg2.unread x1) n,
      ∀ x : p.1.shape.Idx, p.2 x = blockG x0 x1 x2 x3 x4 x5 (p.1.emb x) := by
  induction n with
  | zero =>
    intro p hp
    rw [pb_k0_t1.eq_1] at hp
    exact absurd hp List.not_mem_nil
  | succ n ih =>
    intro p hp
    rw [pb_k0_t1.eq_2] at hp
    unfold pb_k0_t1Step at hp
    split at hp
    · rename_i hn
      rcases List.mem_append.mp hp with h | h
      · exact trip_pieces 𝒱 c bd i arg1 harg1 arg2 harg2 arg3 harg3 arg4 harg4 arg5 harg5 arg6 harg6 arg7 harg7 x0 x1 x2 x3 x4 x5 ⟨n, hn⟩ p h
      · exact ih p h
    · exact ih p hp

end Body

/-- WHAT ONE BODY CALL LEAVES in the output's staging buffer is the block function of its six input blocks. -/
theorem out_eq (c : Dev nD) (i : grid0.Coords) (arg1 : Memref sig .tc .vmem S8x512x512 .f32) (harg1 : arg1.IsWhole) (arg2 : Memref sig .tc .vmem S8x512x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S8x128 .f32) (harg7 : arg7.IsWhole)
    (x0 : Vec Ideal S8x512x512 .f32) (x1 : Vec Ideal S8x512x128 .f32) (x2 : Vec Ideal S128x128 .f32) (x3 : Vec Ideal S128 .f32)
    (x4 : Vec Ideal S128x128 .f32) (x5 : Vec Ideal S128 .f32) :
    out0_A_6 (F := Ideal) c i arg1 harg1 arg2 harg2 arg3 harg3 arg4 harg4 arg5 harg5 arg6 harg6 arg7 harg7 x0 x1 x2 x3 x4 x5 = blockG x0 x1 x2 x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  funext y
  refine View.canon_apply_of_pieces (blockG x0 x1 x2 x3 x4 x5) _ ?_ y (cover0_A_6 c i arg1 harg1 arg2 harg2 arg3 harg3 arg4 harg4 arg5 harg5 arg6 harg6 arg7 harg7 x0 x1 x2 x3 x4 x5 y)
  unfold kernelRun0_A
  dsimp only
  rw [whole2_read, whole2_read, whole1_read, whole1_read]
  exact pb_pieces Variants.none c none i arg1 harg1 arg2 harg2 arg3 harg3 arg4 harg4 arg5 harg5 arg6 harg6 arg7 harg7 x0 x1 x2 x3 x4 x5 _

end Cert.KernelIdeal.Hand.Value

end
-- ==== Proof.KIdealValue.lean ====
/-
  From the blocks to the output array.

  The region's grid has sixteen points; point t handles graphs 8t … 8t + 7: its adjacency and feature blocks are those
  graphs' slabs of the two large arrays, its weight and bias blocks are the whole arrays, and the block it writes back
  is rows 8t … 8t + 7 of the 128 × 128 output. The block function of point t's six blocks is therefore block t of ONE
  function of the six arrays — row b, lane o: graph b's two layers summed over its nodes at feature o, times the
  literal 2⁻⁹ — and since the sixteen blocks tile the output array, the array ends holding that function.
-/
import proofs.«128234_j52544629899590_1_alg».proof.Proof.KIdealBlock

set_option maxRecDepth 16384

noncomputable section

namespace Cert.KernelIdeal.Hand.Value

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## From the blocks to the arrays

Every fact about a window's block is stated over ARBITRARY contents of the window's array; the region's own contents
are put in only at the end. -/

/-- The printed index maps, decided over the grid: the two large inputs and the output move with the point along their
    leading axis and stay at block zero elsewhere; the weights and biases stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Point t's adjacency block is graphs 8t … 8t + 7 of the adjacency array. -/
theorem blk0_read (A : Vec Ideal S128x512x512 .f32) (t : Fin cfg0.N) (k : Fin 8) (r j : Fin 512) (b : Fin 128)
    (hb : b.val = 8 * t.val + k.val) :
    (((cfg0.win 0).blk t).view.read (Elt Ideal) A : Vec Ideal S8x512x512 .f32) (ix3 k r j) = A (ix3 b r j) := by
  obtain ⟨e0, e1, e2, -⟩ := idx_facts t
  rw [View.read_apply]
  show A _ = A _
  congr 1
  funext a
  apply Fin.ext
  match a with
  | ⟨0, _⟩ => show win0_0.index t (0 : Fin 3) * 8 + 1 * k.val = b.val; rw [e0, hb]; omega
  | ⟨1, _⟩ => show win0_0.index t (1 : Fin 3) * 512 + 1 * r.val = r.val; rw [e1]; omega
  | ⟨2, _⟩ => show win0_0.index t (2 : Fin 3) * 512 + 1 * j.val = j.val; rw [e2]; omega

/-- Point t's feature block is graphs 8t … 8t + 7 of the regrouped features. -/
theorem blk1_read (A : Vec Ideal S128x512x128 .f32) (t : Fin cfg0.N) (k : Fin 8) (r : Fin 512) (f : Fin 128) (b : Fin 128)
    (hb : b.val = 8 * t.val + k.val) :
    (((cfg0.win 1).blk t).view.read (Elt Ideal) A : Vec Ideal S8x512x128 .f32) (ix3 k r f) = A (ix3 b r f) := by
  obtain ⟨-, -, -, e0, e1, e2, -⟩ := idx_facts t
  rw [View.read_apply]
  show A _ = A _
  congr 1
  funext a
  apply Fin.ext
  match a with
  | ⟨0, _⟩ => show win0_1.index t (0 : Fin 3) * 8 + 1 * k.val = b.val; rw [e0, hb]; omega
  | ⟨1, _⟩ => show win0_1.index t (1 : Fin 3) * 512 + 1 * r.val = r.val; rw [e1]; omega
  | ⟨2, _⟩ => show win0_1.index t (2 : Fin 3) * 128 + 1 * f.val = f.val; rw [e2]; omega

/-- The first weight matrix's block is the whole matrix, at every point. -/
theorem blk2_read (A : Vec Ideal S128x128 .f32) (t : Fin cfg0.N) (f o : Fin 128) :
    (((cfg0.win 2).blk t).view.read (Elt Ideal) A : Vec Ideal S128x128 .f32) (ix2 f o) = A (ix2 f o) := by
  obtain ⟨-, -, -, -, -, -, e0, e1, -⟩ := idx_facts t
  rw [View.read_apply]
  show A _ = A _
  congr 1
  funext a
  apply Fin.ext
  match a with
  | ⟨0, _⟩ => show win0_2.index t (0 : Fin 2) * 128 + 1 * f.val = f.val; rw [e0]; omega
  | ⟨1, _⟩ => show win0_2.index t (1 : Fin 2) * 128 + 1 * o.val = o.val; rw [e1]; omega

/-- The first bias's block is the whole vector. -/
theorem blk3_read (A : Vec Ideal S128 .f32) (t : Fin cfg0.N) (o : Fin 128) :
    (((cfg0.win 3).blk t).view.read (Elt Ideal) A : Vec Ideal S128 .f32) (ix1 o) = A (ix1 o) := by
  obtain ⟨-, -, -, -, -, -, -, -, e0, -⟩ := idx_facts t
  rw [View.read_apply]
  show A _ = A _
  congr 1
  funext a
  apply Fin.ext
  match a with
  | ⟨0, _⟩ => show win0_3.index t (0 : Fin 1) * 128 + 1 * o.val = o.val; rw [e0]; omega

/-- The second weight matrix's block is the whole matrix. -/
theorem blk4_read (A : Vec Ideal S128x128 .f32) (t : Fin cfg0.N) (f o : Fin 128) :
    (((cfg0.win 4).blk t).view.read (Elt Ideal) A : Vec Ideal S128x128 .f32) (ix2 f o) = A (ix2 f o) := by
  obtain ⟨-, -, -, -, -, -, -, -, -, e0, e1, -⟩ := idx_facts t
  rw [View.read_apply]
  show A _ = A _
  congr 1
  funext a
  apply Fin.ext
  match a with
  | ⟨0, _⟩ => show win0_4.index t (0 : Fin 2) * 128 + 1 * f.val = f.val; rw [e0]; omega
  | ⟨1, _⟩ => show win0_4.index t (1 : Fin 2) * 128 + 1 * o.val = o.val; rw [e1]; omega

/-- The second bias's block is the whole vector. -/
theorem blk5_read (A : Vec Ideal S128 .f32) (t : Fin cfg0.N) (o : Fin 128) :
    (((cfg0.win 5).blk t).view.read (Elt Ideal) A : Vec Ideal S128 .f32) (ix1 o) = A (ix1 o) := by
  obtain ⟨-, -, -, -, -, -, -, -, -, -, -, e0, -⟩ := idx_facts t
  rw [View.read_apply]
  show A _ = A _
  congr 1
  funext a
  apply Fin.ext
  match a with
  | ⟨0, _⟩ => show win0_5.index t (0 : Fin 1) * 128 + 1 * o.val = o.val; rw [e0]; omega

/-- Row b of the output array: graph b's two layers summed over its nodes, times the literal 2⁻⁹, from the six arrays. -/
def arrF (A0 : Vec Ideal S128x512x512 .f32) (A1 : Vec Ideal S128x512x128 .f32) (A2 : Vec Ideal S128x128 .f32) (A3 : Vec Ideal S128 .f32)
    (A4 : Vec Ideal S128x128 .f32) (A5 : Vec Ideal S128 .f32) (b o : Fin 128) : EReal :=
  Cert.GnnSpec.pooled (fun r j => A0 (ix3 b r j)) (fun r f => A1 (ix3 b r f)) (fun f o => A2 (ix2 f o)) (fun o => A3 (ix1 o))
      (fun f o => A4 (ix2 f o)) (fun o => A5 (ix1 o)) o
    * Ideal.ofBits .f32 0x3B000000#32

/-- The same as a function of the 128 × 128 array index. -/
def arrG (A0 : Vec Ideal S128x512x512 .f32) (A1 : Vec Ideal S128x512x128 .f32) (A2 : Vec Ideal S128x128 .f32) (A3 : Vec Ideal S128 .f32)
    (A4 : Vec Ideal S128x128 .f32) (A5 : Vec Ideal S128 .f32) : Vec Ideal S128x128 .f32 :=
  fun i => arrF A0 A1 A2 A3 A4 A5 ⟨(i 0).val, idx2_lt0 i⟩ ⟨(i 1).val, idx2_lt1 i⟩

/-- THE BLOCK FUNCTION OF POINT t's SIX BLOCKS IS BLOCK t OF THE ARRAY FUNCTION: row k of point t is graph 8t + k. -/
theorem block_eq (A0 : Vec Ideal S128x512x512 .f32) (A1 : Vec Ideal S128x512x128 .f32) (A2 : Vec Ideal S128x128 .f32) (A3 : Vec Ideal S128 .f32)
    (A4 : Vec Ideal S128x128 .f32) (A5 : Vec Ideal S128 .f32) (t : Fin cfg0.N) :
    blockG (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
      = ((cfg0.win 6).blk t).view.read (Elt Ideal) (arrG A0 A1 A2 A3 A4 A5) := by
  obtain ⟨-, -, -, -, -, -, -, -, -, -, -, -, e0, e1⟩ := idx_facts t
  have htl : t.val < 16 := Nat.lt_of_lt_of_eq t.isLt N_0
  funext y
  obtain ⟨k, o, rfl⟩ : ∃ (k : Fin 8) (o : Fin 128), y = ix2 k o := ⟨y 0, y 1, eq_ix2 y⟩
  have ht : 8 * t.val + k.val < 128 := by have := k.isLt; omega
  rw [View.read_apply]
  have he : ((cfg0.win 6).blk t).view.emb (ix2 k o) = ix2 (⟨8 * t.val + k.val, ht⟩ : Fin 128) o := by
    funext a
    apply Fin.ext
    match a with
    | ⟨0, _⟩ => show win0_6.index t (0 : Fin 2) * 8 + 1 * k.val = 8 * t.val + k.val; rw [e0]; omega
    | ⟨1, _⟩ => show win0_6.index t (1 : Fin 2) * 128 + 1 * o.val = o.val; rw [e1]; omega
  show blockF _ _ _ _ _ _ k o = arrG A0 A1 A2 A3 A4 A5 (((cfg0.win 6).blk t).view.emb (ix2 k o))
  rw [he]
  show blockF _ _ _ _ _ _ k o = arrF A0 A1 A2 A3 A4 A5 ⟨8 * t.val + k.val, ht⟩ o
  unfold blockF arrF
  rw [show (fun r j => (((cfg0.win 0).blk t).view.read (Elt Ideal) A0 : Vec Ideal S8x512x512 .f32) (ix3 k r j))
        = fun r j => A0 (ix3 (⟨8 * t.val + k.val, ht⟩ : Fin 128) r j) from funext fun r => funext fun j => blk0_read A0 t k r j _ rfl,
    show (fun r f => (((cfg0.win 1).blk t).view.read (Elt Ideal) A1 : Vec Ideal S8x512x128 .f32) (ix3 k r f))
        = fun r f => A1 (ix3 (⟨8 * t.val + k.val, ht⟩ : Fin 128) r f) from funext fun r => funext fun f => blk1_read A1 t k r f _ rfl,
    show (fun f o => (((cfg0.win 2).blk t).view.read (Elt Ideal) A2 : Vec Ideal S128x128 .f32) (ix2 f o))
        = fun f o => A2 (ix2 f o) from funext fun f => funext fun o => blk2_read A2 t f o,
    show (fun o => (((cfg0.win 3).blk t).view.read (Elt Ideal) A3 : Vec Ideal S128 .f32) (ix1 o))
        = fun o => A3 (ix1 o) from funext fun o => blk3_read A3 t o,
    show (fun f o => (((cfg0.win 4).blk t).view.read (Elt Ideal) A4 : Vec Ideal S128x128 .f32) (ix2 f o))
        = fun f o => A4 (ix2 f o) from funext fun f => funext fun o => blk4_read A4 t f o,
    show (fun o => (((cfg0.win 5).blk t).view.read (Elt Ideal) A5 : Vec Ideal S128 .f32) (ix1 o))
        = fun o => A5 (ix1 o) from funext fun o => blk5_read A5 t o]

/-- Every row of the output array is in the block of the point that handles its graph: point b / 8. -/
theorem cover6 (i : S128x128.Idx) : ∃ t : Fin cfg0.N, (cfg0.win 6).flush t = true ∧ i ∈ ((cfg0.win 6).blk t).view.set := by
  have hi0 : (i 0).val < 128 := idx2_lt0 i
  have hi1 : (i 1).val < 128 := idx2_lt1 i
  obtain ⟨t, ht⟩ : ∃ t : Fin cfg0.N, t.val = (i 0).val / 8 :=
    ⟨⟨(i 0).val / 8, by rw [show cfg0.N = 16 from N_0]; omega⟩, rfl⟩
  obtain ⟨-, -, -, -, -, -, -, -, -, -, -, -, e0, e1⟩ := idx_facts t
  refine ⟨t, flush0_6 t, ?_⟩
  show i ∈ ((View.whole main_v32).slice (win0_6.rect t)).set
  rw [View.set_slice_whole, Rect.mem_set_unit]
  intro a
  match a with
  | ⟨0, _⟩ => show win0_6.index t (0 : Fin 2) * 8 ≤ (i 0).val ∧ (i 0).val < win0_6.index t (0 : Fin 2) * 8 + 8; rw [e0]; omega
  | ⟨1, _⟩ => show win0_6.index t (1 : Fin 2) * 128 ≤ (i 1).val ∧ (i 1).val < win0_6.index t (1 : Fin 2) * 128 + 128; rw [e1]; omega

section Arrays

variable (m : (ℓ : Loc nD τ sig) → Buf (Elt Ideal) ℓ)

/-- WHAT POINT t WRITES BACK is block t of the array function of the six arrays as the region finds them. -/
theorem flushed6_eq (c : Dev nD) (t : Fin cfg0.N) :
    (dats (F := Ideal) m 0 c).flushed 6 t
      = ((cfg0.win 6).blk t).view.read (Elt Ideal) (arrG (V m c main_v30) (V m c main_v31) (V m c main_arg3) (V m c main_arg4) (V m c main_arg5) (V m c main_arg6)) := by
  show (cfg0.win 6).cut (grid0.coords t) ((dats (F := Ideal) m 0 c).after 6 t) = _
  rw [after0_6]
  unfold outsAt0
  rw [out_eq]
  unfold iblk
  exact block_eq _ _ _ _ _ _ t

/-- THE OUTPUT ARRAY after the region: the array function of the six arrays (the sixteen blocks tile it). -/
theorem arr6_eq (c : Dev nD) : (dats (F := Ideal) m 0 c).arrAt 6 cfg0.N = arrG (V m c main_v30) (V m c main_v31) (V m c main_arg3) (V m c main_arg4) (V m c main_arg5) (V m c main_arg6) :=
  (dats (F := Ideal) m 0 c).arrAt_eq_of_cover 6 _ (fun t _ => flushed6_eq m c t) (fun i => cover6 i)

/-- Entry (b, o) of the output array: graph b's pooled features at o, times the literal 2⁻⁹. -/
theorem arr6_apply (c : Dev nD) (b o : Fin 128) :
    (dats (F := Ideal) m 0 c).arrAt 6 cfg0.N (ix2 b o)
      = Cert.GnnSpec.pooled (fun r j => V m c main_v30 (ix3 b r j)) (fun r f => V m c main_v31 (ix3 b r f))
          (fun f o => V m c main_arg3 (ix2 f o)) (fun o => V m c main_arg4 (ix1 o))
          (fun f o => V m c main_arg5 (ix2 f o)) (fun o => V m c main_arg6 (ix1 o)) o
        * Ideal.ofBits .f32 0x3B000000#32 :=
  (congrFun (arr6_eq m c) (ix2 b o)).trans rfl

end Arrays

end Cert.KernelIdeal.Hand.Value

end
-- ==== Proof.RefMid.lean ====
/-
  The reference's middle — from the adjacency to the per-graph mean — as one function, and its value at an element.

  `refMid` composes, in the program's order, the pure functions of the reference's operations from the degree sum
  to the division by 512. Read at graph b and output feature o it is the quotient by 512 of the pooled two-layer
  filter of graph b alone (`Cert.GnnSpec.pooled`): every operation either acts element by element, or lays a small
  array over a larger one, or sums over one axis within a graph, so nothing mixes two graphs.

  The proof names the stages — the degree, D^(-1/2), the normalised adjacency S, one application of S, the filter
  y + S y + S² y + S³ y, one layer — as functions of whole arrays, shows `refMid` is their composition (the same
  term, by unfolding), and reads each stage at an element with the lemmas of RefMidLayout. A stage that takes node
  features is read relative to ANY per-graph description of its input (`hS`, `hy`), so the second layer reuses the
  first layer's reading as its input's description.
-/
import proofs.«128234_j52544629899590_1_alg».proof.ReferenceIdeal
import proofs.«128234_j52544629899590_1_alg».proof.Proof.Gen.ReferenceIdeal
import proofs.«128234_j52544629899590_1_alg».proof.Proof.Spec
import proofs.«128234_j52544629899590_1_alg».proof.Proof.RefMidLayout

noncomputable section

open scoped BigOperators

namespace Cert.ReferenceIdeal.Mid

open Idealize.ShloMosaic Idealize.ShloMosaic.ValueIdx Cert.ReferenceIdeal Cert.ReferenceIdeal.Facts₀

/-- The reference's operations from the degree sum to the division by 512, composed in the program's order: one
    binding per operation, the two small functions it calls (the guarded select, the rectifier) written out in place. -/
def refMid (A : FVec Ideal S128x512x512 .f32) (X0 : FVec Ideal S65536x128 .f32) (W1 : FVec Ideal S128x128 .f32)
    (b1 : FVec Ideal S128 .f32) (W2 : FVec Ideal S128x128 .f32) (b2 : FVec Ideal S128 .f32) :
    FVec Ideal S128x128 .f32 :=
  let cst_9 : FVec Ideal S_ .f32 := constant (F := Ideal) S_ .f32 0x00000000#32
  let v31 : FVec Ideal S128x512 .f32 := (fun x v => Host.reduceAdd (F := Ideal) x v reducesTo_S128x512x512_S128x512_d2 h_S_) A cst_9
  let cst_10 : FVec Ideal S_ .f32 := constant (F := Ideal) S_ .f32 0x00000000#32
  let v32 : FVec Ideal S128x512 .f32 := broadcastInDim S128x512 ![] bcast_S_S128x512 cst_10
  let v33 : IVec S128x512 1 := cmpf .ogt v31 v32
  let cst_11 : FVec Ideal S_ .f32 := constant (F := Ideal) S_ .f32 0x2B8CBCCC#32
  let v34 : FVec Ideal S128x512 .f32 := broadcastInDim S128x512 ![] bcast_S_S128x512 cst_11
  let v35 : FVec Ideal S128x512 .f32 := maximumf v31 v34
  let v36 : FVec Ideal S128x512 .f32 := Host.rsqrt (F := Ideal) v35
  let cst_12 : FVec Ideal S_ .f32 := constant (F := Ideal) S_ .f32 0x00000000#32
  let call3_v0 : FVec Ideal S_ .f32 := id cst_12
  let call3_v1 : FVec Ideal S128x512 .f32 := broadcastInDim S128x512 ![] bcast_S_S128x512 call3_v0
  let v37 : FVec Ideal S128x512 .f32 := select v33 v36 call3_v1
  let v38 : FVec Ideal S128x512x1 .f32 := broadcastInDim S128x512x1 ![0, 1] bcast_S128x512_S128x512x1_0_1 v37
  let v39 : FVec Ideal S128x512x512 .f32 := broadcastInDim S128x512x512 ![0, 1, 2] bcast_S128x512x1_S128x512x512_0_1_2 v38
  let v40 : FVec Ideal S128x512x512 .f32 := mulf v39 A
  let v41 : FVec Ideal S128x1x512 .f32 := broadcastInDim S128x1x512 ![0, 2] bcast_S128x512_S128x1x512_0_2 v37
  let v42 : FVec Ideal S128x512x512 .f32 := broadcastInDim S128x512x512 ![0, 1, 2] bcast_S128x1x512_S128x512x512_0_1_2 v41
  let v43 : FVec Ideal S128x512x512 .f32 := mulf v40 v42
  let v44 : FVec Ideal S128x512x128 .f32 := shapeCast S128x512x128 X0 shapeCasts_S65536x128_S128x512x128
  let v45 : FVec Ideal S128x512x128 .f32 := (fun l r => Host.dotGeneral (F := Ideal) dot_S128x512x512_S128x512x128_S128x512x128_2_1_1_2_0_0 none l r) v43 v44
  let v46 : FVec Ideal S128x512x128 .f32 := addf v44 v45
  let v47 : FVec Ideal S128x512x128 .f32 := (fun l r => Host.dotGeneral (F := Ideal) dot_S128x512x512_S128x512x128_S128x512x128_2_1_1_2_0_0 none l r) v43 v45
  let v48 : FVec Ideal S128x512x128 .f32 := addf v46 v47
  let v49 : FVec Ideal S128x512x128 .f32 := (fun l r => Host.dotGeneral (F := Ideal) dot_S128x512x512_S128x512x128_S128x512x128_2_1_1_2_0_0 none l r) v43 v47
  let v50 : FVec Ideal S128x512x128 .f32 := addf v48 v49
  let v51 : FVec Ideal S128x512x128 .f32 := (fun l r => Host.dotGeneral (F := Ideal) dot_S128x512x128_S128x128_S128x512x128_2_0_01_1_n_n none l r) v50 W1
  let v52 : FVec Ideal S1x1x128 .f32 := broadcastInDim S1x1x128 ![2] bcast_S128_S1x1x128_2 b1
  let v53 : FVec Ideal S128x512x128 .f32 := broadcastInDim S128x512x128 ![0, 1, 2] bcast_S1x1x128_S128x512x128_0_1_2 v52
  let v54 : FVec Ideal S128x512x128 .f32 := addf v51 v53
  let call4_cst : FVec Ideal S_ .f32 := constant (F := Ideal) S_ .f32 0x00000000#32
  let call4_v0 : FVec Ideal S128x512x128 .f32 := broadcastInDim S128x512x128 ![] bcast_S_S128x512x128 call4_cst
  let v55 : FVec Ideal S128x512x128 .f32 := maximumf v54 call4_v0
  let v56 : FVec Ideal S128x512x128 .f32 := (fun l r => Host.dotGeneral (F := Ideal) dot_S128x512x512_S128x512x128_S128x512x128_2_1_1_2_0_0 none l r) v43 v55
  let v57 : FVec Ideal S128x512x128 .f32 := addf v55 v56
  let v58 : FVec Ideal S128x512x128 .f32 := (fun l r => Host.dotGeneral (F := Ideal) dot_S128x512x512_S128x512x128_S128x512x128_2_1_1_2_0_0 none l r) v43 v56
  let v59 : FVec Ideal S128x512x128 .f32 := addf v57 v58
  let v60 : FVec Ideal S128x512x128 .f32 := (fun l r => Host.dotGeneral (F := Ideal) dot_S128x512x512_S128x512x128_S128x512x128_2_1_1_2_0_0 none l r) v43 v58
  let v61 : FVec Ideal S128x512x128 .f32 := addf v59 v60
  let v62 : FVec Ideal S128x512x128 .f32 := (fun l r => Host.dotGeneral (F := Ideal) dot_S128x512x128_S128x128_S128x512x128_2_0_01_1_n_n none l r) v61 W2
  let v63 : FVec Ideal S1x1x128 .f32 := broadcastInDim S1x1x128 ![2] bcast_S128_S1x1x128_2 b2
  let v64 : FVec Ideal S128x512x128 .f32 := broadcastInDim S128x512x128 ![0, 1, 2] bcast_S1x1x128_S128x512x128_0_1_2 v63
  let v65 : FVec Ideal S128x512x128 .f32 := addf v62 v64
  let call5_cst : FVec Ideal S_ .f32 := constant (F := Ideal) S_ .f32 0x00000000#32
  let call5_v0 : FVec Ideal S128x512x128 .f32 := broadcastInDim S128x512x128 ![] bcast_S_S128x512x128 call5_cst
  let v66 : FVec Ideal S128x512x128 .f32 := maximumf v65 call5_v0
  let cst_13 : FVec Ideal S_ .f32 := constant (F := Ideal) S_ .f32 0x00000000#32
  let v67 : FVec Ideal S128x128 .f32 := (fun x v => Host.reduceAdd (F := Ideal) x v reducesTo_S128x512x128_S128x128_d1 h_S_) v66 cst_13
  let cst_14 : FVec Ideal S_ .f32 := constant (F := Ideal) S_ .f32 0x44000000#32
  let v68 : FVec Ideal S128x128 .f32 := broadcastInDim S128x128 ![] bcast_S_S128x128 cst_14
  Host.divf (F := Ideal) v67 v68

/-! ## The stages, as functions of whole arrays -/

/-- The degrees: the adjacency summed over its last axis, from zero. -/
def degV (A : FVec Ideal S128x512x512 .f32) : FVec Ideal S128x512 .f32 :=
  Host.reduceAdd (F := Ideal) A (constant (F := Ideal) S_ .f32 0x00000000#32) reducesTo_S128x512x512_S128x512_d2 h_S_

/-- D^(-1/2): the reciprocal square root of the floored degree where the degree is positive, zero elsewhere. -/
def dinvV (A : FVec Ideal S128x512x512 .f32) : FVec Ideal S128x512 .f32 :=
  select (cmpf .ogt (degV A) (broadcastInDim S128x512 ![] bcast_S_S128x512 (constant (F := Ideal) S_ .f32 0x00000000#32)))
    (Host.rsqrt (F := Ideal) (maximumf (degV A)
      (broadcastInDim S128x512 ![] bcast_S_S128x512 (constant (F := Ideal) S_ .f32 0x2B8CBCCC#32))))
    (broadcastInDim S128x512 ![] bcast_S_S128x512 (id (constant (F := Ideal) S_ .f32 0x00000000#32)))

/-- The normalised adjacency: D^(-1/2) laid along the columns, times A, times D^(-1/2) laid along the rows. -/
def nadjV (A : FVec Ideal S128x512x512 .f32) : FVec Ideal S128x512x512 .f32 :=
  mulf
    (mulf
      (broadcastInDim S128x512x512 ![0, 1, 2] bcast_S128x512x1_S128x512x512_0_1_2
        (broadcastInDim S128x512x1 ![0, 1] bcast_S128x512_S128x512x1_0_1 (dinvV A)))
      A)
    (broadcastInDim S128x512x512 ![0, 1, 2] bcast_S128x1x512_S128x512x512_0_1_2
      (broadcastInDim S128x1x512 ![0, 2] bcast_S128x512_S128x1x512_0_2 (dinvV A)))

/-- One application of S to node features, graph by graph. -/
def appV (S : FVec Ideal S128x512x512 .f32) (z : FVec Ideal S128x512x128 .f32) : FVec Ideal S128x512x128 .f32 :=
  Host.dotGeneral (F := Ideal) dot_S128x512x512_S128x512x128_S128x512x128_2_1_1_2_0_0 none S z

/-- The filter y + S y + S² y + S³ y, accumulated left to right. -/
def filtV (S : FVec Ideal S128x512x512 .f32) (y : FVec Ideal S128x512x128 .f32) : FVec Ideal S128x512x128 .f32 :=
  addf (addf (addf y (appV S y)) (appV S (appV S y))) (appV S (appV S (appV S y)))

/-- One layer: the filter, the projection by W, the bias laid over graphs and nodes, the rectifier. -/
def layerV (S : FVec Ideal S128x512x512 .f32) (y : FVec Ideal S128x512x128 .f32) (W : FVec Ideal S128x128 .f32)
    (bb : FVec Ideal S128 .f32) : FVec Ideal S128x512x128 .f32 :=
  maximumf
    (addf (Host.dotGeneral (F := Ideal) dot_S128x512x128_S128x128_S128x512x128_2_0_01_1_n_n none (filtV S y) W)
      (broadcastInDim S128x512x128 ![0, 1, 2] bcast_S1x1x128_S128x512x128_0_1_2
        (broadcastInDim S1x1x128 ![2] bcast_S128_S1x1x128_2 bb)))
    (broadcastInDim S128x512x128 ![] bcast_S_S128x512x128 (constant (F := Ideal) S_ .f32 0x00000000#32))

/-- `refMid` is the composition of the stages: the same term once the stage names are unfolded. -/
theorem refMid_eq (A : FVec Ideal S128x512x512 .f32) (X0 : FVec Ideal S65536x128 .f32) (W1 : FVec Ideal S128x128 .f32)
    (b1 : FVec Ideal S128 .f32) (W2 : FVec Ideal S128x128 .f32) (b2 : FVec Ideal S128 .f32) :
    refMid A X0 W1 b1 W2 b2
      = Host.divf (F := Ideal)
          (Host.reduceAdd (F := Ideal)
            (layerV (nadjV A) (layerV (nadjV A) (shapeCast S128x512x128 X0 shapeCasts_S65536x128_S128x512x128) W1 b1) W2 b2)
            (constant (F := Ideal) S_ .f32 0x00000000#32) reducesTo_S128x512x128_S128x128_d1 h_S_)
          (broadcastInDim S128x128 ![] bcast_S_S128x128 (constant (F := Ideal) S_ .f32 0x44000000#32)) := rfl

/-! ## Each stage at an element -/

/-- The degree of node r of graph b. -/
theorem degV_apply (A : FVec Ideal S128x512x512 .f32) (b : Fin 128) (r : Fin 512) :
    degV A (ix2 b r) = Cert.GnnSpec.deg (fun r j => A (ix3 b r j)) r :=
  rowSum_apply A _ _ b r

/-- D^(-1/2) at node r of graph b: the comparison, the floor and the fill value are scalars laid over the array. -/
theorem dinvV_apply (A : FVec Ideal S128x512x512 .f32) (b : Fin 128) (r : Fin 512) :
    dinvV A (ix2 b r) = Cert.GnnSpec.dinv (fun r j => A (ix3 b r j)) r := by
  have hd := degV_apply A b r
  have h0 : broadcastInDim S128x512 ![] bcast_S_S128x512 (constant (F := Ideal) S_ .f32 0x00000000#32) (ix2 b r) = (0 : EReal) :=
    (scalar_apply _ _ _).trans Ideal.ofBits_zero_f32
  have he : broadcastInDim S128x512 ![] bcast_S_S128x512 (constant (F := Ideal) S_ .f32 0x2B8CBCCC#32) (ix2 b r)
      = Cert.GnnSpec.eps := scalar_apply _ _ _
  show Scalar.select
      (Ideal.cmp .ogt (degV A (ix2 b r)) (broadcastInDim S128x512 ![] bcast_S_S128x512 (constant (F := Ideal) S_ .f32 0x00000000#32) (ix2 b r)))
      (Ideal.rsqrt (max (degV A (ix2 b r))
        (broadcastInDim S128x512 ![] bcast_S_S128x512 (constant (F := Ideal) S_ .f32 0x2B8CBCCC#32) (ix2 b r))))
      (broadcastInDim S128x512 ![] bcast_S_S128x512 (constant (F := Ideal) S_ .f32 0x00000000#32) (ix2 b r)) = _
  rw [hd, h0, he]
  rfl

/-- S at (r, j) of graph b: (D^(-1/2) r · A r j) · D^(-1/2) j. -/
theorem nadjV_apply (A : FVec Ideal S128x512x512 .f32) (b : Fin 128) (r j : Fin 512) :
    nadjV A (ix3 b r j) = Cert.GnnSpec.nadj (fun r j => A (ix3 b r j)) r j := by
  unfold nadjV
  rw [mulf_apply, mulf_apply, colBcast_apply, rowBcast_apply, dinvV_apply, dinvV_apply]
  rfl

section Relative
variable (S : FVec Ideal S128x512x512 .f32) (b : Fin 128) (S' : Fin 512 → Fin 512 → EReal)
  (hS : ∀ r j, S (ix3 b r j) = S' r j)
include hS

/-- One application of S, relative to per-graph descriptions of S and of the features. -/
theorem appV_apply (z : FVec Ideal S128x512x128 .f32) (z' : Fin 512 → Fin 128 → EReal)
    (hz : ∀ j f, z (ix3 b j f) = z' j f) (r : Fin 512) (f : Fin 128) :
    appV S z (ix3 b r f) = Cert.GnnSpec.app S' z' r f := by
  unfold appV
  rw [stackDot_apply]
  exact Finset.sum_congr rfl fun j _ => by rw [hS, hz]

/-- The filter: each power of S is one more application, read relative to the previous one's reading. -/
theorem filtV_apply (y : FVec Ideal S128x512x128 .f32) (y' : Fin 512 → Fin 128 → EReal)
    (hy : ∀ j f, y (ix3 b j f) = y' j f) (r : Fin 512) (f : Fin 128) :
    filtV S y (ix3 b r f) = Cert.GnnSpec.filt S' y' r f := by
  have h1 := appV_apply S b S' hS y y' hy
  have h2 := appV_apply S b S' hS (appV S y) (Cert.GnnSpec.app S' y') h1
  have h3 := appV_apply S b S' hS (appV S (appV S y)) (Cert.GnnSpec.app S' (Cert.GnnSpec.app S' y')) h2
  unfold filtV
  rw [addf_apply, addf_apply, addf_apply, hy, h1, h2, h3]
  rfl

/-- One layer: the projection sums the filter's reading against W; the bias is b o; the rectifier's zero is a scalar. -/
theorem layerV_apply (y : FVec Ideal S128x512x128 .f32) (y' : Fin 512 → Fin 128 → EReal)
    (hy : ∀ j f, y (ix3 b j f) = y' j f) (W : FVec Ideal S128x128 .f32) (bb : FVec Ideal S128 .f32)
    (r : Fin 512) (o : Fin 128) :
    layerV S y W bb (ix3 b r o)
      = Cert.GnnSpec.layer S' y' (fun f o => W (ix2 f o)) (fun o => bb (ix1 o)) r o := by
  have hf := filtV_apply S b S' hS y y' hy
  unfold layerV
  rw [maximumf_apply, addf_apply, projDot_apply, biasBcast_apply, scalar_apply, Ideal.ofBits_zero_f32]
  simp only [hf]
  rfl

end Relative

/-! ## The middle at an element -/

/-- At graph b and feature o the reference's middle is the quotient by 512 of graph b's pooled features. -/
theorem refMid_apply (A : FVec Ideal S128x512x512 .f32) (X0 : FVec Ideal S65536x128 .f32) (W1 : FVec Ideal S128x128 .f32)
    (b1 : FVec Ideal S128 .f32) (W2 : FVec Ideal S128x128 .f32) (b2 : FVec Ideal S128 .f32) (b : Fin 128) (o : Fin 128) :
    refMid A X0 W1 b1 W2 b2 (ix2 b o)
      = Ideal.div (Cert.GnnSpec.pooled (fun r j => A (ix3 b r j))
            (fun r f => X0 (ix2 (⟨512 * b.val + r.val, by omega⟩ : Fin 65536) f))
            (fun f o => W1 (ix2 f o)) (fun o => b1 (ix1 o)) (fun f o => W2 (ix2 f o)) (fun o => b2 (ix1 o)) o)
          (Ideal.ofBits .f32 0x44000000#32) := by
  have hS := nadjV_apply A b
  have hx := regroup_apply X0 shapeCasts_S65536x128_S128x512x128 b
  have h1 := layerV_apply (nadjV A) b _ hS _ _ hx W1 b1
  have h2 := layerV_apply (nadjV A) b _ hS _ _ h1 W2 b2
  rw [refMid_eq, hostDivf_apply, nodeSum_apply, scalar_apply]
  simp only [h2]
  rfl

end Cert.ReferenceIdeal.Mid

end
-- ==== Proof.Bridge.lean ====
/-
  The region's output array is the reference's mean-pooled features.

  Entry (b, o) of the array the kernel program's region leaves is graph b's pooled features at o times 2⁻⁹; entry
  (b, o) of the reference's mean is the same pooled features divided by 512 — the same extended real. Graph b's
  node rows are rows 512 b + r of the feature matrix on both sides.
-/
import proofs.«128234_j52544629899590_1_alg».proof.Proof.KIdealValue
import proofs.«128234_j52544629899590_1_alg».proof.Proof.RefMid

noncomputable section

namespace Cert.Bridge

open Idealize.ShloMosaic Idealize.ShloMosaic.ValueIdx

/-- Over any adjacency, feature matrix, weights and biases: the kernel's array function of the regrouped features is
    the reference's middle. -/
theorem arrG_eq_refMid (A : FVec Ideal Cert.ReferenceIdeal.S128x512x512 .f32) (X0 : FVec Ideal Cert.ReferenceIdeal.S65536x128 .f32)
    (h : Cert.ReferenceIdeal.S65536x128.ShapeCasts Cert.ReferenceIdeal.S128x512x128)
    (W1 : FVec Ideal Cert.ReferenceIdeal.S128x128 .f32) (b1 : FVec Ideal Cert.ReferenceIdeal.S128 .f32)
    (W2 : FVec Ideal Cert.ReferenceIdeal.S128x128 .f32) (b2 : FVec Ideal Cert.ReferenceIdeal.S128 .f32) :
    Cert.KernelIdeal.Hand.Value.arrG A (shapeCast Cert.ReferenceIdeal.S128x512x128 X0 h) W1 b1 W2 b2
      = Cert.ReferenceIdeal.Mid.refMid A X0 W1 b1 W2 b2 := by
  funext j
  obtain ⟨b, o, rfl⟩ : ∃ (b o : Fin 128), j = ix2 b o := ⟨j 0, j 1, eq_ix2 j⟩
  rw [Cert.ReferenceIdeal.Mid.refMid_apply, ← Cert.GnnSpec.mean_eq]
  show Cert.KernelIdeal.Hand.Value.arrF A _ W1 b1 W2 b2 b o = _
  unfold Cert.KernelIdeal.Hand.Value.arrF
  simp only [Cert.ReferenceIdeal.Mid.regroup_apply]

end Cert.Bridge

end
-- ==== Proof.LibAfter.lean ====
/-
  General facts about `StableHlo.after` over a line in single-assignment form: a line of host operations each of
  which writes exactly one reference, the written references pairwise distinct. For such a line the contents of a
  written reference after the whole line are the writing operation's result over the contents after the operations
  before it, and a reference written before position `k` (or never written) holds after the whole line what it holds
  after the first `k` operations. Hence the per-operation read equations `read_unary`, `read_binary`, … : the
  final contents of a result are the operation's function of the FINAL contents of its operands.
-/
import Idealize.ShloMosaic.Lib.StableHlo.Run

namespace Cert.LibAfter

open Idealize.ShloMosaic Idealize.ShloMosaic.StableHlo

variable {τ : Topo} {sig : RefSig} {Val : EltTy → Type}

/-- Operation by operation, the line writes exactly the references of the list. -/
abbrev Writes (ops : List (HloOp τ sig Val)) (wr : List (Ref sig .tc)) : Prop :=
  List.Forall₂ (fun op r => op.writes = {Proc.devRef (τ := τ) .tc r}) ops wr

/-- The fold over two lines in a row is the fold over the second from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference the line never writes keeps its contents. -/
theorem after_of_not_written {ops : List (HloOp τ sig Val)} {wr : List (Ref sig .tc)} (hw : Writes ops wr)
    {r : Ref sig .tc} (hr : r ∉ wr) (V : Valuation τ sig Val) :
    after ops V (Proc.devRef .tc r) = V (Proc.devRef .tc r) := by
  induction hw generalizing V with
  | nil => rfl
  | @cons op r' ops wr hop _ ih =>
    rw [after_cons, ih (fun h => hr (List.mem_cons_of_mem _ h)),
      op.result_of_not_mem V (by
        rw [hop, Finset.mem_singleton]
        exact devRef_ne_of_ne (fun e => hr (e ▸ List.mem_cons_self)))]

theorem writes_drop {ops : List (HloOp τ sig Val)} {wr : List (Ref sig .tc)} (hw : Writes ops wr) (k : Nat) :
    Writes (ops.drop k) (wr.drop k) := List.forall₂_drop k hw

theorem writes_append {o₁ o₂ : List (HloOp τ sig Val)} {w₁ w₂ : List (Ref sig .tc)} (h₁ : Writes o₁ w₁) (h₂ : Writes o₂ w₂) :
    Writes (o₁ ++ o₂) (w₁ ++ w₂) := List.rel_append h₁ h₂

/-- In a list without repetition, the entry at a position is not among the entries from a later position on. -/
theorem not_mem_drop_of_lt {α : Type} {l : List α} (hnd : l.Nodup) {i k : Nat} (hik : i < k) {a : α}
    (ha : l[i]? = some a) : a ∉ l.drop k := by
  intro hmem
  obtain ⟨j, hj⟩ := List.mem_iff_getElem?.mp hmem
  rw [List.getElem?_drop] at hj
  have hlt : k + j < l.length := (List.getElem?_eq_some_iff.mp hj).1
  exact (List.nodup_iff_getElem?_ne_getElem?.mp hnd i (k + j) (by omega) hlt) (ha.trans hj.symm)

theorem not_mem_drop_of_not_mem {α : Type} {l : List α} {a : α} (ha : a ∉ l) (k : Nat) : a ∉ l.drop k :=
  fun h => ha (List.mem_of_mem_drop h)

/-- A reference not written from position `k` on holds after the line what it holds after the first `k` operations. -/
theorem after_keep {ops : List (HloOp τ sig Val)} {wr : List (Ref sig .tc)} (hw : Writes ops wr) (k : Nat)
    {a : Ref sig .tc} (ha : a ∉ wr.drop k) (V : Valuation τ sig Val) :
    after ops V (Proc.devRef .tc a) = after (ops.take k) V (Proc.devRef .tc a) := by
  conv_lhs => rw [← List.take_append_drop k ops]
  rw [after_append, after_of_not_written (writes_drop hw k) ha]

/-- The reference written at position `k` holds after the line the result of that operation over the contents after
    the first `k` operations. -/
theorem after_at {ops : List (HloOp τ sig Val)} {wr : List (Ref sig .tc)} (hw : Writes ops wr) (hnd : wr.Nodup) (k : Nat)
    {op : HloOp τ sig Val} {y : Ref sig .tc} (hop : ops[k]? = some op) (hy : wr[k]? = some y) (V : Valuation τ sig Val) :
    after ops V (Proc.devRef .tc y) = op.result (after (ops.take k) V) (Proc.devRef .tc y) := by
  obtain ⟨hk, hopk⟩ := List.getElem?_eq_some_iff.mp hop
  have e : ops = ops.take k ++ op :: ops.drop (k + 1) := by
    rw [← hopk, ← List.drop_eq_getElem_cons hk, List.take_append_drop]
  conv_lhs => rw [e]
  rw [after_append, after_cons,
    after_of_not_written (writes_drop hw (k + 1)) (not_mem_drop_of_lt hnd (Nat.lt_succ_self k) hy)]

section Reads

variable {ops : List (HloOp τ sig Val)} {wr : List (Ref sig .tc)} (hw : Writes ops wr) (hnd : wr.Nodup) (k : Nat)
include hw hnd

/-- A constant's buffer holds the constant. -/
theorem read_nullary {y : Ref sig .tc} {v : y.ty.Contents Val} {hy}
    (hop : ops[k]? = some (nullary (τ := τ) y v hy)) (hyk : wr[k]? = some y) (V : Valuation τ sig Val) :
    after ops V (Proc.devRef .tc y) = v := by
  rw [after_at hw hnd k hop hyk, nullary_result]

/-- A one-operand operation's result holds its function of the operand's final contents. -/
theorem read_unary {x y : Ref sig .tc} {f : x.ty.Contents Val → y.ty.Contents Val} {hx hy}
    (hop : ops[k]? = some (unary (τ := τ) x y f hx hy)) (hyk : wr[k]? = some y) (hxk : x ∉ wr.drop k)
    (V : Valuation τ sig Val) :
    after ops V (Proc.devRef .tc y) = f (after ops V (Proc.devRef .tc x)) := by
  rw [after_at hw hnd k hop hyk, unary_result, after_keep hw k hxk]

/-- A two-operand operation's result holds its function of the operands' final contents. -/
theorem read_binary {a b y : Ref sig .tc} {f : a.ty.Contents Val → b.ty.Contents Val → y.ty.Contents Val} {ha hb hy}
    (hop : ops[k]? = some (binary (τ := τ) a b y f ha hb hy)) (hyk : wr[k]? = some y)
    (hak : a ∉ wr.drop k) (hbk : b ∉ wr.drop k) (V : Valuation τ sig Val) :
    after ops V (Proc.devRef .tc y) = f (after ops V (Proc.devRef .tc a)) (after ops V (Proc.devRef .tc b)) := by
  rw [after_at hw hnd k hop hyk, binary_result, after_keep hw k hak, after_keep hw k hbk]

/-- A three-operand operation's result holds its function of the operands' final contents. -/
theorem read_ternary {c a b y : Ref sig .tc}
    {f : c.ty.Contents Val → a.ty.Contents Val → b.ty.Contents Val → y.ty.Contents Val} {hc ha hb hy}
    (hop : ops[k]? = some (ternary (τ := τ) c a b y f hc ha hb hy)) (hyk : wr[k]? = some y)
    (hck : c ∉ wr.drop k) (hak : a ∉ wr.drop k) (hbk : b ∉ wr.drop k) (V : Valuation τ sig Val) :
    after ops V (Proc.devRef .tc y)
      = f (after ops V (Proc.devRef .tc c)) (after ops V (Proc.devRef .tc a)) (after ops V (Proc.devRef .tc b)) := by
  rw [after_at hw hnd k hop hyk, ternary_result, after_keep hw k hck, after_keep hw k hak, after_keep hw k hbk]

/-- A reshape's result holds the operand's final contents, re-indexed row-major at the result's shape. -/
theorem read_reshape {x y : Ref sig .tc} {he : x.ty.elt = y.ty.elt} {hn : x.ty.shape.ShapeCasts y.ty.shape} {hx hy}
    (hop : ops[k]? = some (reshape (τ := τ) (Val := Val) x y he hn hx hy)) (hyk : wr[k]? = some y) (hxk : x ∉ wr.drop k)
    (V : Valuation τ sig Val) :
    after ops V (Proc.devRef .tc y) = fun i => he ▸ shapeCast y.ty.shape (after ops V (Proc.devRef .tc x)) hn i := by
  rw [after_at hw hnd k hop hyk, reshape_result, after_keep hw k hxk]

end Reads

end Cert.LibAfter
-- ==== Proof.RefRun.lean ====
/-
  The reference program's run: @main of the reference as ONE line of host operations — the operations
  of @main in order, each call of a module-local function replaced by the callee's operations over that call's buffers
  (the inlining the compiler performs) — and what every weakly fair execution of it ends with: the result buffer holds
  the fold of the line over the launch contents, and no argument buffer has changed (no operation writes one).

  The line is cut into stretches (one per call, one per run of @main's own operations between calls, and a cut after
  the scattered adjacency %30 and after the pooled mean %69), so that the fold can be read stretch by stretch.
-/
import proofs.«128234_j52544629899590_1_alg».proof.Defs
import proofs.«128234_j52544629899590_1_alg».proof.Proof.Gen.ReferenceIdeal
import proofs.«128234_j52544629899590_1_alg».proof.Proof.Gen.Pre_finite_inputs
import proofs.«128234_j52544629899590_1_alg».proof.Proof.LibAfter
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The line, stretch by stretch -/

/-- @main's own operations %v0 … %c, in order (3). -/
abbrev ops_a0 : List (HloOp τ sig (Elt F)) :=
  [ StableHlo.unary main_arg2 main_v0 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v0 main_v1 rfl shapeCasts_S1x1048576_S1048576,
    StableHlo.nullary main_c (constantI S_ 32 512#32) ]

/-- @floor_divide's operations at @main's call 0 (record main_call0), in order (17). -/
abbrev ops_call0 : List (HloOp τ sig (Elt F)) :=
  [ StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1048576, .i32⟩) (broadcastInDim S1048576 ![] bcast_S_S1048576),
    StableHlo.TRef.binary (.of main_v1 : StableHlo.TRef sig ⟨S1048576, .i32⟩) (.of main_call0_v1 : StableHlo.TRef sig ⟨S1048576, .i32⟩) (.of main_call0_v2 : StableHlo.TRef sig ⟨S1048576, .i32⟩) Host.divsi,
    StableHlo.TRef.unary (.of main_v1 : StableHlo.TRef sig ⟨S1048576, .i32⟩) (.of main_call0_v3 : StableHlo.TRef sig ⟨S1048576, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S1048576, .i32⟩) (broadcastInDim S1048576 ![] bcast_S_S1048576),
    StableHlo.TRef.binary (.of main_call0_v3 : StableHlo.TRef sig ⟨S1048576, .i32⟩) (.of main_call0_v5 : StableHlo.TRef sig ⟨S1048576, .i32⟩) (.of main_call0_v6 : StableHlo.TRef sig ⟨S1048576, .i1⟩) (cmpi .ne),
    StableHlo.TRef.unary (.of main_call0_v0 : StableHlo.TRef sig ⟨S_, .i32⟩) (.of main_call0_v7 : StableHlo.TRef sig ⟨S1048576, .i32⟩) (broadcastInDim S1048576 ![] bcast_S_S1048576),
    StableHlo.TRef.binary (.of main_v1 : StableHlo.TRef sig ⟨S1048576, .i32⟩) (.of main_call0_v7 : StableHlo.TRef sig ⟨S1048576, .i32⟩) (.of main_call0_v8 : StableHlo.TRef sig ⟨S1048576, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S1048576, .i32⟩) (broadcastInDim S1048576 ![] bcast_S_S1048576),
    StableHlo.TRef.binary (.of main_call0_v8 : StableHlo.TRef sig ⟨S1048576, .i32⟩) (.of main_call0_v9 : StableHlo.TRef sig ⟨S1048576, .i32⟩) (.of main_call0_v10 : StableHlo.TRef sig ⟨S1048576, .i1⟩) (cmpi .ne),
    StableHlo.TRef.binary (.of main_call0_v6 : StableHlo.TRef sig ⟨S1048576, .i1⟩) (.of main_call0_v10 : StableHlo.TRef sig ⟨S1048576, .i1⟩) (.of main_call0_v11 : StableHlo.TRef sig ⟨S1048576, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S1048576, .i32⟩) (broadcastInDim S1048576 ![] bcast_S_S1048576),
    StableHlo.TRef.binary (.of main_call0_v2 : StableHlo.TRef sig ⟨S1048576, .i32⟩) (.of main_call0_v12 : StableHlo.TRef sig ⟨S1048576, .i32⟩) (.of main_call0_v13 : StableHlo.TRef sig ⟨S1048576, .i32⟩) subi,
    StableHlo.TRef.ternary (.of main_call0_v11 : StableHlo.TRef sig ⟨S1048576, .i1⟩) (.of main_call0_v13 : StableHlo.TRef sig ⟨S1048576, .i32⟩) (.of main_call0_v2 : StableHlo.TRef sig ⟨S1048576, .i32⟩) (.of main_v2 : StableHlo.TRef sig ⟨S1048576, .i32⟩) select ]

/-- @main's own operations %v3 … %c_0, in order (3). -/
abbrev ops_a1 : List (HloOp τ sig (Elt F)) :=
  [ StableHlo.unary main_arg2 main_v3 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v3 main_v4 rfl shapeCasts_S1x1048576_S1048576,
    StableHlo.nullary main_c_0 (constantI S_ 32 512#32) ]

/-- @remainder's operations at @main's call 1 (record main_call1), in order (21). -/
abbrev ops_call1 : List (HloOp τ sig (Elt F)) :=
  [ StableHlo.TRef.unary (.of main_c_0 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S1048576, .i32⟩) (broadcastInDim S1048576 ![] bcast_S_S1048576),
    StableHlo.TRef.binary (.of main_v4 : StableHlo.TRef sig ⟨S1048576, .i32⟩) (.of main_call1_v3 : StableHlo.TRef sig ⟨S1048576, .i32⟩) (.of main_call1_v4 : StableHlo.TRef sig ⟨S1048576, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S1048576, .i32⟩) (broadcastInDim S1048576 ![] bcast_S_S1048576),
    StableHlo.TRef.binary (.of main_call1_v4 : StableHlo.TRef sig ⟨S1048576, .i32⟩) (.of main_call1_v5 : StableHlo.TRef sig ⟨S1048576, .i32⟩) (.of main_call1_v6 : StableHlo.TRef sig ⟨S1048576, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S1048576, .i32⟩) (broadcastInDim S1048576 ![] bcast_S_S1048576),
    StableHlo.TRef.binary (.of main_call1_v4 : StableHlo.TRef sig ⟨S1048576, .i32⟩) (.of main_call1_v7 : StableHlo.TRef sig ⟨S1048576, .i32⟩) (.of main_call1_v8 : StableHlo.TRef sig ⟨S1048576, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S1048576, .i1⟩) (broadcastInDim S1048576 ![] bcast_S_S1048576),
    StableHlo.TRef.binary (.of main_call1_v8 : StableHlo.TRef sig ⟨S1048576, .i1⟩) (.of main_call1_v10 : StableHlo.TRef sig ⟨S1048576, .i1⟩) (.of main_call1_v11 : StableHlo.TRef sig ⟨S1048576, .i1⟩) (cmpi .ne),
    StableHlo.TRef.binary (.of main_call1_v11 : StableHlo.TRef sig ⟨S1048576, .i1⟩) (.of main_call1_v6 : StableHlo.TRef sig ⟨S1048576, .i1⟩) (.of main_call1_v12 : StableHlo.TRef sig ⟨S1048576, .i1⟩) andi,
    StableHlo.TRef.unary (.of main_call1_v2 : StableHlo.TRef sig ⟨S_, .i32⟩) (.of main_call1_v13 : StableHlo.TRef sig ⟨S1048576, .i32⟩) (broadcastInDim S1048576 ![] bcast_S_S1048576),
    StableHlo.TRef.binary (.of main_call1_v4 : StableHlo.TRef sig ⟨S1048576, .i32⟩) (.of main_call1_v13 : StableHlo.TRef sig ⟨S1048576, .i32⟩) (.of main_call1_v14 : StableHlo.TRef sig ⟨S1048576, .i32⟩) addi,
    StableHlo.TRef.ternary (.of main_call1_v12 : StableHlo.TRef sig ⟨S1048576, .i1⟩) (.of main_call1_v14 : StableHlo.TRef sig ⟨S1048576, .i32⟩) (.of main_call1_v4 : StableHlo.TRef sig ⟨S1048576, .i32⟩) (.of main_v5 : StableHlo.TRef sig ⟨S1048576, .i32⟩) select ]

/-- @main's own operations %v6 … %c_1, in order (3). -/
abbrev ops_a2 : List (HloOp τ sig (Elt F)) :=
  [ StableHlo.unary main_arg2 main_v6 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v6 main_v7 rfl shapeCasts_S1x1048576_S1048576,
    StableHlo.nullary main_c_1 (constantI S_ 32 512#32) ]

/-- @remainder's operations at @main's call 2 (record main_call2), in order (21). -/
abbrev ops_call2 : List (HloOp τ sig (Elt F)) :=
  [ StableHlo.TRef.unary (.of main_c_1 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary (.of main_call2_v2 : StableHlo.TRef sig ⟨S_, .i32⟩) (.of main_call2_v3 : StableHlo.TRef sig ⟨S1048576, .i32⟩) (broadcastInDim S1048576 ![] bcast_S_S1048576),
    StableHlo.TRef.binary (.of main_v7 : StableHlo.TRef sig ⟨S1048576, .i32⟩) (.of main_call2_v3 : StableHlo.TRef sig ⟨S1048576, .i32⟩) (.of main_call2_v4 : StableHlo.TRef sig ⟨S1048576, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S1048576, .i32⟩) (broadcastInDim S1048576 ![] bcast_S_S1048576),
    StableHlo.TRef.binary (.of main_call2_v4 : StableHlo.TRef sig ⟨S1048576, .i32⟩) (.of main_call2_v5 : StableHlo.TRef sig ⟨S1048576, .i32⟩) (.of main_call2_v6 : StableHlo.TRef sig ⟨S1048576, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S1048576, .i32⟩) (broadcastInDim S1048576 ![] bcast_S_S1048576),
    StableHlo.TRef.binary (.of main_call2_v4 : StableHlo.TRef sig ⟨S1048576, .i32⟩) (.of main_call2_v7 : StableHlo.TRef sig ⟨S1048576, .i32⟩) (.of main_call2_v8 : StableHlo.TRef sig ⟨S1048576, .i1⟩) (cmpi .slt),
    StableHlo.TRef.nullary (.of main_call2_c_3 : StableHlo.TRef sig ⟨S_, .i32⟩) (constantI S_ 32 0#32),
    StableHlo.TRef.binary (.of main_call2_v2 : StableHlo.TRef sig ⟨S_, .i32⟩) (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S1048576, .i1⟩) (broadcastInDim S1048576 ![] bcast_S_S1048576),
    StableHlo.TRef.binary (.of main_call2_v8 : StableHlo.TRef sig ⟨S1048576, .i1⟩) (.of main_call2_v10 : StableHlo.TRef sig ⟨S1048576, .i1⟩) (.of main_call2_v11 : StableHlo.TRef sig ⟨S1048576, .i1⟩) (cmpi .ne),
    StableHlo.TRef.binary (.of main_call2_v11 : StableHlo.TRef sig ⟨S1048576, .i1⟩) (.of main_call2_v6 : StableHlo.TRef sig ⟨S1048576, .i1⟩) (.of main_call2_v12 : StableHlo.TRef sig ⟨S1048576, .i1⟩) andi,
    StableHlo.TRef.unary (.of main_call2_v2 : StableHlo.TRef sig ⟨S_, .i32⟩) (.of main_call2_v13 : StableHlo.TRef sig ⟨S1048576, .i32⟩) (broadcastInDim S1048576 ![] bcast_S_S1048576),
    StableHlo.TRef.binary (.of main_call2_v4 : StableHlo.TRef sig ⟨S1048576, .i32⟩) (.of main_call2_v13 : StableHlo.TRef sig ⟨S1048576, .i32⟩) (.of main_call2_v14 : StableHlo.TRef sig ⟨S1048576, .i32⟩) addi,
    StableHlo.TRef.ternary (.of main_call2_v12 : StableHlo.TRef sig ⟨S1048576, .i1⟩) (.of main_call2_v14 : StableHlo.TRef sig ⟨S1048576, .i32⟩) (.of main_call2_v4 : StableHlo.TRef sig ⟨S1048576, .i32⟩) (.of main_v8 : StableHlo.TRef sig ⟨S1048576, .i32⟩) select ]

/-- @main's own operations %cst … %v30, in order (30). -/
abbrev ops_a3 : List (HloOp τ sig (Elt F)) :=
  [ StableHlo.nullary main_cst (constant S_ .f32 0x00000000#32),
    StableHlo.unary main_cst main_v9 (broadcastInDim S128x512x512 ![] bcast_S_S128x512x512 : (⟨S_, .f32⟩ : BufTy).Contents (Elt F) → (⟨S128x512x512, .f32⟩ : BufTy).Contents (Elt F)),
    StableHlo.nullary main_c_2 (constantI S_ 32 0#32),
    StableHlo.unary main_c_2 main_v10 (broadcastInDim S1048576 ![] bcast_S_S1048576 : (⟨S_, .i32⟩ : BufTy).Contents (Elt F) → (⟨S1048576, .i32⟩ : BufTy).Contents (Elt F)),
    StableHlo.binary main_v2 main_v10 main_v11 (cmpi .slt : (⟨S1048576, .i32⟩ : BufTy).Contents (Elt F) → (⟨S1048576, .i32⟩ : BufTy).Contents (Elt F) → (⟨S1048576, .i1⟩ : BufTy).Contents (Elt F)),
    StableHlo.nullary main_c_3 (constantI S_ 32 128#32),
    StableHlo.unary main_c_3 main_v12 (broadcastInDim S1048576 ![] bcast_S_S1048576 : (⟨S_, .i32⟩ : BufTy).Contents (Elt F) → (⟨S1048576, .i32⟩ : BufTy).Contents (Elt F)),
    StableHlo.binary main_v2 main_v12 main_v13 (addi : (⟨S1048576, .i32⟩ : BufTy).Contents (Elt F) → (⟨S1048576, .i32⟩ : BufTy).Contents (Elt F) → (⟨S1048576, .i32⟩ : BufTy).Contents (Elt F)),
    StableHlo.ternary main_v11 main_v13 main_v2 main_v14 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_4 (constantI S_ 32 0#32),
    StableHlo.unary main_c_4 main_v15 (broadcastInDim S1048576 ![] bcast_S_S1048576 : (⟨S_, .i32⟩ : BufTy).Contents (Elt F) → (⟨S1048576, .i32⟩ : BufTy).Contents (Elt F)),
    StableHlo.binary main_v5 main_v15 main_v16 (cmpi .slt : (⟨S1048576, .i32⟩ : BufTy).Contents (Elt F) → (⟨S1048576, .i32⟩ : BufTy).Contents (Elt F) → (⟨S1048576, .i1⟩ : BufTy).Contents (Elt F)),
    StableHlo.nullary main_c_5 (constantI S_ 32 512#32),
    StableHlo.unary main_c_5 main_v17 (broadcastInDim S1048576 ![] bcast_S_S1048576 : (⟨S_, .i32⟩ : BufTy).Contents (Elt F) → (⟨S1048576, .i32⟩ : BufTy).Contents (Elt F)),
    StableHlo.binary main_v5 main_v17 main_v18 (addi : (⟨S1048576, .i32⟩ : BufTy).Contents (Elt F) → (⟨S1048576, .i32⟩ : BufTy).Contents (Elt F) → (⟨S1048576, .i32⟩ : BufTy).Contents (Elt F)),
    StableHlo.ternary main_v16 main_v18 main_v5 main_v19 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_6 (constantI S_ 32 0#32),
    StableHlo.unary main_c_6 main_v20 (broadcastInDim S1048576 ![] bcast_S_S1048576 : (⟨S_, .i32⟩ : BufTy).Contents (Elt F) → (⟨S1048576, .i32⟩ : BufTy).Contents (Elt F)),
    StableHlo.binary main_v8 main_v20 main_v21 (cmpi .slt : (⟨S1048576, .i32⟩ : BufTy).Contents (Elt F) → (⟨S1048576, .i32⟩ : BufTy).Contents (Elt F) → (⟨S1048576, .i1⟩ : BufTy).Contents (Elt F)),
    StableHlo.nullary main_c_7 (constantI S_ 32 512#32),
    StableHlo.unary main_c_7 main_v22 (broadcastInDim S1048576 ![] bcast_S_S1048576 : (⟨S_, .i32⟩ : BufTy).Contents (Elt F) → (⟨S1048576, .i32⟩ : BufTy).Contents (Elt F)),
    StableHlo.binary main_v8 main_v22 main_v23 (addi : (⟨S1048576, .i32⟩ : BufTy).Contents (Elt F) → (⟨S1048576, .i32⟩ : BufTy).Contents (Elt F) → (⟨S1048576, .i32⟩ : BufTy).Contents (Elt F)),
    StableHlo.ternary main_v21 main_v23 main_v8 main_v24 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v14 main_v25 (broadcastInDim S1048576x1 ![0] bcast_S1048576_S1048576x1_0 : (⟨S1048576, .i32⟩ : BufTy).Contents (Elt F) → (⟨S1048576x1, .i32⟩ : BufTy).Contents (Elt F)),
    StableHlo.unary main_v19 main_v26 (broadcastInDim S1048576x1 ![0] bcast_S1048576_S1048576x1_0 : (⟨S1048576, .i32⟩ : BufTy).Contents (Elt F) → (⟨S1048576x1, .i32⟩ : BufTy).Contents (Elt F)),
    StableHlo.unary main_v24 main_v27 (broadcastInDim S1048576x1 ![0] bcast_S1048576_S1048576x1_0 : (⟨S1048576, .i32⟩ : BufTy).Contents (Elt F) → (⟨S1048576x1, .i32⟩ : BufTy).Contents (Elt F)),
    StableHlo.nary ![main_v25, main_v26, main_v27] main_v28 (fun u => concatenate S1048576x3 1 [⟨S1048576x1, u 0⟩, ⟨S1048576x1, u 1⟩, ⟨S1048576x1, u 2⟩] concatenates_S1048576x1_S1048576x1_S1048576x1_S1048576x3_d1),
    StableHlo.nullary main_cst_8 (constant S_ .f32 0x3F800000#32),
    StableHlo.unary main_cst_8 main_v29 (broadcastInDim S1048576 ![] bcast_S_S1048576 : (⟨S_, .f32⟩ : BufTy).Contents (Elt F) → (⟨S1048576, .f32⟩ : BufTy).Contents (Elt F)),
    StableHlo.ternary main_v9 main_v28 main_v29 main_v30 ((fun x i u => Host.scatter scatter_S128x512x512_S1048576x3_S1048576_n_012_012_1 (fun _ b => b) x i u) : (⟨S128x512x512, .f32⟩ : BufTy).Contents (Elt F) → (⟨S1048576x3, .i32⟩ : BufTy).Contents (Elt F) → (⟨S1048576, .f32⟩ : BufTy).Contents (Elt F) → (⟨S128x512x512, .f32⟩ : BufTy).Contents (Elt F)) ]

/-- @main's own operations %cst_9 … %cst_12, in order (10). -/
abbrev ops_b0 : List (HloOp τ sig (Elt F)) :=
  [ StableHlo.nullary main_cst_9 (constant S_ .f32 0x00000000#32),
    StableHlo.binary main_v30 main_cst_9 main_v31 ((fun x v => Host.reduceAdd x v reducesTo_S128x512x512_S128x512_d2 h_S_) : (⟨S128x512x512, .f32⟩ : BufTy).Contents (Elt F) → (⟨S_, .f32⟩ : BufTy).Contents (Elt F) → (⟨S128x512, .f32⟩ : BufTy).Contents (Elt F)),
    StableHlo.nullary main_cst_10 (constant S_ .f32 0x00000000#32),
    StableHlo.unary main_cst_10 main_v32 (broadcastInDim S128x512 ![] bcast_S_S128x512 : (⟨S_, .f32⟩ : BufTy).Contents (Elt F) → (⟨S128x512, .f32⟩ : BufTy).Contents (Elt F)),
    StableHlo.binary main_v31 main_v32 main_v33 (cmpf .ogt : (⟨S128x512, .f32⟩ : BufTy).Contents (Elt F) → (⟨S128x512, .f32⟩ : BufTy).Contents (Elt F) → (⟨S128x512, .i1⟩ : BufTy).Contents (Elt F)),
    StableHlo.nullary main_cst_11 (constant S_ .f32 0x2B8CBCCC#32),
    StableHlo.unary main_cst_11 main_v34 (broadcastInDim S128x512 ![] bcast_S_S128x512 : (⟨S_, .f32⟩ : BufTy).Contents (Elt F) → (⟨S128x512, .f32⟩ : BufTy).Contents (Elt F)),
    StableHlo.binary main_v31 main_v34 main_v35 (maximumf : (⟨S128x512, .f32⟩ : BufTy).Contents (Elt F) → (⟨S128x512, .f32⟩ : BufTy).Contents (Elt F) → (⟨S128x512, .f32⟩ : BufTy).Contents (Elt F)),
    StableHlo.unary main_v35 main_v36 (Host.rsqrt : (⟨S128x512, .f32⟩ : BufTy).Contents (Elt F) → (⟨S128x512, .f32⟩ : BufTy).Contents (Elt F)),
    StableHlo.nullary main_cst_12 (constant S_ .f32 0x00000000#32) ]

/-- @where_1's operations at @main's call 3 (record main_call3), in order (3). -/
abbrev ops_call3 : List (HloOp τ sig (Elt F)) :=
  [ StableHlo.TRef.unary (.of main_cst_12 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S128x512, .f32⟩) (broadcastInDim S128x512 ![] bcast_S_S128x512),
    StableHlo.TRef.ternary (.of main_v33 : StableHlo.TRef sig ⟨S128x512, .i1⟩) (.of main_v36 : StableHlo.TRef sig ⟨S128x512, .f32⟩) (.of main_call3_v1 : StableHlo.TRef sig ⟨S128x512, .f32⟩) (.of main_v37 : StableHlo.TRef sig ⟨S128x512, .f32⟩) select ]

/-- @main's own operations %v38 … %v44, in order (7). -/
abbrev ops_b1 : List (HloOp τ sig (Elt F)) :=
  [ StableHlo.unary main_v37 main_v38 (broadcastInDim S128x512x1 ![0, 1] bcast_S128x512_S128x512x1_0_1 : (⟨S128x512, .f32⟩ : BufTy).Contents (Elt F) → (⟨S128x512x1, .f32⟩ : BufTy).Contents (Elt F)),
    StableHlo.unary main_v38 main_v39 (broadcastInDim S128x512x512 ![0, 1, 2] bcast_S128x512x1_S128x512x512_0_1_2 : (⟨S128x512x1, .f32⟩ : BufTy).Contents (Elt F) → (⟨S128x512x512, .f32⟩ : BufTy).Contents (Elt F)),
    StableHlo.binary main_v39 main_v30 main_v40 (mulf : (⟨S128x512x512, .f32⟩ : BufTy).Contents (Elt F) → (⟨S128x512x512, .f32⟩ : BufTy).Contents (Elt F) → (⟨S128x512x512, .f32⟩ : BufTy).Contents (Elt F)),
    StableHlo.unary main_v37 main_v41 (broadcastInDim S128x1x512 ![0, 2] bcast_S128x512_S128x1x512_0_2 : (⟨S128x512, .f32⟩ : BufTy).Contents (Elt F) → (⟨S128x1x512, .f32⟩ : BufTy).Contents (Elt F)),
    StableHlo.unary main_v41 main_v42 (broadcastInDim S128x512x512 ![0, 1, 2] bcast_S128x1x512_S128x512x512_0_1_2 : (⟨S128x1x512, .f32⟩ : BufTy).Contents (Elt F) → (⟨S128x512x512, .f32⟩ : BufTy).Contents (Elt F)),
    StableHlo.binary main_v40 main_v42 main_v43 (mulf : (⟨S128x512x512, .f32⟩ : BufTy).Contents (Elt F) → (⟨S128x512x512, .f32⟩ : BufTy).Contents (Elt F) → (⟨S128x512x512, .f32⟩ : BufTy).Contents (Elt F)),
    StableHlo.reshape main_arg0 main_v44 rfl shapeCasts_S65536x128_S128x512x128 ]

/-- @main's own operations %v45 … %v54, in order (10). -/
abbrev ops_b2 : List (HloOp τ sig (Elt F)) :=
  [ StableHlo.binary main_v43 main_v44 main_v45 ((fun l r => Host.dotGeneral dot_S128x512x512_S128x512x128_S128x512x128_2_1_1_2_0_0 none l r) : (⟨S128x512x512, .f32⟩ : BufTy).Contents (Elt F) → (⟨S128x512x128, .f32⟩ : BufTy).Contents (Elt F) → (⟨S128x512x128, .f32⟩ : BufTy).Contents (Elt F)),
    StableHlo.binary main_v44 main_v45 main_v46 (addf : (⟨S128x512x128, .f32⟩ : BufTy).Contents (Elt F) → (⟨S128x512x128, .f32⟩ : BufTy).Contents (Elt F) → (⟨S128x512x128, .f32⟩ : BufTy).Contents (Elt F)),
    StableHlo.binary main_v43 main_v45 main_v47 ((fun l r => Host.dotGeneral dot_S128x512x512_S128x512x128_S128x512x128_2_1_1_2_0_0 none l r) : (⟨S128x512x512, .f32⟩ : BufTy).Contents (Elt F) → (⟨S128x512x128, .f32⟩ : BufTy).Contents (Elt F) → (⟨S128x512x128, .f32⟩ : BufTy).Contents (Elt F)),
    StableHlo.binary main_v46 main_v47 main_v48 (addf : (⟨S128x512x128, .f32⟩ : BufTy).Contents (Elt F) → (⟨S128x512x128, .f32⟩ : BufTy).Contents (Elt F) → (⟨S128x512x128, .f32⟩ : BufTy).Contents (Elt F)),
    StableHlo.binary main_v43 main_v47 main_v49 ((fun l r => Host.dotGeneral dot_S128x512x512_S128x512x128_S128x512x128_2_1_1_2_0_0 none l r) : (⟨S128x512x512, .f32⟩ : BufTy).Contents (Elt F) → (⟨S128x512x128, .f32⟩ : BufTy).Contents (Elt F) → (⟨S128x512x128, .f32⟩ : BufTy).Contents (Elt F)),
    StableHlo.binary main_v48 main_v49 main_v50 (addf : (⟨S128x512x128, .f32⟩ : BufTy).Contents (Elt F) → (⟨S128x512x128, .f32⟩ : BufTy).Contents (Elt F) → (⟨S128x512x128, .f32⟩ : BufTy).Contents (Elt F)),
    StableHlo.binary main_v50 main_arg3 main_v51 ((fun l r => Host.dotGeneral dot_S128x512x128_S128x128_S128x512x128_2_0_01_1_n_n none l r) : (⟨S128x512x128, .f32⟩ : BufTy).Contents (Elt F) → (⟨S128x128, .f32⟩ : BufTy).Contents (Elt F) → (⟨S128x512x128, .f32⟩ : BufTy).Contents (Elt F)),
    StableHlo.unary main_arg4 main_v52 (broadcastInDim S1x1x128 ![2] bcast_S128_S1x1x128_2 : (⟨S128, .f32⟩ : BufTy).Contents (Elt F) → (⟨S1x1x128, .f32⟩ : BufTy).Contents (Elt F)),
    StableHlo.unary main_v52 main_v53 (broadcastInDim S128x512x128 ![0, 1, 2] bcast_S1x1x128_S128x512x128_0_1_2 : (⟨S1x1x128, .f32⟩ : BufTy).Contents (Elt F) → (⟨S128x512x128, .f32⟩ : BufTy).Contents (Elt F)),
    StableHlo.binary main_v51 main_v53 main_v54 (addf : (⟨S128x512x128, .f32⟩ : BufTy).Contents (Elt F) → (⟨S128x512x128, .f32⟩ : BufTy).Contents (Elt F) → (⟨S128x512x128, .f32⟩ : BufTy).Contents (Elt F)) ]

/-- @relu's operations at @main's call 4 (record main_call4), in order (3). -/
abbrev ops_call4 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S128x512x128, .f32⟩) (broadcastInDim S128x512x128 ![] bcast_S_S128x512x128),
    StableHlo.TRef.binary (.of main_v54 : StableHlo.TRef sig ⟨S128x512x128, .f32⟩) (.of main_call4_v0 : StableHlo.TRef sig ⟨S128x512x128, .f32⟩) (.of main_v55 : StableHlo.TRef sig ⟨S128x512x128, .f32⟩) maximumf ]

/-- @main's own operations %v56 … %v65, in order (10). -/
abbrev ops_b3 : List (HloOp τ sig (Elt F)) :=
  [ StableHlo.binary main_v43 main_v55 main_v56 ((fun l r => Host.dotGeneral dot_S128x512x512_S128x512x128_S128x512x128_2_1_1_2_0_0 none l r) : (⟨S128x512x512, .f32⟩ : BufTy).Contents (Elt F) → (⟨S128x512x128, .f32⟩ : BufTy).Contents (Elt F) → (⟨S128x512x128, .f32⟩ : BufTy).Contents (Elt F)),
    StableHlo.binary main_v55 main_v56 main_v57 (addf : (⟨S128x512x128, .f32⟩ : BufTy).Contents (Elt F) → (⟨S128x512x128, .f32⟩ : BufTy).Contents (Elt F) → (⟨S128x512x128, .f32⟩ : BufTy).Contents (Elt F)),
    StableHlo.binary main_v43 main_v56 main_v58 ((fun l r => Host.dotGeneral dot_S128x512x512_S128x512x128_S128x512x128_2_1_1_2_0_0 none l r) : (⟨S128x512x512, .f32⟩ : BufTy).Contents (Elt F) → (⟨S128x512x128, .f32⟩ : BufTy).Contents (Elt F) → (⟨S128x512x128, .f32⟩ : BufTy).Contents (Elt F)),
    StableHlo.binary main_v57 main_v58 main_v59 (addf : (⟨S128x512x128, .f32⟩ : BufTy).Contents (Elt F) → (⟨S128x512x128, .f32⟩ : BufTy).Contents (Elt F) → (⟨S128x512x128, .f32⟩ : BufTy).Contents (Elt F)),
    StableHlo.binary main_v43 main_v58 main_v60 ((fun l r => Host.dotGeneral dot_S128x512x512_S128x512x128_S128x512x128_2_1_1_2_0_0 none l r) : (⟨S128x512x512, .f32⟩ : BufTy).Contents (Elt F) → (⟨S128x512x128, .f32⟩ : BufTy).Contents (Elt F) → (⟨S128x512x128, .f32⟩ : BufTy).Contents (Elt F)),
    StableHlo.binary main_v59 main_v60 main_v61 (addf : (⟨S128x512x128, .f32⟩ : BufTy).Contents (Elt F) → (⟨S128x512x128, .f32⟩ : BufTy).Contents (Elt F) → (⟨S128x512x128, .f32⟩ : BufTy).Contents (Elt F)),
    StableHlo.binary main_v61 main_arg5 main_v62 ((fun l r => Host.dotGeneral dot_S128x512x128_S128x128_S128x512x128_2_0_01_1_n_n none l r) : (⟨S128x512x128, .f32⟩ : BufTy).Contents (Elt F) → (⟨S128x128, .f32⟩ : BufTy).Contents (Elt F) → (⟨S128x512x128, .f32⟩ : BufTy).Contents (Elt F)),
    StableHlo.unary main_arg6 main_v63 (broadcastInDim S1x1x128 ![2] bcast_S128_S1x1x128_2 : (⟨S128, .f32⟩ : BufTy).Contents (Elt F) → (⟨S1x1x128, .f32⟩ : BufTy).Contents (Elt F)),
    StableHlo.unary main_v63 main_v64 (broadcastInDim S128x512x128 ![0, 1, 2] bcast_S1x1x128_S128x512x128_0_1_2 : (⟨S1x1x128, .f32⟩ : BufTy).Contents (Elt F) → (⟨S128x512x128, .f32⟩ : BufTy).Contents (Elt F)),
    StableHlo.binary main_v62 main_v64 main_v65 (addf : (⟨S128x512x128, .f32⟩ : BufTy).Contents (Elt F) → (⟨S128x512x128, .f32⟩ : BufTy).Contents (Elt F) → (⟨S128x512x128, .f32⟩ : BufTy).Contents (Elt F)) ]

/-- @relu's operations at @main's call 5 (record main_call5), in order (3). -/
abbrev ops_call5 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S128x512x128, .f32⟩) (broadcastInDim S128x512x128 ![] bcast_S_S128x512x128),
    StableHlo.TRef.binary (.of main_v65 : StableHlo.TRef sig ⟨S128x512x128, .f32⟩) (.of main_call5_v0 : StableHlo.TRef sig ⟨S128x512x128, .f32⟩) (.of main_v66 : StableHlo.TRef sig ⟨S128x512x128, .f32⟩) maximumf ]

/-- @main's own operations %cst_13 … %v69, in order (5). -/
abbrev ops_b4 : List (HloOp τ sig (Elt F)) :=
  [ StableHlo.nullary main_cst_13 (constant S_ .f32 0x00000000#32),
    StableHlo.binary main_v66 main_cst_13 main_v67 ((fun x v => Host.reduceAdd x v reducesTo_S128x512x128_S128x128_d1 h_S_) : (⟨S128x512x128, .f32⟩ : BufTy).Contents (Elt F) → (⟨S_, .f32⟩ : BufTy).Contents (Elt F) → (⟨S128x128, .f32⟩ : BufTy).Contents (Elt F)),
    StableHlo.nullary main_cst_14 (constant S_ .f32 0x44000000#32),
    StableHlo.unary main_cst_14 main_v68 (broadcastInDim S128x128 ![] bcast_S_S128x128 : (⟨S_, .f32⟩ : BufTy).Contents (Elt F) → (⟨S128x128, .f32⟩ : BufTy).Contents (Elt F)),
    StableHlo.binary main_v67 main_v68 main_v69 (Host.divf : (⟨S128x128, .f32⟩ : BufTy).Contents (Elt F) → (⟨S128x128, .f32⟩ : BufTy).Contents (Elt F) → (⟨S128x128, .f32⟩ : BufTy).Contents (Elt F)) ]

/-- @main's own operations %v70 … %v73, in order (4). -/
abbrev ops_c0 : List (HloOp τ sig (Elt F)) :=
  [ StableHlo.binary main_v69 main_arg7 main_v70 ((fun l r => Host.dotGeneral dot_S128x128_S128x64_S128x64_1_0_0_1_n_n none l r) : (⟨S128x128, .f32⟩ : BufTy).Contents (Elt F) → (⟨S128x64, .f32⟩ : BufTy).Contents (Elt F) → (⟨S128x64, .f32⟩ : BufTy).Contents (Elt F)),
    StableHlo.unary main_arg8 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S128x64 ![0, 1] bcast_S1x64_S128x64_0_1 : (⟨S1x64, .f32⟩ : BufTy).Contents (Elt F) → (⟨S128x64, .f32⟩ : BufTy).Contents (Elt F)),
    StableHlo.binary main_v70 main_v72 main_v73 (addf : (⟨S128x64, .f32⟩ : BufTy).Contents (Elt F) → (⟨S128x64, .f32⟩ : BufTy).Contents (Elt F) → (⟨S128x64, .f32⟩ : BufTy).Contents (Elt F)) ]

/-- @relu_2's operations at @main's call 6 (record main_call6), in order (3). -/
abbrev ops_call6 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S128x64, .f32⟩) (broadcastInDim S128x64 ![] bcast_S_S128x64),
    StableHlo.TRef.binary (.of main_v73 : StableHlo.TRef sig ⟨S128x64, .f32⟩) (.of main_call6_v0 : StableHlo.TRef sig ⟨S128x64, .f32⟩) (.of main_v74 : StableHlo.TRef sig ⟨S128x64, .f32⟩) maximumf ]

/-- @main's own operations %v75 … %v79, in order (5). -/
abbrev ops_c1 : List (HloOp τ sig (Elt F)) :=
  [ StableHlo.binary main_v74 main_arg9 main_v75 ((fun l r => Host.dotGeneral dot_S128x64_S64x1_S128x1_1_0_0_1_n_n none l r) : (⟨S128x64, .f32⟩ : BufTy).Contents (Elt F) → (⟨S64x1, .f32⟩ : BufTy).Contents (Elt F) → (⟨S128x1, .f32⟩ : BufTy).Contents (Elt F)),
    StableHlo.unary main_arg10 main_v76 (broadcastInDim S1x1 ![1] bcast_S1_S1x1_1 : (⟨S1, .f32⟩ : BufTy).Contents (Elt F) → (⟨S1x1, .f32⟩ : BufTy).Contents (Elt F)),
    StableHlo.unary main_v76 main_v77 (broadcastInDim S128x1 ![0, 1] bcast_S1x1_S128x1_0_1 : (⟨S1x1, .f32⟩ : BufTy).Contents (Elt F) → (⟨S128x1, .f32⟩ : BufTy).Contents (Elt F)),
    StableHlo.binary main_v75 main_v77 main_v78 (addf : (⟨S128x1, .f32⟩ : BufTy).Contents (Elt F) → (⟨S128x1, .f32⟩ : BufTy).Contents (Elt F) → (⟨S128x1, .f32⟩ : BufTy).Contents (Elt F)),
    StableHlo.reshape main_v78 main_v79 rfl shapeCasts_S128x1_S128 ]

/-! ## The whole line -/

/-- The operations of @main's first window (statements 1 … 60: %0 … %44). -/
abbrev ops_part0 : List (HloOp τ sig (Elt F)) :=
  ops_a0 ++ (ops_call0 ++ (ops_a1 ++ (ops_call1 ++ (ops_a2 ++ (ops_call2 ++ (ops_a3 ++ (ops_b0 ++ (ops_call3 ++ (ops_b1)))))))))
/-- The operations of @main's second window (statements 61 … 98: %45 … %79). -/
abbrev ops_part1 : List (HloOp τ sig (Elt F)) :=
  ops_b2 ++ (ops_call4 ++ (ops_b3 ++ (ops_call5 ++ (ops_b4 ++ (ops_c0 ++ (ops_call6 ++ (ops_c1)))))))
/-- All of @main's operations, in order, the calls inlined (161). -/
abbrev ops : List (HloOp τ sig (Elt F)) := ops_part0 ++ ops_part1

/-- The operations up to the scattered adjacency %30. -/
abbrev opsHead : List (HloOp τ sig (Elt F)) :=
  ops_a0 ++ (ops_call0 ++ (ops_a1 ++ (ops_call1 ++ (ops_a2 ++ (ops_call2 ++ (ops_a3))))))
/-- The operations %31 … %69: from the adjacency to the pooled mean. -/
abbrev opsMid : List (HloOp τ sig (Elt F)) :=
  ops_b0 ++ (ops_call3 ++ (ops_b1 ++ (ops_b2 ++ (ops_call4 ++ (ops_b3 ++ (ops_call5 ++ (ops_b4)))))))
/-- The closing operations %70 … %79. -/
abbrev opsTail : List (HloOp τ sig (Elt F)) :=
  ops_c0 ++ (ops_call6 ++ (ops_c1))

/-! ## Side facts, stretch by stretch

Each operation touches TensorCore references only; none leaves its result undetermined; and each writes exactly one
reference — listed per stretch, for telling which references the line leaves alone. -/

theorem ops_a0_sub : (ops_a0 : List (HloOp τ sig (Elt F))).Forall fun op => op.bufs ⊆ tcRefs τ sig :=
  ⟨unary_bufs_sub .., reshape_bufs_sub .., nullary_bufs_sub ..⟩
theorem ops_a0_fresh : (ops_a0 : List (HloOp τ sig (Elt F))).Forall fun op => op.fresh = ∅ :=
  ⟨rfl, rfl, rfl⟩
/-- The references stretch a0 writes, operation by operation. -/
abbrev wr_a0 : List (Ref sig .tc) :=
  [main_v0, main_v1, main_c]
theorem ops_a0_writes : Cert.LibAfter.Writes (ops_a0 : List (HloOp τ sig (Elt F))) wr_a0 :=
  List.Forall₂.cons rfl (List.Forall₂.cons rfl (List.Forall₂.cons rfl (List.Forall₂.nil)))

theorem ops_call0_sub : (ops_call0 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem ops_call0_fresh : (ops_call0 : List (HloOp τ sig (Elt F))).Forall fun op => op.fresh = ∅ :=
  ⟨rfl, rfl, rfl, rfl, rfl, rfl, rfl, rfl, rfl, rfl, rfl, rfl, rfl, rfl, rfl, rfl, rfl⟩
/-- The references stretch call0 writes, operation by operation. -/
abbrev wr_call0 : List (Ref sig .tc) :=
  [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v2]
theorem ops_call0_writes : Cert.LibAfter.Writes (ops_call0 : List (HloOp τ sig (Elt F))) wr_call0 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))

theorem ops_a1_sub : (ops_a1 : List (HloOp τ sig (Elt F))).Forall fun op => op.bufs ⊆ tcRefs τ sig :=
  ⟨unary_bufs_sub .., reshape_bufs_sub .., nullary_bufs_sub ..⟩
theorem ops_a1_fresh : (ops_a1 : List (HloOp τ sig (Elt F))).Forall fun op => op.fresh = ∅ :=
  ⟨rfl, rfl, rfl⟩
/-- The references stretch a1 writes, operation by operation. -/
abbrev wr_a1 : List (Ref sig .tc) :=
  [main_v3, main_v4, main_c_0]
theorem ops_a1_writes : Cert.LibAfter.Writes (ops_a1 : List (HloOp τ sig (Elt F))) wr_a1 :=
  List.Forall₂.cons rfl (List.Forall₂.cons rfl (List.Forall₂.cons rfl (List.Forall₂.nil)))

theorem ops_call1_sub : (ops_call1 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem ops_call1_fresh : (ops_call1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- The references stretch call1 writes, operation by operation. -/
abbrev wr_call1 : List (Ref sig .tc) :=
  [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v5]
theorem ops_call1_writes : Cert.LibAfter.Writes (ops_call1 : List (HloOp τ sig (Elt F))) wr_call1 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))))

theorem ops_a2_sub : (ops_a2 : List (HloOp τ sig (Elt F))).Forall fun op => op.bufs ⊆ tcRefs τ sig :=
  ⟨unary_bufs_sub .., reshape_bufs_sub .., nullary_bufs_sub ..⟩
theorem ops_a2_fresh : (ops_a2 : List (HloOp τ sig (Elt F))).Forall fun op => op.fresh = ∅ :=
  ⟨rfl, rfl, rfl⟩
/-- The references stretch a2 writes, operation by operation. -/
abbrev wr_a2 : List (Ref sig .tc) :=
  [main_v6, main_v7, main_c_1]
theorem ops_a2_writes : Cert.LibAfter.Writes (ops_a2 : List (HloOp τ sig (Elt F))) wr_a2 :=
  List.Forall₂.cons rfl (List.Forall₂.cons rfl (List.Forall₂.cons rfl (List.Forall₂.nil)))

theorem ops_call2_sub : (ops_call2 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem ops_call2_fresh : (ops_call2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- The references stretch call2 writes, operation by operation. -/
abbrev wr_call2 : List (Ref sig .tc) :=
  [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v8]
theorem ops_call2_writes : Cert.LibAfter.Writes (ops_call2 : List (HloOp τ sig (Elt F))) wr_call2 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))))

theorem ops_a3_sub : (ops_a3 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., nullary_bufs_sub .., unary_bufs_sub .., ternary_bufs_sub ..⟩
theorem ops_a3_fresh : (ops_a3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references stretch a3 writes, operation by operation. -/
abbrev wr_a3 : List (Ref sig .tc) :=
  [main_cst, main_v9, main_c_2, main_v10, main_v11, main_c_3, main_v12, main_v13, main_v14, main_c_4, main_v15, main_v16, main_c_5, main_v17, main_v18, main_v19, main_c_6, main_v20, main_v21, main_c_7, main_v22, main_v23, main_v24, main_v25, main_v26, main_v27, main_v28, main_cst_8, main_v29, main_v30]
theorem ops_a3_writes : Cert.LibAfter.Writes (ops_a3 : List (HloOp τ sig (Elt F))) wr_a3 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))

theorem ops_b0_sub : (ops_b0 : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., unary_bufs_sub .., nullary_bufs_sub ..⟩
theorem ops_b0_fresh : (ops_b0 : List (HloOp τ sig (Elt F))).Forall fun op => op.fresh = ∅ :=
  ⟨rfl, rfl, rfl, rfl, rfl, rfl, rfl, rfl, rfl, rfl⟩
/-- The references stretch b0 writes, operation by operation. -/
abbrev wr_b0 : List (Ref sig .tc) :=
  [main_cst_9, main_v31, main_cst_10, main_v32, main_v33, main_cst_11, main_v34, main_v35, main_v36, main_cst_12]
theorem ops_b0_writes : Cert.LibAfter.Writes (ops_b0 : List (HloOp τ sig (Elt F))) wr_b0 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))

theorem ops_call3_sub : (ops_call3 : List (HloOp τ sig (Elt F))).Forall fun op => op.bufs ⊆ tcRefs τ sig :=
  ⟨unary_bufs_sub .., unary_bufs_sub .., ternary_bufs_sub ..⟩
theorem ops_call3_fresh : (ops_call3 : List (HloOp τ sig (Elt F))).Forall fun op => op.fresh = ∅ :=
  ⟨rfl, rfl, rfl⟩
/-- The references stretch call3 writes, operation by operation. -/
abbrev wr_call3 : List (Ref sig .tc) :=
  [main_call3_v0, main_call3_v1, main_v37]
theorem ops_call3_writes : Cert.LibAfter.Writes (ops_call3 : List (HloOp τ sig (Elt F))) wr_call3 :=
  List.Forall₂.cons rfl (List.Forall₂.cons rfl (List.Forall₂.cons rfl (List.Forall₂.nil)))

theorem ops_b1_sub : (ops_b1 : List (HloOp τ sig (Elt F))).Forall fun op => op.bufs ⊆ tcRefs τ sig :=
  ⟨unary_bufs_sub .., unary_bufs_sub .., binary_bufs_sub .., unary_bufs_sub .., unary_bufs_sub .., binary_bufs_sub .., reshape_bufs_sub ..⟩
theorem ops_b1_fresh : (ops_b1 : List (HloOp τ sig (Elt F))).Forall fun op => op.fresh = ∅ :=
  ⟨rfl, rfl, rfl, rfl, rfl, rfl, rfl⟩
/-- The references stretch b1 writes, operation by operation. -/
abbrev wr_b1 : List (Ref sig .tc) :=
  [main_v38, main_v39, main_v40, main_v41, main_v42, main_v43, main_v44]
theorem ops_b1_writes : Cert.LibAfter.Writes (ops_b1 : List (HloOp τ sig (Elt F))) wr_b1 :=
  List.Forall₂.cons rfl (List.Forall₂.cons rfl (List.Forall₂.cons rfl (List.Forall₂.cons rfl (List.Forall₂.cons rfl (List.Forall₂.cons rfl (List.Forall₂.cons rfl (List.Forall₂.nil)))))))

theorem ops_b2_sub : (ops_b2 : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., unary_bufs_sub .., unary_bufs_sub .., binary_bufs_sub ..⟩
theorem ops_b2_fresh : (ops_b2 : List (HloOp τ sig (Elt F))).Forall fun op => op.fresh = ∅ :=
  ⟨rfl, rfl, rfl, rfl, rfl, rfl, rfl, rfl, rfl, rfl⟩
/-- The references stretch b2 writes, operation by operation. -/
abbrev wr_b2 : List (Ref sig .tc) :=
  [main_v45, main_v46, main_v47, main_v48, main_v49, main_v50, main_v51, main_v52, main_v53, main_v54]
theorem ops_b2_writes : Cert.LibAfter.Writes (ops_b2 : List (HloOp τ sig (Elt F))) wr_b2 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))

theorem ops_call4_sub : (ops_call4 : List (HloOp τ sig (Elt F))).Forall fun op => op.bufs ⊆ tcRefs τ sig :=
  ⟨nullary_bufs_sub .., unary_bufs_sub .., binary_bufs_sub ..⟩
theorem ops_call4_fresh : (ops_call4 : List (HloOp τ sig (Elt F))).Forall fun op => op.fresh = ∅ :=
  ⟨rfl, rfl, rfl⟩
/-- The references stretch call4 writes, operation by operation. -/
abbrev wr_call4 : List (Ref sig .tc) :=
  [main_call4_cst, main_call4_v0, main_v55]
theorem ops_call4_writes : Cert.LibAfter.Writes (ops_call4 : List (HloOp τ sig (Elt F))) wr_call4 :=
  List.Forall₂.cons rfl (List.Forall₂.cons rfl (List.Forall₂.cons rfl (List.Forall₂.nil)))

theorem ops_b3_sub : (ops_b3 : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., unary_bufs_sub .., unary_bufs_sub .., binary_bufs_sub ..⟩
theorem ops_b3_fresh : (ops_b3 : List (HloOp τ sig (Elt F))).Forall fun op => op.fresh = ∅ :=
  ⟨rfl, rfl, rfl, rfl, rfl, rfl, rfl, rfl, rfl, rfl⟩
/-- The references stretch b3 writes, operation by operation. -/
abbrev wr_b3 : List (Ref sig .tc) :=
  [main_v56, main_v57, main_v58, main_v59, main_v60, main_v61, main_v62, main_v63, main_v64, main_v65]
theorem ops_b3_writes : Cert.LibAfter.Writes (ops_b3 : List (HloOp τ sig (Elt F))) wr_b3 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))

theorem ops_call5_sub : (ops_call5 : List (HloOp τ sig (Elt F))).Forall fun op => op.bufs ⊆ tcRefs τ sig :=
  ⟨nullary_bufs_sub .., unary_bufs_sub .., binary_bufs_sub ..⟩
theorem ops_call5_fresh : (ops_call5 : List (HloOp τ sig (Elt F))).Forall fun op => op.fresh = ∅ :=
  ⟨rfl, rfl, rfl⟩
/-- The references stretch call5 writes, operation by operation. -/
abbrev wr_call5 : List (Ref sig .tc) :=
  [main_call5_cst, main_call5_v0, main_v66]
theorem ops_call5_writes : Cert.LibAfter.Writes (ops_call5 : List (HloOp τ sig (Elt F))) wr_call5 :=
  List.Forall₂.cons rfl (List.Forall₂.cons rfl (List.Forall₂.cons rfl (List.Forall₂.nil)))

theorem ops_b4_sub : (ops_b4 : List (HloOp τ sig (Elt F))).Forall fun op => op.bufs ⊆ tcRefs τ sig :=
  ⟨nullary_bufs_sub .., binary_bufs_sub .., nullary_bufs_sub .., unary_bufs_sub .., binary_bufs_sub ..⟩
theorem ops_b4_fresh : (ops_b4 : List (HloOp τ sig (Elt F))).Forall fun op => op.fresh = ∅ :=
  ⟨rfl, rfl, rfl, rfl, rfl⟩
/-- The references stretch b4 writes, operation by operation. -/
abbrev wr_b4 : List (Ref sig .tc) :=
  [main_cst_13, main_v67, main_cst_14, main_v68, main_v69]
theorem ops_b4_writes : Cert.LibAfter.Writes (ops_b4 : List (HloOp τ sig (Elt F))) wr_b4 :=
  List.Forall₂.cons rfl (List.Forall₂.cons rfl (List.Forall₂.cons rfl (List.Forall₂.cons rfl (List.Forall₂.cons rfl (List.Forall₂.nil)))))

theorem ops_c0_sub : (ops_c0 : List (HloOp τ sig (Elt F))).Forall fun op => op.bufs ⊆ tcRefs τ sig :=
  ⟨binary_bufs_sub .., unary_bufs_sub .., unary_bufs_sub .., binary_bufs_sub ..⟩
theorem ops_c0_fresh : (ops_c0 : List (HloOp τ sig (Elt F))).Forall fun op => op.fresh = ∅ :=
  ⟨rfl, rfl, rfl, rfl⟩
/-- The references stretch c0 writes, operation by operation. -/
abbrev wr_c0 : List (Ref sig .tc) :=
  [main_v70, main_v71, main_v72, main_v73]
theorem ops_c0_writes : Cert.LibAfter.Writes (ops_c0 : List (HloOp τ sig (Elt F))) wr_c0 :=
  List.Forall₂.cons rfl (List.Forall₂.cons rfl (List.Forall₂.cons rfl (List.Forall₂.cons rfl (List.Forall₂.nil))))

theorem ops_call6_sub : (ops_call6 : List (HloOp τ sig (Elt F))).Forall fun op => op.bufs ⊆ tcRefs τ sig :=
  ⟨nullary_bufs_sub .., unary_bufs_sub .., binary_bufs_sub ..⟩
theorem ops_call6_fresh : (ops_call6 : List (HloOp τ sig (Elt F))).Forall fun op => op.fresh = ∅ :=
  ⟨rfl, rfl, rfl⟩
/-- The references stretch call6 writes, operation by operation. -/
abbrev wr_call6 : List (Ref sig .tc) :=
  [main_call6_cst, main_call6_v0, main_v74]
theorem ops_call6_writes : Cert.LibAfter.Writes (ops_call6 : List (HloOp τ sig (Elt F))) wr_call6 :=
  List.Forall₂.cons rfl (List.Forall₂.cons rfl (List.Forall₂.cons rfl (List.Forall₂.nil)))

theorem ops_c1_sub : (ops_c1 : List (HloOp τ sig (Elt F))).Forall fun op => op.bufs ⊆ tcRefs τ sig :=
  ⟨binary_bufs_sub .., unary_bufs_sub .., unary_bufs_sub .., binary_bufs_sub .., reshape_bufs_sub ..⟩
theorem ops_c1_fresh : (ops_c1 : List (HloOp τ sig (Elt F))).Forall fun op => op.fresh = ∅ :=
  ⟨rfl, rfl, rfl, rfl, rfl⟩
/-- The references stretch c1 writes, operation by operation. -/
abbrev wr_c1 : List (Ref sig .tc) :=
  [main_v75, main_v76, main_v77, main_v78, main_v79]
theorem ops_c1_writes : Cert.LibAfter.Writes (ops_c1 : List (HloOp τ sig (Elt F))) wr_c1 :=
  List.Forall₂.cons rfl (List.Forall₂.cons rfl (List.Forall₂.cons rfl (List.Forall₂.cons rfl (List.Forall₂.cons rfl (List.Forall₂.nil)))))

/-! ## @main is the line -/

set_option maxRecDepth 8192 in
set_option maxHeartbeats 4000000 in
/-- The first window unfolds to its operations: the callees' definitions unfold at their calls, the records at their
    fields, and sequencing reassociates by computation. -/
theorem main_part0_eq (c : Dev nD) : main_part0 (F := F) c = seq ops_part0 := rfl

set_option maxRecDepth 8192 in
set_option maxHeartbeats 4000000 in
/-- The second window likewise. -/
theorem main_part1_eq (c : Dev nD) : main_part1 (F := F) c = seq ops_part1 := rfl

/-- @main runs its two windows in order: the line is their concatenation. -/
theorem main_eq (c : Dev nD) : main (F := F) c = seq ops := by
  show main (F := F) c = seq (ops_part0 ++ ops_part1)
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Side facts of the whole line -/

theorem ops_sub : (ops : List (HloOp τ sig (Elt F))).Forall fun op => op.bufs ⊆ tcRefs τ sig :=
  List.forall_append.mpr ⟨List.forall_append.mpr ⟨ops_a0_sub, List.forall_append.mpr ⟨ops_call0_sub, List.forall_append.mpr ⟨ops_a1_sub, List.forall_append.mpr ⟨ops_call1_sub, List.forall_append.mpr ⟨ops_a2_sub, List.forall_append.mpr ⟨ops_call2_sub, List.forall_append.mpr ⟨ops_a3_sub, List.forall_append.mpr ⟨ops_b0_sub, List.forall_append.mpr ⟨ops_call3_sub, ops_b1_sub⟩⟩⟩⟩⟩⟩⟩⟩⟩,
    List.forall_append.mpr ⟨ops_b2_sub, List.forall_append.mpr ⟨ops_call4_sub, List.forall_append.mpr ⟨ops_b3_sub, List.forall_append.mpr ⟨ops_call5_sub, List.forall_append.mpr ⟨ops_b4_sub, List.forall_append.mpr ⟨ops_c0_sub, List.forall_append.mpr ⟨ops_call6_sub, ops_c1_sub⟩⟩⟩⟩⟩⟩⟩⟩

theorem ops_fresh : ∀ op ∈ (ops : List (HloOp τ sig (Elt F))), op.fresh = ∅ :=
  List.forall_iff_forall_mem.mp (List.forall_append.mpr ⟨List.forall_append.mpr ⟨ops_a0_fresh, List.forall_append.mpr ⟨ops_call0_fresh, List.forall_append.mpr ⟨ops_a1_fresh, List.forall_append.mpr ⟨ops_call1_fresh, List.forall_append.mpr ⟨ops_a2_fresh, List.forall_append.mpr ⟨ops_call2_fresh, List.forall_append.mpr ⟨ops_a3_fresh, List.forall_append.mpr ⟨ops_b0_fresh, List.forall_append.mpr ⟨ops_call3_fresh, ops_b1_fresh⟩⟩⟩⟩⟩⟩⟩⟩⟩,
    List.forall_append.mpr ⟨ops_b2_fresh, List.forall_append.mpr ⟨ops_call4_fresh, List.forall_append.mpr ⟨ops_b3_fresh, List.forall_append.mpr ⟨ops_call5_fresh, List.forall_append.mpr ⟨ops_b4_fresh, List.forall_append.mpr ⟨ops_c0_fresh, List.forall_append.mpr ⟨ops_call6_fresh, ops_c1_fresh⟩⟩⟩⟩⟩⟩⟩⟩)

/-- The references the line writes, operation by operation. -/
abbrev wr : List (Ref sig .tc) :=
  (wr_a0 ++ (wr_call0 ++ (wr_a1 ++ (wr_call1 ++ (wr_a2 ++ (wr_call2 ++ (wr_a3 ++ (wr_b0 ++ (wr_call3 ++ (wr_b1)))))))))) ++ (wr_b2 ++ (wr_call4 ++ (wr_b3 ++ (wr_call5 ++ (wr_b4 ++ (wr_c0 ++ (wr_call6 ++ (wr_c1))))))))

theorem ops_writes : Cert.LibAfter.Writes (ops : List (HloOp τ sig (Elt F))) wr :=
  Cert.LibAfter.writes_append (Cert.LibAfter.writes_append ops_a0_writes (Cert.LibAfter.writes_append ops_call0_writes (Cert.LibAfter.writes_append ops_a1_writes (Cert.LibAfter.writes_append ops_call1_writes (Cert.LibAfter.writes_append ops_a2_writes (Cert.LibAfter.writes_append ops_call2_writes (Cert.LibAfter.writes_append ops_a3_writes (Cert.LibAfter.writes_append ops_b0_writes (Cert.LibAfter.writes_append ops_call3_writes (ops_b1_writes))))))))))
    (Cert.LibAfter.writes_append ops_b2_writes (Cert.LibAfter.writes_append ops_call4_writes (Cert.LibAfter.writes_append ops_b3_writes (Cert.LibAfter.writes_append ops_call5_writes (Cert.LibAfter.writes_append ops_b4_writes (Cert.LibAfter.writes_append ops_c0_writes (Cert.LibAfter.writes_append ops_call6_writes (ops_c1_writes))))))))

set_option maxRecDepth 8192 in
/-- No reference is written twice: the line is in single-assignment form. -/
theorem wr_nodup : (wr : List (Ref sig .tc)).Nodup := by decide

/-- A reference the line does not write keeps its contents. -/
theorem after_keep {r : Ref sig .tc} (hr : r ∉ wr) (V : Valuation τ sig (Elt F)) :
    after ops V (Proc.devRef .tc r) = V (Proc.devRef .tc r) :=
  Cert.LibAfter.after_of_not_written ops_writes hr V

/-- The fold over the line, stretch by stretch. -/
theorem after_ops (V : Valuation τ sig (Elt F)) :
    after ops V = after ops_c1 (after ops_call6 (after ops_c0 (after ops_b4 (after ops_call5 (after ops_b3 (after ops_call4 (after ops_b2 (after ops_b1 (after ops_call3 (after ops_b0 (after ops_a3 (after ops_call2 (after ops_a2 (after ops_call1 (after ops_a1 (after ops_call0 (after ops_a0 (V)))))))))))))))))) := by
  simp only [ops, ops_part0, ops_part1, Cert.LibAfter.after_append]

/-- The fold over the line: the closing operations over the middle over the head. -/
theorem after_ops_head_mid_tail (V : Valuation τ sig (Elt F)) :
    after ops V = after opsTail (after opsMid (after opsHead V)) := by
  simp only [ops, ops_part0, ops_part1, opsHead, opsMid, opsTail, Cert.LibAfter.after_append]

/-! ## The run -/

/-- On every device, for any float values, from any memory with zero counters: every weakly fair execution of @main
    terminates with the result buffer at the fold of the line over the launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v79) = after ops (fun b => m (c, b)) (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v79,
      (h c main_arg0).trans (after_keep (by decide) _),
      (h c main_arg1).trans (after_keep (by decide) _),
      (h c main_arg2).trans (after_keep (by decide) _),
      (h c main_arg3).trans (after_keep (by decide) _),
      (h c main_arg4).trans (after_keep (by decide) _),
      (h c main_arg5).trans (after_keep (by decide) _),
      (h c main_arg6).trans (after_keep (by decide) _),
      (h c main_arg7).trans (after_keep (by decide) _),
      (h c main_arg8).trans (after_keep (by decide) _),
      (h c main_arg9).trans (after_keep (by decide) _),
      (h c main_arg10).trans (after_keep (by decide) _)⟩)
    (run_seq scopedRefs_eq scopedSems_eq defs main (fun _ => ops) main_eq (fun _ => ops_sub) m ρ (fun _ => ops_fresh))

/-- The reference leaves its arguments as it found them. -/
theorem frame_ri : Cert.frame_ReferenceIdeal (hReferenceIdeal := Cert.ReferenceIdeal.Gen.facts)
    (hPre_finite_inputs := Cert.Pre_finite_inputs.Gen.facts) :=
  fun m ρ _ => (θ_run defs _ _).mono (fun _ h c => (h c).2) (run m ρ)

end Cert.ReferenceIdeal.Hand

end
-- ==== Proof.RefRead.lean ====
/-
  The reference's run, read back: what the result buffer holds at the end is the readout (`refTail`) of the middle
  (`Mid.refMid`) of the dense adjacency (`refPro`) of the edge list, at the launch contents of the arguments.

  The line of operations is cut in three — up to the scattered adjacency, from there to the pooled mean, the closing
  operations. Over an ARBITRARY valuation of the buffers each part's result is the corresponding function of the
  buffers it reads: every operation's result is its function of its operands' contents, an operation leaves every
  buffer but its result alone, and what is left after these replacements is the definition's own composition of the
  same functions. A part that does not write a buffer passes it through, which carries the arguments across the parts
  before their use. The three readings compose along the cut.
-/
import proofs.«128234_j52544629899590_1_alg».proof.Proof.RefRun
import proofs.«128234_j52544629899590_1_alg».proof.Proof.RefMid
import proofs.«128234_j52544629899590_1_alg».proof.Proof.RefProTail

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The three parts over an arbitrary valuation -/

set_option maxHeartbeats 16000000 in
/-- The operations up to the scatter leave in the adjacency buffer the dense adjacency of the edge list. -/
theorem head_eq (W : Valuation τ sig (Elt Ideal)) :
    (after (opsHead (F := Ideal)) W (Proc.devRef .tc main_v30) : S128x512x512.Idx → EReal)
      = refPro (W (Proc.devRef .tc main_arg2)) := by
  simp only [opsHead, ops_a0, ops_call0, ops_a1, ops_call1, ops_a2, ops_call2, ops_a3, List.cons_append, List.nil_append,
    List.append_nil]
  after_results_simp
  rfl

set_option maxHeartbeats 16000000 in
/-- The operations from the degree sum to the division by 512 leave in the pooled buffer the middle of what they read:
    the adjacency, the node features, the two layers' weights and biases. -/
theorem mid_eq (W : Valuation τ sig (Elt Ideal)) :
    (after (opsMid (F := Ideal)) W (Proc.devRef .tc main_v69) : S128x128.Idx → EReal)
      = Mid.refMid (W (Proc.devRef .tc main_v30)) (W (Proc.devRef .tc main_arg0)) (W (Proc.devRef .tc main_arg3))
          (W (Proc.devRef .tc main_arg4)) (W (Proc.devRef .tc main_arg5)) (W (Proc.devRef .tc main_arg6)) := by
  simp only [opsMid, ops_b0, ops_call3, ops_b1, ops_b2, ops_call4, ops_b3, ops_call5, ops_b4, List.cons_append,
    List.nil_append, List.append_nil]
  after_results_simp
  rfl

set_option maxHeartbeats 4000000 in
/-- The closing operations leave in the result buffer the readout of the pooled features. -/
theorem tail_eq (W : Valuation τ sig (Elt Ideal)) :
    (after (opsTail (F := Ideal)) W (Proc.devRef .tc main_v79) : S128.Idx → EReal)
      = refTail (W (Proc.devRef .tc main_v69)) (W (Proc.devRef .tc main_arg7)) (W (Proc.devRef .tc main_arg8))
          (W (Proc.devRef .tc main_arg9)) (W (Proc.devRef .tc main_arg10)) := by
  simp only [opsTail, ops_c0, ops_call6, ops_c1, List.cons_append, List.nil_append, List.append_nil]
  after_results
  rfl

/-! ## What a part does not write, it passes through -/

/-- The references the first part writes, operation by operation. -/
abbrev wrHead : List (Ref sig .tc) :=
  wr_a0 ++ (wr_call0 ++ (wr_a1 ++ (wr_call1 ++ (wr_a2 ++ (wr_call2 ++ wr_a3)))))

/-- The references the middle part writes, operation by operation. -/
abbrev wrMid : List (Ref sig .tc) :=
  wr_b0 ++ (wr_call3 ++ (wr_b1 ++ (wr_b2 ++ (wr_call4 ++ (wr_b3 ++ (wr_call5 ++ wr_b4))))))

theorem opsHead_writes : Cert.LibAfter.Writes (opsHead (F := Ideal)) wrHead :=
  Cert.LibAfter.writes_append ops_a0_writes (Cert.LibAfter.writes_append ops_call0_writes
    (Cert.LibAfter.writes_append ops_a1_writes (Cert.LibAfter.writes_append ops_call1_writes
      (Cert.LibAfter.writes_append ops_a2_writes (Cert.LibAfter.writes_append ops_call2_writes ops_a3_writes)))))

theorem opsMid_writes : Cert.LibAfter.Writes (opsMid (F := Ideal)) wrMid :=
  Cert.LibAfter.writes_append ops_b0_writes (Cert.LibAfter.writes_append ops_call3_writes
    (Cert.LibAfter.writes_append ops_b1_writes (Cert.LibAfter.writes_append ops_b2_writes
      (Cert.LibAfter.writes_append ops_call4_writes (Cert.LibAfter.writes_append ops_b3_writes
        (Cert.LibAfter.writes_append ops_call5_writes ops_b4_writes))))))

/-- A reference the first part does not write keeps its contents across it. -/
theorem head_keep {r : Ref sig .tc} (hr : r ∉ wrHead) (W : Valuation τ sig (Elt Ideal)) :
    after (opsHead (F := Ideal)) W (Proc.devRef .tc r) = W (Proc.devRef .tc r) :=
  Cert.LibAfter.after_of_not_written opsHead_writes hr W

/-- A reference the middle part does not write keeps its contents across it. -/
theorem mid_keep {r : Ref sig .tc} (hr : r ∉ wrMid) (W : Valuation τ sig (Elt Ideal)) :
    after (opsMid (F := Ideal)) W (Proc.devRef .tc r) = W (Proc.devRef .tc r) :=
  Cert.LibAfter.after_of_not_written opsMid_writes hr W

/-! ## The whole line -/

/-- After the whole line, from the launch contents `m` of device `c`, the result buffer holds the readout of the middle
    of the adjacency of the edge list, each function at the launch contents of the arguments it takes. -/
theorem result_eq (m : (ℓ : Loc nD τ sig) → Buf (Elt Ideal) ℓ) (c : Dev nD) :
    after (ops (F := Ideal)) (fun b => m (c, b)) (Proc.devRef .tc main_v79)
      = refTail
          (Mid.refMid (refPro (m ((c.tc : Thread nD τ).loc main_arg2))) (m ((c.tc : Thread nD τ).loc main_arg0))
            (m ((c.tc : Thread nD τ).loc main_arg3)) (m ((c.tc : Thread nD τ).loc main_arg4))
            (m ((c.tc : Thread nD τ).loc main_arg5)) (m ((c.tc : Thread nD τ).loc main_arg6)))
          (m ((c.tc : Thread nD τ).loc main_arg7)) (m ((c.tc : Thread nD τ).loc main_arg8))
          (m ((c.tc : Thread nD τ).loc main_arg9)) (m ((c.tc : Thread nD τ).loc main_arg10)) := by
  rw [after_ops_head_mid_tail]
  refine (tail_eq _).trans ?_
  rw [mid_eq, mid_keep (r := main_arg7) (by decide), mid_keep (r := main_arg8) (by decide),
    mid_keep (r := main_arg9) (by decide), mid_keep (r := main_arg10) (by decide)]
  rw [head_eq, head_keep (r := main_arg0) (by decide), head_keep (r := main_arg3) (by decide),
    head_keep (r := main_arg4) (by decide), head_keep (r := main_arg5) (by decide),
    head_keep (r := main_arg6) (by decide), head_keep (r := main_arg7) (by decide),
    head_keep (r := main_arg8) (by decide), head_keep (r := main_arg9) (by decide),
    head_keep (r := main_arg10) (by decide)]

end Cert.ReferenceIdeal.Hand

end
-- ==== Proof.lean ====
/-
  The certificate: a two-layer polynomial graph filter with mean pooling, as a gridded kernel, against its
  whole-batch reference.

  Both programs build the dense adjacency of 128 graphs of 512 nodes from the edge list by the same ninety-nine
  host operations, and both finish with the same read-out layers. In between, the reference normalises the adjacency
  (D^(-1/2) A D^(-1/2)), applies the degree-three filter y + S y + S² y + S³ y with a projection, a bias and a
  rectifier twice, and averages over each graph's nodes, for all graphs at once; the kernel does the same one graph
  at a time — sixteen grid points of eight graphs, one graph per trip of a counted loop — rounding its matrix
  operands to a shorter format on the way in, which at the ideal instance is the identity.

  Frames: the two kernel programs run to the end with their arguments untouched (the region's run goes through the
  eight trips by the loop's invariant; the host operations write only their own results); the reference is a line
  of host operations.
  Values: graph b's pooled features are one function of that graph's adjacency slab and feature rows
  (`Cert.GnnSpec.pooled`); the kernel's output array holds it times 2⁻⁹ and the reference's mean holds it divided by
  512, the same extended real (`Cert.GnnSpec.mean_eq`); the shared operations before and after are carried as the
  same two functions on both sides and never opened.
-/
import proofs.«128234_j52544629899590_1_alg».proof.Defs
import proofs.«128234_j52544629899590_1_alg».proof.Proof.Gen.Kernel
import proofs.«128234_j52544629899590_1_alg».proof.Proof.Gen.KernelIdeal
import proofs.«128234_j52544629899590_1_alg».proof.Proof.Gen.ReferenceIdeal
import proofs.«128234_j52544629899590_1_alg».proof.Proof.Gen.Pre_finite_inputs
import proofs.«128234_j52544629899590_1_alg».proof.Proof.KBitsFrame
import proofs.«128234_j52544629899590_1_alg».proof.Proof.KIdealHost
import proofs.«128234_j52544629899590_1_alg».proof.Proof.KIdealValue
import proofs.«128234_j52544629899590_1_alg».proof.Proof.Bridge
import proofs.«128234_j52544629899590_1_alg».proof.Proof.RefRead
import proofs.«128234_j52544629899590_1_alg».proof.Proof.Spec
import Idealize.ShloMosaic.Adequacy
import Idealize.ShloMosaic.Init

noncomputable section

namespace Cert.Proof

open Idealize.ShloMosaic Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs to the end and leaves its arguments as launched. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The ideal pass rewrote nothing: the idealization is the program's own text read at the ideal instance. -/
theorem preserves : Cert.preserves_Kernel_KernelIdeal := trivial

open Cert.KernelIdeal Cert.KernelIdeal.Hand in
/-- The region's output array is the reference's mean-pooled features of the same arguments: graph by graph and
    feature by feature both are the pooled sum of `Cert.GnnSpec`, times 2⁻⁹ on one side and divided by 512 on the other. -/
theorem pooled_eq (m : (ℓ : Loc nD τ sig) → Buf (Elt Ideal) ℓ) (c : Dev nD) :
    ((dats (F := Ideal) m 0 c).arrAt 6 cfg0.N : S128x128.Idx → EReal)
      = Cert.ReferenceIdeal.Mid.refMid (Cert.ReferenceIdeal.Hand.refPro (m ((c.tc : Thread nD τ).loc main_arg2)))
          (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) := by
  rw [Value.arr6_eq, V_adj, V_feat, V_main_arg3, V_main_arg4, V_main_arg5, V_main_arg6]
  exact Cert.Bridge.arrG_eq_refMid _ _ _ _ _ _ _

/-- At the ideal instance, from memories agreeing on the arguments, both programs run and end with the same result. -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m)
      [Cert.KernelIdeal.Gen.hostOps1, Cert.KernelIdeal.Gen.hostOps1_1, Cert.KernelIdeal.Gen.hostOps1_2] c Cert.KernelIdeal.main_v42, ?_, ?_⟩
  · exact (θ_run Cert.KernelIdeal.defs _ _).mono
      (fun _ h c => ⟨(h c).2 Cert.KernelIdeal.main_v42 (Pipeline.mem_restRefs_of Cert.KernelIdeal.main_v42 (by decide) (by decide)),
        Cert.KernelIdeal.Hand.args_kept m h c⟩)
      (Cert.KernelIdeal.Hand.run_main m ρ)
  · refine (θ_run Cert.ReferenceIdeal.defs _ _).mono (fun _ h c => ⟨(h c).1.trans ?_, (h c).2⟩)
      (Cert.ReferenceIdeal.Hand.run (F := Ideal) m' ρ')
    show _ = Pipeline.afterTail₀ Cert.KernelIdeal.cfgs (Cert.KernelIdeal.Hand.dats m) 0 (Cert.KernelIdeal.Hand.V0 m)
      [Cert.KernelIdeal.Gen.hostOps1, Cert.KernelIdeal.Gen.hostOps1_1, Cert.KernelIdeal.Gen.hostOps1_2] c Cert.KernelIdeal.main_v42
    rw [Cert.ReferenceIdeal.Hand.result_eq, Cert.KernelIdeal.Hand.result_read, pooled_eq,
      (hagree c).1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, Cert.ReferenceIdeal.Hand.frame_ri, preserves, algebraic⟩

end Cert.Proof

end
